-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S40000x100 : Shape := ⟨2, ![40000, 100]⟩
abbrev S40000 : Shape := ⟨1, ![40000]⟩
abbrev S40000x4 : Shape := ⟨2, ![40000, 4]⟩
abbrev S9x64 : Shape := ⟨2, ![9, 64]⟩
abbrev S64 : Shape := ⟨1, ![64]⟩
abbrev S_ : Shape := ⟨0, ![]⟩

class Facts : Prop where
  bcast_S_S40000x100 : S_.BroadcastsInDim S40000x100 (![] : Fin 0 → Fin S40000x100.rank)
  reducesTo_S40000x100_S_d0_1 : S40000x100.ReducesTo [0, 1] S_
  h_S_ : 0 < S_.numel
  bcast_S_S9x64 : S_.BroadcastsInDim S9x64 (![] : Fin 0 → Fin S9x64.rank)
  reducesTo_S9x64_S_d0_1 : S9x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S9x64 .f32) (main_arg7 : FVec F S64 .f32) (main_arg8 : FVec F S64 .f32) (main_v13 : IVec S_ 1) (main_v16 : IVec S40000x100 1) : IVec S_ 1 :=
  let main_c_5 : IVec S_ 1 := constantI S_ 1 1#1
  let main_v17 : IVec S_ 1 := (fun x v => Host.reduce IntOp.andi x v reducesTo_S40000x100_S_d0_1 h_S_) main_v16 main_c_5
  let main_v18 : IVec S_ 1 := andi main_v13 main_v17
  let main_v19 : FVec F S9x64 .f32 := Host.absf main_arg6
  let main_cst_6 : FVec F S_ .f32 := constant S_ .f32 0x7F800000#32
  let main_v20 : FVec F S9x64 .f32 := broadcastInDim S9x64 ![] bcast_S_S9x64 main_cst_6
  let main_v21 : IVec S9x64 1 := cmpf .olt main_v19 main_v20
  let main_c_7 : IVec S_ 1 := constantI S_ 1 1#1
  let main_v22 : IVec S_ 1 := (fun x v => Host.reduce IntOp.andi x v reducesTo_S9x64_S_d0_1 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S40000x100 .f32) (main_arg1 : FVec F S40000x100 .f32) (main_arg2 : FVec F S40000x100 .f32) (main_arg3 : FVec F S40000x100 .f32) (main_arg4 : IVec S40000 32) (main_arg5 : IVec S40000x4 32) (main_arg6 : FVec F S9x64 .f32) (main_arg7 : FVec F S64 .f32) (main_arg8 : FVec F S64 .f32) : IVec S_ 1 :=
  let main_v0 : FVec F S40000x100 .f32 := Host.absf main_arg0
  let main_cst : FVec F S_ .f32 := constant S_ .f32 0x7F800000#32
  let main_v1 : FVec F S40000x100 .f32 := broadcastInDim S40000x100 ![] bcast_S_S40000x100 main_cst
  let main_v2 : IVec S40000x100 1 := cmpf .olt main_v0 main_v1
  let main_c : IVec S_ 1 := constantI S_ 1 1#1
  let main_v3 : IVec S_ 1 := (fun x v => Host.reduce IntOp.andi x v reducesTo_S40000x100_S_d0_1 h_S_) main_v2 main_c
  let main_v4 : FVec F S40000x100 .f32 := Host.absf main_arg1
  let main_cst_0 : FVec F S_ .f32 := constant S_ .f32 0x7F800000#32
  let main_v5 : FVec F S40000x100 .f32 := broadcastInDim S40000x100 ![] bcast_S_S40000x100 main_cst_0
  let main_v6 : IVec S40000x100 1 := cmpf .olt main_v4 main_v5
  let main_c_1 : IVec S_ 1 := constantI S_ 1 1#1
  let main_v7 : IVec S_ 1 := (fun x v => Host.reduce IntOp.andi x v reducesTo_S40000x100_S_d0_1 h_S_) main_v6 main_c_1
  let main_v8 : IVec S_ 1 := andi main_v3 main_v7
  let main_v9 : FVec F S40000x100 .f32 := Host.absf main_arg2
  let main_cst_2 : FVec F S_ .f32 := constant S_ .f32 0x7F800000#32
  let main_v10 : FVec F S40000x100 .f32 := broadcastInDim S40000x100 ![] bcast_S_S40000x100 main_cst_2
  let main_v11 : IVec S40000x100 1 := cmpf .olt main_v9 main_v10
  let main_c_3 : IVec S_ 1 := constantI S_ 1 1#1
  let main_v12 : IVec S_ 1 := (fun x v => Host.reduce IntOp.andi x v reducesTo_S40000x100_S_d0_1 h_S_) main_v11 main_c_3
  let main_v13 : IVec S_ 1 := andi main_v8 main_v12
  let main_v14 : FVec F S40000x100 .f32 := Host.absf main_arg3
  let main_cst_4 : FVec F S_ .f32 := constant S_ .f32 0x7F800000#32
  let main_v15 : FVec F S40000x100 .f32 := broadcastInDim S40000x100 ![] bcast_S_S40000x100 main_cst_4
  let main_v16 : IVec S40000x100 1 := cmpf .olt main_v14 main_v15
  fn_part1 (F := F) main_arg6 main_arg7 main_arg8 main_v13 main_v16
-- ==== Kernel.lean ====
abbrev S40000x100 : Shape := ⟨2, ![40000, 100]⟩
abbrev S40000 : Shape := ⟨1, ![40000]⟩
abbrev S40000x4 : Shape := ⟨2, ![40000, 4]⟩
abbrev S9x64 : Shape := ⟨2, ![9, 64]⟩
abbrev S64 : Shape := ⟨1, ![64]⟩
abbrev S40000x1 : Shape := ⟨2, ![40000, 1]⟩
abbrev S1x64 : Shape := ⟨2, ![1, 64]⟩
abbrev S400x100 : Shape := ⟨2, ![400, 100]⟩
abbrev S400x1 : Shape := ⟨2, ![400, 1]⟩
abbrev S400x4 : Shape := ⟨2, ![400, 4]⟩
abbrev S400 : Shape := ⟨1, ![400]⟩
abbrev S400x100x64 : Shape := ⟨3, ![400, 100, 64]⟩
abbrev S400x100x1 : Shape := ⟨3, ![400, 100, 1]⟩
abbrev S1x1x64 : Shape := ⟨3, ![1, 1, 64]⟩
abbrev S100x64 : Shape := ⟨2, ![100, 64]⟩
abbrev S_ : Shape := ⟨0, ![]⟩
abbrev S40000x64 : Shape := ⟨2, ![40000, 64]⟩
abbrev S400x64 : Shape := ⟨2, ![400, 64]⟩

abbrev nBuf : Space → Nat
  | .hbm => 23
  | .vmem => 34
  | .smem => 0
  | _ => 0

abbrev bufTy : (tb : Table) → Fin (tcTables nBuf tb) → BufTy
  | .hbm, ⟨0, _⟩ => ⟨S40000x100, .f32⟩
  | .hbm, ⟨1, _⟩ => ⟨S40000x100, .f32⟩
  | .hbm, ⟨2, _⟩ => ⟨S40000x100, .f32⟩
  | .hbm, ⟨3, _⟩ => ⟨S40000x100, .f32⟩
  | .hbm, ⟨4, _⟩ => ⟨S40000, .i32⟩
  | .hbm, ⟨5, _⟩ => ⟨S40000x4, .i32⟩
  | .hbm, ⟨6, _⟩ => ⟨S9x64, .f32⟩
  | .hbm, ⟨7, _⟩ => ⟨S64, .f32⟩
  | .hbm, ⟨8, _⟩ => ⟨S64, .f32⟩
  | .hbm, ⟨9, _⟩ => ⟨S40000x1, .i32⟩
  | .hbm, ⟨10, _⟩ => ⟨S1x64, .f32⟩
  | .hbm, ⟨11, _⟩ => ⟨S1x64, .f32⟩
  | .hbm, ⟨12, _⟩ => ⟨S1x64, .f32⟩
  | .hbm, ⟨13, _⟩ => ⟨S1x64, .f32⟩
  | .hbm, ⟨14, _⟩ => ⟨S_, .f32⟩
  | .hbm, ⟨15, _⟩ => ⟨S1x64, .f32⟩
  | .hbm, ⟨16, _⟩ => ⟨S1x64, .f32⟩
  | .hbm, ⟨17, _⟩ => ⟨S_, .f32⟩
  | .hbm, ⟨18, _⟩ => ⟨S1x64, .f32⟩
  | .hbm, ⟨19, _⟩ => ⟨S1x64, .f32⟩
  | .hbm, ⟨20, _⟩ => ⟨S1x64, .f32⟩
  | .hbm, ⟨21, _⟩ => ⟨S1x64, .f32⟩
  | .hbm, ⟨22, _⟩ => ⟨S40000x64, .f32⟩
  | .local _ .vmem, ⟨0, _⟩ => ⟨S400x100, .f32⟩
  | .local _ .vmem, ⟨1, _⟩ => ⟨S400x100, .f32⟩
  | .local _ .vmem, ⟨2, _⟩ => ⟨S400x100, .f32⟩
  | .local _ .vmem, ⟨3, _⟩ => ⟨S400x100, .f32⟩
  | .local _ .vmem, ⟨4, _⟩ => ⟨S400x100, .f32⟩
  | .local _ .vmem, ⟨5, _⟩ => ⟨S400x100, .f32⟩
  | .local _ .vmem, ⟨6, _⟩ => ⟨S400x100, .f32⟩
  | .local _ .vmem, ⟨7, _⟩ => ⟨S400x100, .f32⟩
  | .local _ .vmem, ⟨8, _⟩ => ⟨S400x1, .i32⟩
  | .local _ .vmem, ⟨9, _⟩ => ⟨S400x1, .i32⟩
  | .local _ .vmem, ⟨10, _⟩ => ⟨S400x4, .i32⟩
  | .local _ .vmem, ⟨11, _⟩ => ⟨S400x4, .i32⟩
  | .local _ .vmem, ⟨12, _⟩ => ⟨S9x64, .f32⟩
  | .local _ .vmem, ⟨13, _⟩ => ⟨S1x64, .f32⟩
  | .local _ .vmem, ⟨14, _⟩ => ⟨S1x64, .f32⟩
  | .local _ .vmem, ⟨15, _⟩ => ⟨S400x100, .f32⟩
  | .local _ .vmem, ⟨16, _⟩ => ⟨S400x100, .f32⟩
  | .local _ .vmem, ⟨17, _⟩ => ⟨S400x100, .f32⟩
  | .local _ .vmem, ⟨18, _⟩ => ⟨S400x100, .f32⟩
  | .local _ .vmem, ⟨19, _⟩ => ⟨S400x100, .f32⟩
  | .local _ .vmem, ⟨20, _⟩ => ⟨S400x100, .f32⟩
  | .local _ .vmem, ⟨21, _⟩ => ⟨S400x100, .f32⟩
  | .local _ .vmem, ⟨22, _⟩ => ⟨S400x100, .f32⟩
  | .local _ .vmem, ⟨23, _⟩ => ⟨S400x1, .i32⟩
  | .local _ .vmem, ⟨24, _⟩ => ⟨S400x1, .i32⟩
  | .local _ .vmem, ⟨25, _⟩ => ⟨S400x4, .i32⟩
  | .local _ .vmem, ⟨26, _⟩ => ⟨S400x4, .i32⟩
  | .local _ .vmem, ⟨27, _⟩ => ⟨S9x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S1x64, .f32⟩
  | .local _ .vmem, ⟨32, _⟩ => ⟨S400x64, .f32⟩
  | .local _ .vmem, ⟨33, _⟩ => ⟨S400x64, .f32⟩
  | _, _ => ⟨S40000x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3_0 : Ref sig .tc := ⟨.hbm, 12, rfl⟩
abbrev main_v3_1 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg5_1 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg10_0 : Ref sig .tc := ⟨.vmem, 31, rfl⟩
abbrev cc1_stg11_0 : Ref sig .tc := ⟨.vmem, 32, rfl⟩
abbrev cc1_stg11_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem5_1 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem10_0 : DmaSem sig := 31
abbrev cc1_sem11_0 : DmaSem sig := 32
abbrev cc1_sem11_1 : DmaSem sig := 33

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x100 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x100 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x100 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x100 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x1 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x4 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S9x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x100 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S400x100 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S400x100 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S400x100 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S400x1 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S400x4 .i32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S9x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S1x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S400x64 .f32 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

class Facts₀ : Prop where
  shapeCasts_S40000_S40000x1 : S40000.ShapeCasts S40000x1
  shapeCasts_S64_S1x64 : S64.ShapeCasts S1x64
  inb_S1x64_S1x64_0_0 : ∀ a, (![0, 0] : Fin 2 → Nat) a + S1x64.size a ≤ S1x64.size a
  h_S1x64 : 0 < S1x64.numel
  inb_S400x100_S400x100_0_0 : ∀ a, (![0, 0] : Fin 2 → Nat) a + S400x100.size a ≤ S400x100.size a
  h_S400x100 : 0 < S400x100.numel
  inb_S400x1_S400x1_0_0 : ∀ a, (![0, 0] : Fin 2 → Nat) a + S400x1.size a ≤ S400x1.size a
  h_S400x1 : 0 < S400x1.numel
  shapeCasts_S400x1_S400x1 : S400x1.ShapeCasts S400x1
  inb_S400x4_S400x4_0_0 : ∀ a, (![0, 0] : Fin 2 → Nat) a + S400x4.size a ≤ S400x4.size a
  h_S400x4 : 0 < S400x4.numel
  inb_S9x64_S9x64_0_0 : ∀ a, (![0, 0] : Fin 2 → Nat) a + S9x64.size a ≤ S9x64.size a
  h_S9x64 : 0 < S9x64.numel
  reduces_S400x100_S400 : S400x100.Reduces [1] S400
  shapeCasts_S400_S400x1 : S400.ShapeCasts S400x1
  broadcasts_S400x1_S400x100 : S400x1.Broadcasts S400x100
  slices_S400x4_o0_3_S400x1 : S400x4.Slices ![0, 3] S400x1
  slices_S400x4_o0_2_S400x1 : S400x4.Slices ![0, 2] S400x1
  iota_S400x100_d1_w32 : S400x100.Iotas .tc 32 [1]
  natLt_1_32 : 1 < 32
  slices_S9x64_o0_0_S1x64 : S9x64.Slices ![0, 0] S1x64
  shapeCasts_S1x64_S64 : S1x64.ShapeCasts S64
  shapeCasts_S400x100_S400x100x1 : S400x100.ShapeCasts S400x100x1
  shapeCasts_S64_S1x1x64 : S64.ShapeCasts S1x1x64
  broadcasts_S400x100x1_S400x100x64 : S400x100x1.Broadcasts S400x100x64
  broadcasts_S1x1x64_S400x100x64 : S1x1x64.Broadcasts S400x100x64
  slices_S9x64_o1_0_S1x64 : S9x64.Slices ![1, 0] S1x64
  slices_S9x64_o2_0_S1x64 : S9x64.Slices ![2, 0] S1x64
  slices_S9x64_o3_0_S1x64 : S9x64.Slices ![3, 0] S1x64
  slices_S9x64_o4_0_S1x64 : S9x64.Slices ![4, 0] S1x64
  slices_S9x64_o5_0_S1x64 : S9x64.Slices ![5, 0] S1x64
  slices_S9x64_o6_0_S1x64 : S9x64.Slices ![6, 0] S1x64
  slices_S9x64_o7_0_S1x64 : S9x64.Slices ![7, 0] S1x64
  slices_S9x64_o8_0_S1x64 : S9x64.Slices ![8, 0] S1x64
  reduces_S400x100x64_S100x64 : S400x100x64.Reduces [0] S100x64
  reduces_S100x64_S64 : S100x64.Reduces [0] S64
  shapeCasts_S1x64_S1x64 : S1x64.ShapeCasts S1x64
  bcast_S_S1x64 : S_.BroadcastsInDim S1x64 (![] : Fin 0 → Fin S1x64.rank)
  shapeCasts_S1x64_S1x1x64 : S1x64.ShapeCasts S1x1x64
  reduces_S400x100x64_S400x64 : S400x100x64.Reduces [1] S400x64
  inb_S400x64_S400x64_0_0 : ∀ a, (![0, 0] : Fin 2 → Nat) a + S400x64.size a ≤ S400x64.size a
  h_S400x64 : 0 < S400x64.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x100.size a ≤ S40000x100.size a
  hwx0_0 : ∀ i : grid0.Coords, EltTy.bits .f32 = 32 ∨ (Rect.block (s := S40000x100) S400x100.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x100.size a ≤ S40000x100.size a
  hwx0_1 : ∀ i : grid0.Coords, EltTy.bits .f32 = 32 ∨ (Rect.block (s := S40000x100) S400x100.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x100.size a ≤ S40000x100.size a
  hwx0_2 : ∀ i : grid0.Coords, EltTy.bits .f32 = 32 ∨ (Rect.block (s := S40000x100) S400x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x100.size a ≤ S40000x100.size a
  hwx0_3 : ∀ i : grid0.Coords, EltTy.bits .f32 = 32 ∨ (Rect.block (s := S40000x100) S400x100.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x1.size a ≤ S40000x1.size a
  hwx0_4 : ∀ i : grid0.Coords, EltTy.bits .i32 = 32 ∨ (Rect.block (s := S40000x1) S400x1.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x4.size a ≤ S40000x4.size a
  hwx0_5 : ∀ i : grid0.Coords, EltTy.bits .i32 = 32 ∨ (Rect.block (s := S40000x4) S400x4.size (cc0_transform_5 i) (hinb0_5 i)).WholeWords (EltTy.packing .i32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S9x64.size a ≤ S9x64.size a
  hwx0_6 : ∀ i : grid0.Coords, EltTy.bits .f32 = 32 ∨ (Rect.block (s := S9x64) S9x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x100.size a ≤ S40000x100.size a
  hwx1_0 : ∀ i : grid1.Coords, EltTy.bits .f32 = 32 ∨ (Rect.block (s := S40000x100) S400x100.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S400x100.size a ≤ S40000x100.size a
  hwx1_1 : ∀ i : grid1.Coords, EltTy.bits .f32 = 32 ∨ (Rect.block (s := S40000x100) S400x100.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x100.size a ≤ S40000x100.size a
  hwx1_2 : ∀ i : grid1.Coords, EltTy.bits .f32 = 32 ∨ (Rect.block (s := S40000x100) S400x100.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x100.size a ≤ S40000x100.size a
  hwx1_3 : ∀ i : grid1.Coords, EltTy.bits .f32 = 32 ∨ (Rect.block (s := S40000x100) S400x100.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x1.size a ≤ S40000x1.size a
  hwx1_4 : ∀ i : grid1.Coords, EltTy.bits .i32 = 32 ∨ (Rect.block (s := S40000x1) S400x1.size (cc1_transform_4 i) (hinb1_4 i)).WholeWords (EltTy.packing .i32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S400x4.size a ≤ S40000x4.size a
  hwx1_5 : ∀ i : grid1.Coords, EltTy.bits .i32 = 32 ∨ (Rect.block (s := S40000x4) S400x4.size (cc1_transform_5 i) (hinb1_5 i)).WholeWords (EltTy.packing .i32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S9x64.size a ≤ S9x64.size a
  hwx1_6 : ∀ i : grid1.Coords, EltTy.bits .f32 = 32 ∨ (Rect.block (s := S9x64) S9x64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x64.size a ≤ S1x64.size a
  hwx1_7 : ∀ i : grid1.Coords, EltTy.bits .f32 = 32 ∨ (Rect.block (s := S1x64) S1x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x64.size a ≤ S1x64.size a
  hwx1_8 : ∀ i : grid1.Coords, EltTy.bits .f32 = 32 ∨ (Rect.block (s := S1x64) S1x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S1x64.size a ≤ S1x64.size a
  hwx1_10 : ∀ i : grid1.Coords, EltTy.bits .f32 = 32 ∨ (Rect.block (s := S1x64) S1x64.size (cc1_transform_10 i) (hinb1_10 i)).WholeWords (EltTy.packing .f32)
  hstage1_11 : ∀ j, (stage1_11 j).IsWhole
  nbuf1_11 : grid1.bufCount reads1_11 false = 2
  hreads1_11 : ∀ i i' : grid1.Coords, (∀ a, reads1_11 a = true → i a = i' a) → cc1_transform_11 i = cc1_transform_11 i'
  hinb1_11 : ∀ (i : grid1.Coords) a, (cc1_transform_11 i a + 1) * S400x64.size a ≤ S40000x64.size a
  hwx1_11 : ∀ i : grid1.Coords, EltTy.bits .f32 = 32 ∨ (Rect.block (s := S40000x64) S400x64.size (cc1_transform_11 i) (hinb1_11 i)).WholeWords (EltTy.packing .f32)

variable [Facts₀]

abbrev win0_0 : Pipeline.Window sig grid0 :=
  Pipeline.Window.ofSpec (Memref.whole main_arg0) S400x100.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x100.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S400x100.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S400x100.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S400x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S400x4.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S9x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3_0) S1x64.size cc0_transform_7 reads0_7 true true 1 stage0_7 sem0_7
    hrank0 hreads0_7 hinb0_7 nbuf0_7 (Memref.isWhole_whole _) hwx0_7 hstage0_7

abbrev win0_8 : Pipeline.Window sig grid0 :=
  Pipeline.Window.ofSpec (Memref.whole main_v3_1) S1x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_arg0) S400x100.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S400x100.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg2) S400x100.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S400x100.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v0) S400x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S400x4.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_arg6) S9x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v5) S1x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v9) S1x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v1) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v2) S1x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v10) S400x64.size cc1_transform_11 reads1_11 true false 2 stage1_11 sem1_11
    hrank1 hreads1_11 hinb1_11 nbuf1_11 (Memref.isWhole_whole _) hwx1_11 hstage1_11

abbrev win1 : Fin 12 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | ⟨_ + 12, h⟩ => absurd h (Nat.not_lt.2 (Nat.le_add_left _ _))
abbrev spec1 : Fin 12 → Pipeline.WinSpec sig grid1.rank := fun w => (win1 w).toWinSpec

class Facts : Prop extends Facts₀ where

variable [Facts]
-- ==== ReferenceIdeal.lean ====
abbrev S40000x100 : Shape := ⟨2, ![40000, 100]⟩
abbrev S40000 : Shape := ⟨1, ![40000]⟩
abbrev S40000x4 : Shape := ⟨2, ![40000, 4]⟩
abbrev S9x64 : Shape := ⟨2, ![9, 64]⟩
abbrev S64 : Shape := ⟨1, ![64]⟩
abbrev S_ : Shape := ⟨0, ![]⟩
abbrev S40000x1 : Shape := ⟨2, ![40000, 1]⟩
abbrev S1x100 : Shape := ⟨2, ![1, 100]⟩
abbrev S100 : Shape := ⟨1, ![100]⟩
abbrev S40000x100x1 : Shape := ⟨3, ![40000, 100, 1]⟩
abbrev S40000x100x9 : Shape := ⟨3, ![40000, 100, 9]⟩
abbrev S40000x100x64 : Shape := ⟨3, ![40000, 100, 64]⟩
abbrev S1x1x64 : Shape := ⟨3, ![1, 1, 64]⟩
abbrev S40000x64 : Shape := ⟨2, ![40000, 64]⟩

abbrev nBuf : Space → Nat
  | .hbm => 139
  | .vmem => 0
  | .smem => 0
  | _ => 0

abbrev hbmTy0_0 (i : Nat) : BufTy := match i % 128 with
  | 0 => ⟨S40000x100, .f32⟩
  | 1 => ⟨S40000x100, .f32⟩
  | 2 => ⟨S40000x100, .f32⟩
  | 3 => ⟨S40000x100, .f32⟩
  | 4 => ⟨S40000, .i32⟩
  | 5 => ⟨S40000x4, .i32⟩
  | 6 => ⟨S9x64, .f32⟩
  | 7 => ⟨S64, .f32⟩
  | 8 => ⟨S64, .f32⟩
  | 9 => ⟨S_, .i32⟩
  | 10 => ⟨S_, .i32⟩
  | 11 => ⟨S40000, .i32⟩
  | 12 => ⟨S40000, .i32⟩
  | 13 => ⟨S40000, .f32⟩
  | 14 => ⟨S40000x1, .f32⟩
  | 15 => ⟨S_, .f32⟩
  | 16 => ⟨S40000, .f32⟩
  | 17 => ⟨S40000x1, .f32⟩
  | 18 => ⟨S40000x1, .f32⟩
  | 19 => ⟨S_, .f32⟩
  | 20 => ⟨S40000, .f32⟩
  | 21 => ⟨S40000x1, .f32⟩
  | 22 => ⟨S40000x1, .f32⟩
  | 23 => ⟨S_, .f32⟩
  | 24 => ⟨S40000, .f32⟩
  | 25 => ⟨S40000x1, .f32⟩
  | 26 => ⟨S40000x1, .f32⟩
  | 27 => ⟨S40000x100, .f32⟩
  | 28 => ⟨S40000x100, .f32⟩
  | 29 => ⟨S40000x100, .f32⟩
  | 30 => ⟨S40000x100, .f32⟩
  | 31 => ⟨S40000x100, .f32⟩
  | 32 => ⟨S40000x100, .f32⟩
  | 33 => ⟨S40000x1, .i32⟩
  | 34 => ⟨S40000, .i32⟩
  | 35 => ⟨S40000, .f32⟩
  | 36 => ⟨S_, .f32⟩
  | 37 => ⟨S40000, .f32⟩
  | 38 => ⟨S40000, .f32⟩
  | 39 => ⟨S_, .f32⟩
  | 40 => ⟨S40000, .f32⟩
  | 41 => ⟨S40000, .f32⟩
  | 42 => ⟨S_, .f32⟩
  | 43 => ⟨S40000, .f32⟩
  | 44 => ⟨S40000, .f32⟩
  | 45 => ⟨S40000x1, .f32⟩
  | 46 => ⟨S_, .f32⟩
  | 47 => ⟨S1x100, .f32⟩
  | 48 => ⟨S40000x100, .f32⟩
  | 49 => ⟨S40000x100, .f32⟩
  | 50 => ⟨S40000x100, .f32⟩
  | 51 => ⟨S40000x1, .i32⟩
  | 52 => ⟨S40000, .i32⟩
  | 53 => ⟨S40000, .f32⟩
  | 54 => ⟨S_, .f32⟩
  | 55 => ⟨S40000, .f32⟩
  | 56 => ⟨S40000, .f32⟩
  | 57 => ⟨S_, .f32⟩
  | 58 => ⟨S40000, .f32⟩
  | 59 => ⟨S40000, .f32⟩
  | 60 => ⟨S_, .f32⟩
  | 61 => ⟨S40000, .f32⟩
  | 62 => ⟨S40000, .f32⟩
  | 63 => ⟨S40000x1, .f32⟩
  | 64 => ⟨S_, .f32⟩
  | 65 => ⟨S1x100, .f32⟩
  | 66 => ⟨S40000x100, .f32⟩
  | 67 => ⟨S40000x100, .f32⟩
  | 68 => ⟨S40000x100, .f32⟩
  | 69 => ⟨S100, .i32⟩
  | 70 => ⟨S1x100, .i32⟩
  | 71 => ⟨S40000x1, .i32⟩
  | 72 => ⟨S40000x100, .i32⟩
  | 73 => ⟨S40000x100, .i32⟩
  | 74 => ⟨S40000x100, .i1⟩
  | 75 => ⟨S40000x100, .f32⟩
  | 76 => ⟨S40000x100x1, .f32⟩
  | 77 => ⟨S40000x100x1, .f32⟩
  | 78 => ⟨S40000x100x1, .f32⟩
  | 79 => ⟨S40000x100x1, .f32⟩
  | 80 => ⟨S40000x100x1, .f32⟩
  | 81 => ⟨S40000x100x1, .f32⟩
  | 82 => ⟨S40000x100x1, .f32⟩
  | 83 => ⟨S40000x100x1, .f32⟩
  | 84 => ⟨S40000x100x1, .f32⟩
  | 85 => ⟨S40000x100x9, .f32⟩
  | 86 => ⟨S40000x100x1, .f32⟩
  | 87 => ⟨S40000x100x9, .f32⟩
  | 88 => ⟨S40000x100x9, .f32⟩
  | 89 => ⟨S40000x100x64, .f32⟩
  | 90 => ⟨S_, .f32⟩
  | 91 => ⟨S64, .f32⟩
  | 92 => ⟨S_, .f32⟩
  | 93 => ⟨S64, .f32⟩
  | 94 => ⟨S64, .f32⟩
  | 95 => ⟨S_, .i32⟩
  | 96 => ⟨S_, .f32⟩
  | 97 => ⟨S64, .f32⟩
  | 98 => ⟨S1x1x64, .f32⟩
  | 99 => ⟨S_, .f32⟩
  | 100 => ⟨S1x1x64, .f32⟩
  | 101 => ⟨S1x1x64, .f32⟩
  | 102 => ⟨S40000x100x64, .f32⟩
  | 103 => ⟨S40000x100x64, .f32⟩
  | 104 => ⟨S40000x100x64, .f32⟩
  | 105 => ⟨S_, .f32⟩
  | 106 => ⟨S_, .f32⟩
  | 107 => ⟨S_, .f32⟩
  | 108 => ⟨S_, .f32⟩
  | 109 => ⟨S64, .f32⟩
  | 110 => ⟨S64, .f32⟩
  | 111 => ⟨S64, .f32⟩
  | 112 => ⟨S_, .f32⟩
  | 113 => ⟨S_, .i1⟩
  | 114 => ⟨S_, .f32⟩
  | 115 => ⟨S_, .f32⟩
  | 116 => ⟨S64, .f32⟩
  | 117 => ⟨S64, .f32⟩
  | 118 => ⟨S1x1x64, .f32⟩
  | 119 => ⟨S40000x100x64, .f32⟩
  | 120 => ⟨S40000x100x64, .f32⟩
  | 121 => ⟨S_, .f32⟩
  | 122 => ⟨S64, .f32⟩
  | 123 => ⟨S64, .f32⟩
  | 124 => ⟨S64, .f32⟩
  | 125 => ⟨S1x1x64, .f32⟩
  | 126 => ⟨S40000x100x64, .f32⟩
  | 127 => ⟨S40000x100x64, .f32⟩
  | _ => ⟨S40000x100, .f32⟩

abbrev hbmTy0_1 (i : Nat) : BufTy := match i % 128 with
  | 0 => ⟨S1x1x64, .f32⟩
  | 1 => ⟨S40000x100x64, .f32⟩
  | 2 => ⟨S40000x100x64, .f32⟩
  | 3 => ⟨S1x1x64, .f32⟩
  | 4 => ⟨S40000x100x64, .f32⟩
  | 5 => ⟨S40000x100x64, .f32⟩
  | 6 => ⟨S_, .f32⟩
  | 7 => ⟨S40000x100x64, .f32⟩
  | 8 => ⟨S40000x100x64, .f32⟩
  | 9 => ⟨S_, .f32⟩
  | 10 => ⟨S40000x64, .f32⟩
  | _ => ⟨S40000x100, .f32⟩

abbrev hbmTy (i : Nat) : BufTy := match i / 128 with
  | 0 => hbmTy0_0 i
  | 1 => hbmTy0_1 i
  | _ => ⟨S40000x100, .f32⟩

abbrev bufTy : (tb : Table) → Fin (tcTables nBuf tb) → BufTy
  | .hbm, ⟨i, _⟩ => hbmTy i
  | _, _ => ⟨S40000x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_1 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_2 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_cst_4 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_cst_5 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_cst_8 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_10 : Ref sig .tc := ⟨.hbm, 90, rfl⟩
abbrev main_v67 : Ref sig .tc := ⟨.hbm, 91, rfl⟩
abbrev main_cst_11 : Ref sig .tc := ⟨.hbm, 92, rfl⟩
abbrev main_v68 : Ref sig .tc := ⟨.hbm, 93, rfl⟩
abbrev main_v69 : Ref sig .tc := ⟨.hbm, 94, rfl⟩
abbrev main_c_12 : Ref sig .tc := ⟨.hbm, 95, rfl⟩
abbrev main_call1_cst : Ref sig .tc := ⟨.hbm, 96, rfl⟩
abbrev main_call1_v0 : Ref sig .tc := ⟨.hbm, 97, rfl⟩
abbrev main_call1_v1 : Ref sig .tc := ⟨.hbm, 98, rfl⟩
abbrev main_call1_cst_0 : Ref sig .tc := ⟨.hbm, 99, rfl⟩
abbrev main_call1_v2 : Ref sig .tc := ⟨.hbm, 100, rfl⟩
abbrev main_call1_v3 : Ref sig .tc := ⟨.hbm, 101, rfl⟩
abbrev main_call1_v4 : Ref sig .tc := ⟨.hbm, 102, rfl⟩
abbrev main_call1_v5 : Ref sig .tc := ⟨.hbm, 103, rfl⟩
abbrev main_call1_v6 : Ref sig .tc := ⟨.hbm, 104, rfl⟩
abbrev main_call1_v7 : Ref sig .tc := ⟨.hbm, 105, rfl⟩
abbrev main_call1_cst_1 : Ref sig .tc := ⟨.hbm, 106, rfl⟩
abbrev main_call1_v8 : Ref sig .tc := ⟨.hbm, 107, rfl⟩
abbrev main_call1_cst_2 : Ref sig .tc := ⟨.hbm, 108, rfl⟩
abbrev main_call1_v9 : Ref sig .tc := ⟨.hbm, 109, rfl⟩
abbrev main_call1_v10 : Ref sig .tc := ⟨.hbm, 110, rfl⟩
abbrev main_call1_v11 : Ref sig .tc := ⟨.hbm, 111, rfl⟩
abbrev main_call1_cst_3 : Ref sig .tc := ⟨.hbm, 112, rfl⟩
abbrev main_call1_v12 : Ref sig .tc := ⟨.hbm, 113, rfl⟩
abbrev main_call1_cst_4 : Ref sig .tc := ⟨.hbm, 114, rfl⟩
abbrev main_call1_call0_v0 : Ref sig .tc := ⟨.hbm, 115, rfl⟩
abbrev main_call1_call0_v1 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_cst_13 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_v80 : Ref sig .tc := ⟨.hbm, 128, rfl⟩
abbrev main_v81 : Ref sig .tc := ⟨.hbm, 129, rfl⟩
abbrev main_v82 : Ref sig .tc := ⟨.hbm, 130, rfl⟩
abbrev main_v83 : Ref sig .tc := ⟨.hbm, 131, rfl⟩
abbrev main_v84 : Ref sig .tc := ⟨.hbm, 132, rfl⟩
abbrev main_v85 : Ref sig .tc := ⟨.hbm, 133, rfl⟩
abbrev main_call2_cst : Ref sig .tc := ⟨.hbm, 134, rfl⟩
abbrev main_call2_v0 : Ref sig .tc := ⟨.hbm, 135, rfl⟩
abbrev main_v86 : Ref sig .tc := ⟨.hbm, 136, rfl⟩
abbrev main_cst_14 : Ref sig .tc := ⟨.hbm, 137, rfl⟩
abbrev main_v87 : Ref sig .tc := ⟨.hbm, 138, rfl⟩

abbrev nD : Nat := 1
abbrev τ : Topo := Topo.v7x

variable {F : FTy → Type} [FloatOps F]

class Facts₀ : Prop where
  bcast_S_S40000 : S_.BroadcastsInDim S40000 (![] : Fin 0 → Fin S40000.rank)
  bcast_S40000_S40000x1_0 : S40000.BroadcastsInDim S40000x1 (![0] : Fin 1 → Fin S40000x1.rank)
  reducesTo_S40000x100_S40000_d1 : S40000x100.ReducesTo [1] S40000
  h_S_ : 0 < S_.numel
  bcast_S40000x1_S40000x100_0_1 : S40000x1.BroadcastsInDim S40000x100 (![0, 1] : Fin 2 → Fin S40000x100.rank)
  slices_S40000x4_S40000x1_0_3 : S40000x4.Slices ![0, 3] S40000x1
  shapeCasts_S40000x1_S40000 : S40000x1.ShapeCasts S40000
  bcast_S_S1x100 : S_.BroadcastsInDim S1x100 (![] : Fin 0 → Fin S1x100.rank)
  bcast_S1x100_S40000x100_0_1 : S1x100.BroadcastsInDim S40000x100 (![0, 1] : Fin 2 → Fin S40000x100.rank)
  slices_S40000x4_S40000x1_0_2 : S40000x4.Slices ![0, 2] S40000x1
  bcast_S100_S1x100_1 : S100.BroadcastsInDim S1x100 (![1] : Fin 1 → Fin S1x100.rank)
  bcast_S40000x100_S40000x100x1_0_1 : S40000x100.BroadcastsInDim S40000x100x1 (![0, 1] : Fin 2 → Fin S40000x100x1.rank)
  concatenates_S40000x100x1_S40000x100x1_S40000x100x1_S40000x100x1_S40000x100x1_S40000x100x1_S40000x100x1_S40000x100x1_S40000x100x1_S40000x100x9_d2 : Shape.Concatenates [S40000x100x1, S40000x100x1, S40000x100x1, S40000x100x1, S40000x100x1, S40000x100x1, S40000x100x1, S40000x100x1, S40000x100x1] S40000x100x9 2
  bcast_S40000x100x1_S40000x100x9_0_1_2 : S40000x100x1.BroadcastsInDim S40000x100x9 (![0, 1, 2] : Fin 3 → Fin S40000x100x9.rank)
  reducesTo_S40000x100x64_S64_d0_1 : S40000x100x64.ReducesTo [0, 1] S64
  bcast_S_S64 : S_.BroadcastsInDim S64 (![] : Fin 0 → Fin S64.rank)
  bcast_S64_S1x1x64_2 : S64.BroadcastsInDim S1x1x64 (![2] : Fin 1 → Fin S1x1x64.rank)
  bcast_S_S1x1x64 : S_.BroadcastsInDim S1x1x64 (![] : Fin 0 → Fin S1x1x64.rank)
  bcast_S1x1x64_S40000x100x64_0_1_2 : S1x1x64.BroadcastsInDim S40000x100x64 (![0, 1, 2] : Fin 3 → Fin S40000x100x64.rank)
  bcast_S_S40000x100x64 : S_.BroadcastsInDim S40000x100x64 (![] : Fin 0 → Fin S40000x100x64.rank)
  reducesTo_S40000x100x64_S40000x64_d1 : S40000x100x64.ReducesTo [1] S40000x64
  dot_S40000x100x9_S9x64_S40000x100x64_2_0_01_1_n_n_wf : DotDims.WF S40000x100x9 S9x64 S40000x100x64 [2] [0] [0, 1] [1] [] []

variable [Facts₀]

def dot_S40000x100x9_S9x64_S40000x100x64_2_0_01_1_n_n : DotDims S40000x100x9 S9x64 S40000x100x64 where
  lhsContracting := [2]
  rhsContracting := [0]
  lhsNonContracting := [0, 1]
  rhsNonContracting := [1]
  lhsBatch := []
  rhsBatch := []
  wf := dot_S40000x100x9_S9x64_S40000x100x64_2_0_01_1_n_n_wf

class Facts : Prop extends Facts₀ where

variable [Facts]
-- ==== Proof.KRun.lean ====
/-
  The idealized kernel's run with its result array named.

  The program is four segments: three reshapes, the moments region, the host's mean and variance, the normalising
  region. The buffer contents at each boundary are a fold from the launch memory; after the last region every
  unscoped buffer holds the last boundary's contents. Reading that at the result's buffer, which is the last region's
  output window, gives what that region's write-backs leave: the output array of its proof data at the end of the grid.
  The nine arguments are read back to their launch contents as in the frame.
-/
import proofs.«123623_j214748364885_2_alg».proof.Proof.Gen.KernelIdeal.Frame

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result's buffer is the array of the last region's output window, so the last boundary's contents there are
    what that region's proof data leave in it. -/
theorem last_at_result (c : Dev nD) :
    W4 m ρ c (Proc.devRef .tc main_v10) = (dat1 (V3 m ρ) c).arrAt 11 cfg1.N :=
  W4_arr m ρ c 11

set_option backward.isDefEq.respectTransparency.types false in
/-- Every weakly fair execution terminates, nothing faulting, with the result array at the last region's output
    array and the arguments as launched. -/
theorem run : θ_run defs (onTc (τ := τ) (main (F := F))) ⟨m, fun _ => 0, ρ⟩ (fun r => ∀ c : Dev nD,
      r.2.mem ((c.tc : Thread nD τ).loc main_v10) = (dat1 (V3 m ρ) c).arrAt 11 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v10 (by decide))).trans (last_at_result m ρ c),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.KRun

end
-- ==== Proof.KHost.lean ====
/-
  The buffer contents the two regions are entered with, in terms of the launch memory.

  Before the first region the host reshapes the point counts to a column and the scale and shift vectors to rows; no
  host operation and no region writes an argument. Between the regions the host divides the two accumulated
  moments by the element count (the batch mean, and the mean of squares) and subtracts the squared mean from the
  latter (the variance). So at the second region's entry: the six array arguments are as launched, the point counts
  are the reshaped argument, the mean and the variance are those quotients of the first region's two result arrays, and
  the scale and the shift are the reshaped arguments.
-/
import proofs.«123623_j214748364885_2_alg».proof.Proof.Gen.KernelIdeal.Frame
import Idealize.ShloMosaic.Lib.StableHlo.Run
import Idealize.ShloMosaic.Lib.Pipeline.Value

noncomputable section

open Idealize.ShloMosaic Idealize.ShloMosaic.TcCoe Idealize.SL.Sem
open Idealize.ShloMosaic.Pipeline (Dat)

namespace Cert.KernelIdeal.KH

open Cert.KernelIdeal Cert.KernelIdeal.Gen

variable {F : FTy → Type} [FloatOps F]
variable (m : (ℓ : Loc nD τ sig) → Buf (Elt F) ℓ) (ρ : Dev nD → PrngReg)

/-! ## The first region's entry -/

theorem first_arg0 (c : Dev nD) : V1 m ρ c main_arg0 = m ((c : Thread nD τ).loc main_arg0) := by
  show StableHlo.after hostOps0 (W0 m ρ c) (Proc.devRef .tc main_arg0) = _
  after_results

theorem first_arg1 (c : Dev nD) : V1 m ρ c main_arg1 = m ((c : Thread nD τ).loc main_arg1) := by
  show StableHlo.after hostOps0 (W0 m ρ c) (Proc.devRef .tc main_arg1) = _
  after_results

theorem first_arg2 (c : Dev nD) : V1 m ρ c main_arg2 = m ((c : Thread nD τ).loc main_arg2) := by
  show StableHlo.after hostOps0 (W0 m ρ c) (Proc.devRef .tc main_arg2) = _
  after_results

theorem first_arg3 (c : Dev nD) : V1 m ρ c main_arg3 = m ((c : Thread nD τ).loc main_arg3) := by
  show StableHlo.after hostOps0 (W0 m ρ c) (Proc.devRef .tc main_arg3) = _
  after_results

theorem first_arg5 (c : Dev nD) : V1 m ρ c main_arg5 = m ((c : Thread nD τ).loc main_arg5) := by
  show StableHlo.after hostOps0 (W0 m ρ c) (Proc.devRef .tc main_arg5) = _
  after_results

theorem first_arg6 (c : Dev nD) : V1 m ρ c main_arg6 = m ((c : Thread nD τ).loc main_arg6) := by
  show StableHlo.after hostOps0 (W0 m ρ c) (Proc.devRef .tc main_arg6) = _
  after_results

/-- The point counts as a column. -/
theorem first_counts (c : Dev nD) :
    V1 m ρ c main_v0 = shapeCast S40000x1 (m ((c : Thread nD τ).loc main_arg4)) shapeCasts_S40000_S40000x1 := by
  show StableHlo.after hostOps0 (W0 m ρ c) (Proc.devRef .tc main_v0) = _
  after_results
  rfl

/-! ## The second region's entry -/

/-- A buffer the host's second stretch does not write and that is an input window `w` of the first region holds at
    the second region's entry what it held at the first's. -/
theorem second_of_first_in (c : Dev nD) (w : Fin cfg0.W) (hw : (cfg0.win w).isOut = false)
    (hnot : StableHlo.after hostOps1 (W2 m ρ c) (Proc.devRef .tc (Pipeline.arrRef spec0 w)) = W2 m ρ c (Proc.devRef .tc (Pipeline.arrRef spec0 w))) :
    V3 m ρ c (Pipeline.arrRef spec0 w) = V1 m ρ c (Pipeline.arrRef spec0 w) :=
  hnot.trans ((W2_arr m ρ c w).trans (((dat0 (V1 m ρ) c).arrAt_in w hw _).trans (A_eq0 (V1 m ρ) c w)))

theorem second_arg0 (c : Dev nD) : V3 m ρ c main_arg0 = m ((c : Thread nD τ).loc main_arg0) :=
  (second_of_first_in m ρ c 0 rfl (by after_results)).trans (first_arg0 m ρ c)

theorem second_arg1 (c : Dev nD) : V3 m ρ c main_arg1 = m ((c : Thread nD τ).loc main_arg1) :=
  (second_of_first_in m ρ c 1 rfl (by after_results)).trans (first_arg1 m ρ c)

theorem second_arg2 (c : Dev nD) : V3 m ρ c main_arg2 = m ((c : Thread nD τ).loc main_arg2) :=
  (second_of_first_in m ρ c 2 rfl (by after_results)).trans (first_arg2 m ρ c)

theorem second_arg3 (c : Dev nD) : V3 m ρ c main_arg3 = m ((c : Thread nD τ).loc main_arg3) :=
  (second_of_first_in m ρ c 3 rfl (by after_results)).trans (first_arg3 m ρ c)

theorem second_arg5 (c : Dev nD) : V3 m ρ c main_arg5 = m ((c : Thread nD τ).loc main_arg5) :=
  (second_of_first_in m ρ c 5 rfl (by after_results)).trans (first_arg5 m ρ c)

theorem second_arg6 (c : Dev nD) : V3 m ρ c main_arg6 = m ((c : Thread nD τ).loc main_arg6) :=
  (second_of_first_in m ρ c 6 rfl (by after_results)).trans (first_arg6 m ρ c)

/-- The point counts as a column, still. -/
theorem second_counts (c : Dev nD) :
    V3 m ρ c main_v0 = shapeCast S40000x1 (m ((c : Thread nD τ).loc main_arg4)) shapeCasts_S40000_S40000x1 :=
  (second_of_first_in m ρ c 4 rfl (by after_results)).trans (first_counts m ρ c)

/-- The scale as a row. -/
theorem second_scale (c : Dev nD) :
    V3 m ρ c main_v1 = shapeCast S1x64 (m ((c : Thread nD τ).loc main_arg7)) shapeCasts_S64_S1x64 := by
  show StableHlo.after hostOps1 (W2 m ρ c) (Proc.devRef .tc main_v1) = _
  after_results
  rw [W2_of_ne m ρ c main_v1 (by decide)]
  show StableHlo.after hostOps0 (W0 m ρ c) (Proc.devRef .tc main_v1) = _
  after_results
  rfl

/-- The shift as a row. -/
theorem second_shift (c : Dev nD) :
    V3 m ρ c main_v2 = shapeCast S1x64 (m ((c : Thread nD τ).loc main_arg8)) shapeCasts_S64_S1x64 := by
  show StableHlo.after hostOps1 (W2 m ρ c) (Proc.devRef .tc main_v2) = _
  after_results
  rw [W2_of_ne m ρ c main_v2 (by decide)]
  show StableHlo.after hostOps0 (W0 m ρ c) (Proc.devRef .tc main_v2) = _
  after_results
  rfl

/-- The element count as a row of the word of 4.0e6. -/
abbrev countRow : FVec F S1x64 .f32 := broadcastInDim S1x64 ![] bcast_S_S1x64 (constant (F := F) S_ .f32 0x4A742400#32)

/-- The batch mean: the first region's sum array divided by the element count. -/
theorem second_mean (c : Dev nD) :
    V3 m ρ c main_v5 = Host.divf ((dat0 (V1 m ρ) c).arrAt 7 cfg0.N) (countRow (F := F)) := by
  show StableHlo.after hostOps1 (W2 m ρ c) (Proc.devRef .tc main_v5) = _
  after_results
  rw [show W2 m ρ c (Proc.devRef .tc main_v3_0) = (dat0 (V1 m ρ) c).arrAt 7 cfg0.N from W2_arr m ρ c 7]

/-- The batch variance: the first region's sum-of-squares array divided by the element count, less the squared mean. -/
theorem second_var (c : Dev nD) :
    V3 m ρ c main_v9 = subf (Host.divf ((dat0 (V1 m ρ) c).arrAt 8 cfg0.N) (countRow (F := F)))
      (mulf (Host.divf ((dat0 (V1 m ρ) c).arrAt 7 cfg0.N) (countRow (F := F))) (Host.divf ((dat0 (V1 m ρ) c).arrAt 7 cfg0.N) (countRow (F := F)))) := by
  show StableHlo.after hostOps1 (W2 m ρ c) (Proc.devRef .tc main_v9) = _
  after_results
  rw [show W2 m ρ c (Proc.devRef .tc main_v3_0) = (dat0 (V1 m ρ) c).arrAt 7 cfg0.N from W2_arr m ρ c 7,
    show W2 m ρ c (Proc.devRef .tc main_v3_1) = (dat0 (V1 m ρ) c).arrAt 8 cfg0.N from W2_arr m ρ c 8]

end Cert.KernelIdeal.KH

end
-- ==== Proof.K0Case.lean ====
/-
  The moments region, one grid point at a time.

  At every point the body recomputes the tile's linear layer from its seven input blocks, sums it (and its square)
  over the tile's 400 pillars and then over the 100 points, and adds the two 64-vectors into the two running
  accumulators. At the first point the accumulators are first reset to zero. So what a point leaves in each
  accumulator is one function of the point's input blocks and of what the accumulator held before: `step1` for the
  sum, `step2` for the sum of squares, and the first point applies them to the zero block.
-/
import proofs.«123623_j214748364885_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.K0

open Cert.KernelIdeal Cert.KernelIdeal.Gen

variable {F : FTy → Type} [FloatOps F]

theorem hz : (![0, 0] : Fin 2 → Nat) = fun _ => 0 := funext fun a => by fin_cases a <;> rfl

/-- The tile's linear layer [400, 100, 64] from the point's seven input blocks. -/
def tile (x0 : Vec F S400x100 .f32) (x1 : Vec F S400x100 .f32) (x2 : Vec F S400x100 .f32) (x3 : Vec F S400x100 .f32) (x4 : Vec F S400x1 .i32) (x5 : Vec F S400x4 .i32) (x6 : Vec F S9x64 .f32) : FVec F S400x100x64 .f32 :=
  k0_pay16 x6 (k0_pay6 x0 x4) (k0_pay7 x1 x4) (k0_pay8 x2 x4) (k0_pay12 (k0_pay10 x5) k0_pay11) (k0_pay13 (k0_pay9 x5)) (k0_pay14 (k0_pay4 x4)) (k0_pay15 x0 x1 x2 x3 (k0_pay4 x4) x6)

/-- The sum accumulator after a point: what it held plus the tile's sum over pillars and points. -/
def step1 (x0 : Vec F S400x100 .f32) (x1 : Vec F S400x100 .f32) (x2 : Vec F S400x100 .f32) (x3 : Vec F S400x100 .f32) (x4 : Vec F S400x1 .i32) (x5 : Vec F S400x4 .i32) (x6 : Vec F S9x64 .f32) (a : Vec F S1x64 .f32) : FVec F S1x64 .f32 :=
  k0_pay18 x6 (k0_pay6 x0 x4) (k0_pay7 x1 x4) (k0_pay8 x2 x4) (k0_pay12 (k0_pay10 x5) k0_pay11) (k0_pay13 (k0_pay9 x5)) (k0_pay14 (k0_pay4 x4)) (k0_pay15 x0 x1 x2 x3 (k0_pay4 x4) x6) a

/-- The sum-of-squares accumulator after a point. -/
def step2 (x0 : Vec F S400x100 .f32) (x1 : Vec F S400x100 .f32) (x2 : Vec F S400x100 .f32) (x3 : Vec F S400x100 .f32) (x4 : Vec F S400x1 .i32) (x5 : Vec F S400x4 .i32) (x6 : Vec F S9x64 .f32) (a : Vec F S1x64 .f32) : FVec F S1x64 .f32 :=
  k0_pay1 (k0_pay17 x6 (k0_pay6 x0 x4) (k0_pay7 x1 x4) (k0_pay8 x2 x4) (k0_pay12 (k0_pay10 x5) k0_pay11) (k0_pay13 (k0_pay9 x5)) (k0_pay14 (k0_pay4 x4)) (k0_pay15 x0 x1 x2 x3 (k0_pay4 x4) x6)) a

/-- The zero block the first point resets each accumulator to. -/
abbrev zero1 : FVec F S1x64 .f32 := k0_pay2
abbrev zero2 : FVec F S1x64 .f32 := k0_pay3

/-- A later point: the sum accumulator, holding `xo7`, ends at `step1 … xo7`. -/
theorem out_B_7 (c : Dev nD) (i : grid0.Coords) (arg1 : Memref sig .tc .vmem S400x100 .f32) (harg1 : arg1.IsWhole) (arg2 : Memref sig .tc .vmem S400x100 .f32) (harg2 : arg2.IsWhole) (arg3 : Memref sig .tc .vmem S400x100 .f32) (harg3 : arg3.IsWhole) (arg4 : Memref sig .tc .vmem S400x100 .f32) (harg4 : arg4.IsWhole) (arg5 : Memref sig .tc .vmem S400x1 .i32) (harg5 : arg5.IsWhole) (arg6 : Memref sig .tc .vmem S400x4 .i32) (harg6 : arg6.IsWhole) (arg7 : Memref sig .tc .vmem S9x64 .f32) (harg7 : arg7.IsWhole) (arg8 : Memref sig .tc .vmem S1x64 .f32) (harg8 : arg8.IsWhole) (arg9 : Memref sig .tc .vmem S1x64 .f32) (harg9 : arg9.IsWhole) (hc : ¬cond0_0 i) (x0 : Vec F S400x100 .f32) (x1 : Vec F S400x100 .f32) (x2 : Vec F S400x100 .f32) (x3 : Vec F S400x100 .f32) (x4 : Vec F S400x1 .i32) (x5 : Vec F S400x4 .i32) (x6 : Vec F S9x64 .f32) (xo7 xo8 : Vec F S1x64 .f32) :
    out0_B_7 c i arg1 harg1 arg2 harg2 arg3 harg3 arg4 harg4 arg5 harg5 arg6 harg6 arg7 harg7 arg8 harg8 arg9 harg9 hc x0 x1 x2 x3 x4 x5 x6 xo7 xo8 = step1 x0 x1 x2 x3 x4 x5 x6 xo7 := by
  unfold out0_B_7
  rw [View.read_writes_eq_canon _ _ _ (cover0_B_7 c i arg1 harg1 arg2 harg2 arg3 harg3 arg4 harg4 arg5 harg5 arg6 harg6 arg7 harg7 arg8 harg8 arg9 harg9 hc x0 x1 x2 x3 x4 x5 x6 xo7 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S400x100) hz, View.ld_unit_zero (S := S400x1) hz, View.ld_unit_zero (S := S400x4) hz, View.ld_unit_zero (S := S9x64) hz, View.ld_unit_zero (S := S1x64) hz]
  rfl

/-- A later point: the sum-of-squares accumulator, holding `xo8`, ends at `step2 … xo8`. -/
theorem out_B_8 (c : Dev nD) (i : grid0.Coords) (arg1 : Memref sig .tc .vmem S400x100 .f32) (harg1 : arg1.IsWhole) (arg2 : Memref sig .tc .vmem S400x100 .f32) (harg2 : arg2.IsWhole) (arg3 : Memref sig .tc .vmem S400x100 .f32) (harg3 : arg3.IsWhole) (arg4 : Memref sig .tc .vmem S400x100 .f32) (harg4 : arg4.IsWhole) (arg5 : Memref sig .tc .vmem S400x1 .i32) (harg5 : arg5.IsWhole) (arg6 : Memref sig .tc .vmem S400x4 .i32) (harg6 : arg6.IsWhole) (arg7 : Memref sig .tc .vmem S9x64 .f32) (harg7 : arg7.IsWhole) (arg8 : Memref sig .tc .vmem S1x64 .f32) (harg8 : arg8.IsWhole) (arg9 : Memref sig .tc .vmem S1x64 .f32) (harg9 : arg9.IsWhole) (hc : ¬cond0_0 i) (x0 : Vec F S400x100 .f32) (x1 : Vec F S400x100 .f32) (x2 : Vec F S400x100 .f32) (x3 : Vec F S400x100 .f32) (x4 : Vec F S400x1 .i32) (x5 : Vec F S400x4 .i32) (x6 : Vec F S9x64 .f32) (xo7 xo8 : Vec F S1x64 .f32) :
    out0_B_8 c i arg1 harg1 arg2 harg2 arg3 harg3 arg4 harg4 arg5 harg5 arg6 harg6 arg7 harg7 arg8 harg8 arg9 harg9 hc x0 x1 x2 x3 x4 x5 x6 xo7 xo8 = step2 x0 x1 x2 x3 x4 x5 x6 xo8 := by
  unfold out0_B_8
  rw [View.read_writes_eq_canon _ _ _ (cover0_B_8 c i arg1 harg1 arg2 harg2 arg3 harg3 arg4 harg4 arg5 harg5 arg6 harg6 arg7 harg7 arg8 harg8 arg9 harg9 hc x0 x1 x2 x3 x4 x5 x6 xo7 xo8)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S400x100) hz, View.ld_unit_zero (S := S400x1) hz, View.ld_unit_zero (S := S400x4) hz, View.ld_unit_zero (S := S9x64) hz, View.ld_unit_zero (S := S1x64) hz]
  rfl

/-- The first point: the sum accumulator is reset, read back, and ends at `step1 … 0`. -/
theorem out_A_7 (c : Dev nD) (i : grid0.Coords) (arg1 : Memref sig .tc .vmem S400x100 .f32) (harg1 : arg1.IsWhole) (arg2 : Memref sig .tc .vmem S400x100 .f32) (harg2 : arg2.IsWhole) (arg3 : Memref sig .tc .vmem S400x100 .f32) (harg3 : arg3.IsWhole) (arg4 : Memref sig .tc .vmem S400x100 .f32) (harg4 : arg4.IsWhole) (arg5 : Memref sig .tc .vmem S400x1 .i32) (harg5 : arg5.IsWhole) (arg6 : Memref sig .tc .vmem S400x4 .i32) (harg6 : arg6.IsWhole) (arg7 : Memref sig .tc .vmem S9x64 .f32) (harg7 : arg7.IsWhole) (arg8 : Memref sig .tc .vmem S1x64 .f32) (harg8 : arg8.IsWhole) (arg9 : Memref sig .tc .vmem S1x64 .f32) (harg9 : arg9.IsWhole) (hc : cond0_0 i) (x0 : Vec F S400x100 .f32) (x1 : Vec F S400x100 .f32) (x2 : Vec F S400x100 .f32) (x3 : Vec F S400x100 .f32) (x4 : Vec F S400x1 .i32) (x5 : Vec F S400x4 .i32) (x6 : Vec F S9x64 .f32) :
    out0_A_7 c i arg1 harg1 arg2 harg2 arg3 harg3 arg4 harg4 arg5 harg5 arg6 harg6 arg7 harg7 arg8 harg8 arg9 harg9 hc x0 x1 x2 x3 x4 x5 x6 = step1 x0 x1 x2 x3 x4 x5 x6 zero1 := by
  unfold out0_A_7
  rw [View.read_writes_eq_canon _ _ _ (cover0_A_7 c i arg1 harg1 arg2 harg2 arg3 harg3 arg4 harg4 arg5 harg5 arg6 harg6 arg7 harg7 arg8 harg8 arg9 harg9 hc x0 x1 x2 x3 x4 x5 x6)]
  unfold kernelRun0_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread, harg5.read_unread, harg6.read_unread, harg7.read_unread, harg8.read_unread, harg9.read_unread, View.ld_unit_zero (S := S400x100) hz, View.ld_unit_zero (S := S400x1) hz, View.ld_unit_zero (S := S400x4) hz, View.ld_unit_zero (S := S9x64) hz, View.ld_unit_zero (S := S1x64) hz]
  rfl

/-- The first point: the sum-of-squares accumulator likewise ends at `step2 … 0`. -/
theorem out_A_8 (c : Dev nD) (i : grid0.Coords) (arg1 : Memref sig .tc .vmem S400x100 .f32) (harg1 : arg1.IsWhole) (arg2 : Memref sig .tc .vmem S400x100 .f32) (harg2 : arg2.IsWhole) (arg3 : Memref sig .tc .vmem S400x100 .f32) (harg3 : arg3.IsWhole) (arg4 : Memref sig .tc .vmem S400x100 .f32) (harg4 : arg4.IsWhole) (arg5 : Memref sig .tc .vmem S400x1 .i32) (harg5 : arg5.IsWhole) (arg6 : Memref sig .tc .vmem S400x4 .i32) (harg6 : arg6.IsWhole) (arg7 : Memref sig .tc .vmem S9x64 .f32) (harg7 : arg7.IsWhole) (arg8 : Memref sig .tc .vmem S1x64 .f32) (harg8 : arg8.IsWhole) (arg9 : Memref sig .tc .vmem S1x64 .f32) (harg9 : arg9.IsWhole) (hc : cond0_0 i) (x0 : Vec F S400x100 .f32) (x1 : Vec F S400x100 .f32) (x2 : Vec F S400x100 .f32) (x3 : Vec F S400x100 .f32) (x4 : Vec F S400x1 .i32) (x5 : Vec F S400x4 .i32) (x6 : Vec F S9x64 .f32) :
    out0_A_8 c i arg1 harg1 arg2 harg2 arg3 harg3 arg4 harg4 arg5 harg5 arg6 harg6 arg7 harg7 arg8 harg8 arg9 harg9 hc x0 x1 x2 x3 x4 x5 x6 = step2 x0 x1 x2 x3 x4 x5 x6 zero2 := by
  unfold out0_A_8
  rw [View.read_writes_eq_canon _ _ _ (cover0_A_8 c i arg1 harg1 arg2 harg2 arg3 harg3 arg4 harg4 arg5 harg5 arg6 harg6 arg7 harg7 arg8 harg8 arg9 harg9 hc x0 x1 x2 x3 x4 x5 x6)]
  unfold kernelRun0_A
  dsimp only
  sl_unfold_words
  rw [View.canon_cons_unit_zero (S := S1x64) hz, View.readCov_unit_zero (S := S1x64) _ hz]
  simp only [View.readAt_eq_ld, harg1.read_unread, harg2.read_unread, harg3.read_unread, harg4.read_unread, harg5.read_unread, harg6.read_unread, harg7.read_unread, harg8.read_unread, harg9.read_unread, View.ld_unit_zero (S := S400x100) hz, View.ld_unit_zero (S := S400x1) hz, View.ld_unit_zero (S := S400x4) hz, View.ld_unit_zero (S := S9x64) hz, View.ld_unit_zero (S := S1x64) hz]
  rfl

end Cert.KernelIdeal.K0

end
-- ==== Proof.K0Chain.lean ====
/-
  The two accumulators after each grid point, as a recursion on the point: the first point applies a step to the
  zero block, every later point applies it to what the point before left. The generated account of what the staging
  buffers hold after a point is exactly this recursion (by induction on the point). Only the last point writes the
  accumulators back, and its block is the whole [1, 64] array, so each result array of the region ends holding the
  recursion's value at the last point.
-/
import proofs.«123623_j214748364885_2_alg».proof.Proof.K0Case

noncomputable section

open Idealize.ShloMosaic Idealize.ShloMosaic.TcCoe Idealize.SL.Sem
open Idealize.ShloMosaic.Pipeline (Dat)

namespace Cert.KernelIdeal.K0

open Cert.KernelIdeal Cert.KernelIdeal.Gen

variable {F : FTy → Type} [FloatOps F]
variable (V : (c : Dev nD) → (b : Ref sig .tc) → Buf (Elt F) ((c : Thread nD τ).loc b))

/-- The sum and the sum of squares accumulated over points 0 … n. -/
def acc (c : Dev nD) : (n : ℕ) → n < cfg0.N → Vec F S1x64 .f32 × Vec F S1x64 .f32
  | 0, h => (step1 (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (iblk0 V c 6 ⟨0, h⟩) zero1, step2 (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (iblk0 V c 6 ⟨0, h⟩) zero2)
  | n + 1, h => (step1 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (acc c n (Nat.lt_of_succ_lt h)).1,
      step2 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (acc c n (Nat.lt_of_succ_lt h)).2)

/-- What the staging buffers hold after point `n` is the accumulated pair. -/
theorem outsAt_eq (c : Dev nD) : ∀ (n : ℕ) (h : n < cfg0.N), outsAt0 V c n h = acc V c n h
  | 0, h => by
    rw [outsAt0_A V c ⟨0, h⟩ rfl, out_A_7, out_A_8]
    rfl
  | n + 1, h => by
    have hN : cfg0.N = 100 := N_0
    have hB : ¬(⟨n + 1, h⟩ : Fin cfg0.N).val % 100 = 0 := by dsimp only; omega
    rw [outsAt0_B V c ⟨n + 1, h⟩ hB, out_B_7, out_B_8]
    show (step1 _ _ _ _ _ _ _ (outsAt0 V c n _).1, step2 _ _ _ _ _ _ _ (outsAt0 V c n _).2) = _
    rw [outsAt_eq c n]
    rfl

/-- The last point. -/
abbrev tLast : Fin cfg0.N := ⟨99, by rw [show cfg0.N = 100 from N_0]; decide⟩

end Cert.KernelIdeal.K0

end
-- ==== Proof.K0Arr.lean ====
/-
  From the accumulators' staging buffers to the region's two result arrays. The output windows' block index never
  moves, so the pipeline writes each back once, after the last point, and that block is the whole [1, 64] array.
-/
import proofs.«123623_j214748364885_2_alg».proof.Proof.K0Chain

noncomputable section

open Idealize.ShloMosaic Idealize.ShloMosaic.TcCoe Idealize.SL.Sem
open Idealize.ShloMosaic.Pipeline (Dat)

namespace Cert.KernelIdeal.K0

open Cert.KernelIdeal Cert.KernelIdeal.Gen

variable {F : FTy → Type} [FloatOps F]
variable (V : (c : Dev nD) → (b : Ref sig .tc) → Buf (Elt F) ((c : Thread nD τ).loc b))

/-- The sum accumulator over the whole grid, as contents of its result array. -/
abbrev total7 (c : Dev nD) : Buf (Elt F) ((c : Thread nD τ).loc main_v3_0) := (acc V c 99 tLast.isLt).1

/-- The one write-back, at the last point, writes it: block (0, 0) of the [1, 64] array is the array. -/
theorem flushed7_eq (c : Dev nD) (t : Fin cfg0.N) (hf : (cfg0.win 7).flush t = true) :
    (dat0 V c).flushed 7 t = ((cfg0.win 7).blk t).view.read (Elt F) (total7 V c) := by
  have hN : cfg0.N = 100 := N_0
  have h99 : t.val = 99 := by have := (flush0_7 t).mp hf; have := t.isLt; omega
  obtain rfl : t = tLast := Fin.ext h99
  show (cfg0.win 7).cut (grid0.coords tLast) ((dat0 V c).after 7 tLast) = _
  rw [after0_7, outsAt_eq]
  have hz' : (fun a => win0_7.index tLast a * main_v3_0.ty.shape.size a) = fun _ => 0 := funext fun a => by fin_cases a <;> decide +kernel
  exact (Memref.read_access_unit_zero (Elt F) main_v3_0 hz' (fun a => by rw [congrFun hz' a]; simp) (total7 V c)).symm

/-- So the region's sum array ends holding the accumulator over the whole grid. -/
theorem arr7 (c : Dev nD) : (dat0 V c).arrAt 7 cfg0.N = total7 V c :=
  (dat0 V c).arrAt_eq_of_cover 7 (total7 V c) (flushed7_eq V c) fun i =>
    ⟨tLast, (flush0_7 tLast).mpr rfl, by
      show i ∈ ((View.whole main_v3_0).slice (win0_7.rect tLast)).set
      rw [View.set_slice_whole, Rect.mem_set_unit]
      intro a
      have h0 : (i 0 : Nat) < 1 := (i 0).isLt
      have h1 : (i 1 : Nat) < 64 := (i 1).isLt
      match a with
      | ⟨0, _⟩ => show win0_7.index tLast 0 * win0_7.size 0 ≤ (i 0 : Nat) ∧ (i 0 : Nat) < win0_7.index tLast 0 * win0_7.size 0 + win0_7.xsize (grid0.coords tLast) 0
                  rw [show win0_7.index tLast 0 * win0_7.size 0 = 0 from by decide +kernel, show win0_7.xsize (grid0.coords tLast) 0 = 1 from by decide +kernel]; omega
      | ⟨1, _⟩ => show win0_7.index tLast 1 * win0_7.size 1 ≤ (i 1 : Nat) ∧ (i 1 : Nat) < win0_7.index tLast 1 * win0_7.size 1 + win0_7.xsize (grid0.coords tLast) 1
                  rw [show win0_7.index tLast 1 * win0_7.size 1 = 0 from by decide +kernel, show win0_7.xsize (grid0.coords tLast) 1 = 64 from by decide +kernel]; omega⟩

/-- The sum-of-squares accumulator over the whole grid, as contents of its result array. -/
abbrev total8 (c : Dev nD) : Buf (Elt F) ((c : Thread nD τ).loc main_v3_1) := (acc V c 99 tLast.isLt).2

/-- The one write-back, at the last point, writes it: block (0, 0) of the [1, 64] array is the array. -/
theorem flushed8_eq (c : Dev nD) (t : Fin cfg0.N) (hf : (cfg0.win 8).flush t = true) :
    (dat0 V c).flushed 8 t = ((cfg0.win 8).blk t).view.read (Elt F) (total8 V c) := by
  have hN : cfg0.N = 100 := N_0
  have h99 : t.val = 99 := by have := (flush0_8 t).mp hf; have := t.isLt; omega
  obtain rfl : t = tLast := Fin.ext h99
  show (cfg0.win 8).cut (grid0.coords tLast) ((dat0 V c).after 8 tLast) = _
  rw [after0_8, outsAt_eq]
  have hz' : (fun a => win0_8.index tLast a * main_v3_1.ty.shape.size a) = fun _ => 0 := funext fun a => by fin_cases a <;> decide +kernel
  exact (Memref.read_access_unit_zero (Elt F) main_v3_1 hz' (fun a => by rw [congrFun hz' a]; simp) (total8 V c)).symm

/-- So the region's sum-of-squares array ends holding the accumulator over the whole grid. -/
theorem arr8 (c : Dev nD) : (dat0 V c).arrAt 8 cfg0.N = total8 V c :=
  (dat0 V c).arrAt_eq_of_cover 8 (total8 V c) (flushed8_eq V c) fun i =>
    ⟨tLast, (flush0_8 tLast).mpr rfl, by
      show i ∈ ((View.whole main_v3_1).slice (win0_8.rect tLast)).set
      rw [View.set_slice_whole, Rect.mem_set_unit]
      intro a
      have h0 : (i 0 : Nat) < 1 := (i 0).isLt
      have h1 : (i 1 : Nat) < 64 := (i 1).isLt
      match a with
      | ⟨0, _⟩ => show win0_8.index tLast 0 * win0_8.size 0 ≤ (i 0 : Nat) ∧ (i 0 : Nat) < win0_8.index tLast 0 * win0_8.size 0 + win0_8.xsize (grid0.coords tLast) 0
                  rw [show win0_8.index tLast 0 * win0_8.size 0 = 0 from by decide +kernel, show win0_8.xsize (grid0.coords tLast) 0 = 1 from by decide +kernel]; omega
      | ⟨1, _⟩ => show win0_8.index tLast 1 * win0_8.size 1 ≤ (i 1 : Nat) ∧ (i 1 : Nat) < win0_8.index tLast 1 * win0_8.size 1 + win0_8.xsize (grid0.coords tLast) 1
                  rw [show win0_8.index tLast 1 * win0_8.size 1 = 0 from by decide +kernel, show win0_8.xsize (grid0.coords tLast) 1 = 64 from by decide +kernel]; omega⟩

end Cert.KernelIdeal.K0

end
-- ==== Proof.Spec.lean ====
/-
  The mathematics of the pillar feature layer, stated once, over the extended reals, one pillar (row) at a time.

  A pillar holds 100 points with coordinates x, y, z and an intensity, a point count n and four integer grid
  coordinates c. Its nine features at point j are: x, y, z, the intensity, the three offsets from the pillar's mean
  (the row sum divided by max(n, 1) read as a real), and the two bird's-eye-view centres, affine in the grid
  coordinates c 3 and c 2. Every feature is multiplied by the validity mask (1 where j < n as signed integers, else 0)
  and the nine masked features are contracted with a 9 x 64 weight: `linRow`. Batch normalisation then subtracts a
  per-channel mean, multiplies by the reciprocal square root of a per-channel variance plus epsilon, applies an affine
  map, clips at zero (`bnRelu`), and the result is the maximum over the pillar's 100 points (`pool`).

  The float constants stay as the bit patterns both programs print; none of them is ever evaluated except the zero word
  and the element count 4,000,000 that divides the two moments.
-/
import Idealize.ShloMosaic.PureOps.Ideal
import Idealize.ShloMosaic.Lib.ValueIdx

noncomputable section

namespace Cert.PFN

open Idealize.ShloMosaic

/-- 0.16 (the voxel size), 0.08 (half of it), -39.68 (the y origin), 1e-5 (epsilon), 0, and the element count, as the words printed. -/
def k16 : EReal := Ideal.ofBits .f32 0x3E23D70A#32
def k08 : EReal := Ideal.ofBits .f32 0x3DA3D70A#32
def km39 : EReal := Ideal.ofBits .f32 0xC21EB852#32
def keps : EReal := Ideal.ofBits .f32 0x3727C5AC#32
def kz : EReal := Ideal.ofBits .f32 0x00000000#32
def kN : EReal := Ideal.ofBits .f32 0x4A742400#32

/-- The point count clamped below at one, as a real. -/
def cnt (n : BitVec 32) : EReal := (((IntOp.maxsi n 1#32).toInt : ℝ) : EReal)

/-- A row's mean: its sum over the 100 points divided by the clamped count. -/
def mean (a : Fin 100 → EReal) (n : BitVec 32) : EReal := Ideal.div (∑ j : Fin 100, a j) (cnt n)

/-- The bird's-eye-view centres of a pillar from its grid coordinates. -/
def bevX (c : Fin 4 → BitVec 32) : EReal := ((((c 3).toInt : ℝ) : EReal) * k16 + k08) + kz
def bevY (c : Fin 4 → BitVec 32) : EReal := ((((c 2).toInt : ℝ) : EReal) * k16 + k08) + km39

/-- The validity mask of point `j` in a pillar of `n` points: 1 when `j < n` (signed), else 0. -/
def mask (n : BitVec 32) (j : Fin 100) : EReal := (((IntOp.cmpi .slt (BitVec.ofNat 32 j.val) n).toNat : ℝ) : EReal)

/-- The nine features of point `j`. -/
def feat (x y z i : Fin 100 → EReal) (n : BitVec 32) (c : Fin 4 → BitVec 32) (k : Fin 9) (j : Fin 100) : EReal :=
  match k with
  | 0 => x j
  | 1 => y j
  | 2 => z j
  | 3 => i j
  | 4 => x j - mean x n
  | 5 => y j - mean y n
  | 6 => z j - mean z n
  | 7 => bevX c
  | 8 => bevY c

/-- The linear layer at point `j`, channel `d`: the masked features contracted with the weight. -/
def linRow (x y z i : Fin 100 → EReal) (n : BitVec 32) (c : Fin 4 → BitVec 32) (W : Fin 9 → Fin 64 → EReal)
    (j : Fin 100) (d : Fin 64) : EReal :=
  ∑ k : Fin 9, (feat x y z i n c k j * mask n j) * W k d

/-- Normalise with a mean and a variance, scale, shift, clip at zero. -/
def bnRelu (l mu v g b : EReal) : EReal := max (((l - mu) * Ideal.rsqrt (v + keps)) * g + b) kz

/-- The maximum over a pillar's points. -/
def pool (f : Fin 100 → EReal) : EReal := Finset.univ.sup f

/-- The first and second moments of a channel over all 40000 x 100 points, from the linear layer `l p j`. -/
def mom1 (l : Fin 40000 → Fin 100 → EReal) : EReal := ∑ p : Fin 40000, ∑ j : Fin 100, l p j
def mom2 (l : Fin 40000 → Fin 100 → EReal) : EReal := ∑ p : Fin 40000, ∑ j : Fin 100, l p j * l p j

/-- The batch mean; the variance as the mean of squares less the squared mean; and as the mean of squared deviations. -/
def bmean (l : Fin 40000 → Fin 100 → EReal) : EReal := Ideal.div (mom1 l) kN
def varMoments (l : Fin 40000 → Fin 100 → EReal) : EReal := Ideal.div (mom2 l) kN - bmean l * bmean l
def varCentred (l : Fin 40000 → Fin 100 → EReal) : EReal :=
  Ideal.div (∑ p : Fin 40000, ∑ j : Fin 100, (l p j - bmean l) * (l p j - bmean l)) kN

end Cert.PFN

namespace Cert.PFN

open Idealize.ShloMosaic Idealize.ShloMosaic.ValueIdx

/-- The linear layer over whole argument arrays: pillar `p`, point `j`, channel `d`. -/
def linArr (a0 a1 a2 a3 : (⟨2, ![40000, 100]⟩ : Shape).Idx → EReal) (n : (⟨1, ![40000]⟩ : Shape).Idx → BitVec 32)
    (c : (⟨2, ![40000, 4]⟩ : Shape).Idx → BitVec 32) (w : (⟨2, ![9, 64]⟩ : Shape).Idx → EReal)
    (p : Fin 40000) (j : Fin 100) (d : Fin 64) : EReal :=
  linRow (fun j => a0 (ix2 p j)) (fun j => a1 (ix2 p j)) (fun j => a2 (ix2 p j)) (fun j => a3 (ix2 p j)) (n (ix1 p))
    (fun q => c (ix2 p q)) (fun k d => w (ix2 k d)) j d

/-- The layer's result at pillar `p`, channel `d`, for a choice `var` of the variance's form: the batch mean and that
    variance of channel `d` over all points, then normalise, scale by `g`, shift by `b`, clip, and pool over the points. -/
def outWith (var : (Fin 40000 → Fin 100 → EReal) → EReal)
    (a0 a1 a2 a3 : (⟨2, ![40000, 100]⟩ : Shape).Idx → EReal) (n : (⟨1, ![40000]⟩ : Shape).Idx → BitVec 32)
    (c : (⟨2, ![40000, 4]⟩ : Shape).Idx → BitVec 32) (w : (⟨2, ![9, 64]⟩ : Shape).Idx → EReal)
    (g b : (⟨1, ![64]⟩ : Shape).Idx → EReal) (p : Fin 40000) (d : Fin 64) : EReal :=
  pool fun j => bnRelu (linArr a0 a1 a2 a3 n c w p j d) (bmean fun p j => linArr a0 a1 a2 a3 n c w p j d)
    (var fun p j => linArr a0 a1 a2 a3 n c w p j d) (g (ix1 d)) (b (ix1 d))

end Cert.PFN

end
-- ==== Proof.Consts.lean ====
/-
  The float words this certificate ever evaluates, as the extended reals they denote: the zero word, the word of
  one (the reference multiplies its two centre features by a row of ones) and the word of 4,000,000 = 40000 x 100, the
  number of points both moments are divided by. Every other float word is the same on both sides and stays a pattern.
-/
import proofs.«123623_j214748364885_2_alg».proof.Proof.Spec

noncomputable section

namespace Cert.PFN

open Idealize.ShloMosaic

/-- The zero word denotes 0. -/
theorem kz_eq : kz = 0 := by
  simp [kz, Ideal.ofBits, Ideal.ieee]

theorem ofBits_zero_word : Ideal.ofBits .f32 0x00000000#32 = 0 := kz_eq

/-- The word of 1.0 denotes 1. -/
theorem ofBits_one_word : Ideal.ofBits .f32 0x3F800000#32 = 1 := by
  simp [Ideal.ofBits, Ideal.ieee, -EReal.coe_mul]; norm_num

/-- The word of 4.0e6 denotes the real 4,000,000. -/
theorem kN_eq : kN = ((4000000 : ℝ) : EReal) := by
  simp [kN, Ideal.ofBits, Ideal.ieee, -EReal.coe_mul]; norm_num

theorem kN_pos : (0 : EReal) < kN := by
  rw [kN_eq]; exact_mod_cast (by norm_num : (0 : ℝ) < 4000000)

end Cert.PFN

end
-- ==== Proof.K0Sum.lean ====
/-
  One accumulation step read at a channel, over the extended reals: the sum accumulator gains the tile's linear layer
  summed over its 400 pillars and 100 points, the sum-of-squares accumulator the same sum of its squares; the reset
  block is zero.
-/
import proofs.«123623_j214748364885_2_alg».proof.Proof.K0Case
import proofs.«123623_j214748364885_2_alg».proof.Proof.Consts
import Idealize.ShloMosaic.PureOps.Ideal.Laws
import Idealize.ShloMosaic.Lib.ValueIdx
import Idealize.ShloMosaic.Lib.ValueLayout

noncomputable section

open Idealize.ShloMosaic Idealize.ShloMosaic.TcCoe Idealize.ShloMosaic.ValueIdx

namespace Cert.KernelIdeal.K0

open Cert.KernelIdeal Cert.KernelIdeal.Gen

/-- Summing a [400, 100, 64] value over its pillars and then over its points, at channel `d`. -/
theorem sum_tile (T : FVec Ideal S400x100x64 .f32) (d : Fin 64) :
    multiReduction .add [0] S64 (multiReduction .add [0] S100x64 T 0x00000000#32 reduces_S400x100x64_S100x64 (.inl rfl) rfl)
        0x00000000#32 reduces_S100x64_S64 (.inl rfl) rfl (ix1 d)
      = ∑ j : Fin 100, ∑ r : Fin 400, T (ix3 r j d) := by
  refine (Ideal.multiReduction_add_single _ 0x00000000#32 reduces_S100x64_S64 (.inl rfl) rfl (ix1 d)).trans ?_
  show ∑ j : Fin 100, _ = _
  refine Finset.sum_congr rfl fun j _ => ?_
  refine (Ideal.multiReduction_add_single T 0x00000000#32 reduces_S400x100x64_S100x64 (.inl rfl) rfl _).trans ?_
  show ∑ r : Fin 400, _ = _
  refine Finset.sum_congr rfl fun r _ => congrArg T ?_
  funext a
  match a with
  | ⟨0, _⟩ => rfl
  | ⟨1, _⟩ => rfl
  | ⟨2, _⟩ => rfl

/-- The sum accumulator after a step, at channel `d`. -/
theorem step1_apply (x0 : Vec Ideal S400x100 .f32) (x1 : Vec Ideal S400x100 .f32) (x2 : Vec Ideal S400x100 .f32) (x3 : Vec Ideal S400x100 .f32) (x4 : Vec Ideal S400x1 .i32) (x5 : Vec Ideal S400x4 .i32) (x6 : Vec Ideal S9x64 .f32) (a : Vec Ideal S1x64 .f32) (d : Fin 64) :
    step1 x0 x1 x2 x3 x4 x5 x6 a (ix2 (0 : Fin 1) d)
      = a (ix2 (0 : Fin 1) d) + ∑ j : Fin 100, ∑ r : Fin 400, tile x0 x1 x2 x3 x4 x5 x6 (ix3 r j d) := by
  unfold step1 k0_pay18
  dsimp only
  rw [addf_apply, shapeCast_self, shapeCast_a_1a_apply]
  exact congrArg (a (ix2 (0 : Fin 1) d) + ·) (sum_tile _ d)

/-- The sum-of-squares accumulator after a step, at channel `d`. -/
theorem step2_apply (x0 : Vec Ideal S400x100 .f32) (x1 : Vec Ideal S400x100 .f32) (x2 : Vec Ideal S400x100 .f32) (x3 : Vec Ideal S400x100 .f32) (x4 : Vec Ideal S400x1 .i32) (x5 : Vec Ideal S400x4 .i32) (x6 : Vec Ideal S9x64 .f32) (a : Vec Ideal S1x64 .f32) (d : Fin 64) :
    step2 x0 x1 x2 x3 x4 x5 x6 a (ix2 (0 : Fin 1) d)
      = a (ix2 (0 : Fin 1) d) + ∑ j : Fin 100, ∑ r : Fin 400,
          tile x0 x1 x2 x3 x4 x5 x6 (ix3 r j d) * tile x0 x1 x2 x3 x4 x5 x6 (ix3 r j d) := by
  unfold step2 k0_pay1 k0_pay17
  dsimp only
  rw [addf_apply, shapeCast_self, shapeCast_a_1a_apply]
  exact congrArg (a (ix2 (0 : Fin 1) d) + ·) (sum_tile _ d)

/-- The reset blocks are zero. -/
theorem zero1_apply (i : S1x64.Idx) : (zero1 : FVec Ideal S1x64 .f32) i = 0 := Cert.PFN.ofBits_zero_word
theorem zero2_apply (i : S1x64.Idx) : (zero2 : FVec Ideal S1x64 .f32) i = 0 := Cert.PFN.ofBits_zero_word

end Cert.KernelIdeal.K0

end
-- ==== Proof.K0Total.lean ====
/-
  The two accumulators over the whole grid, at a channel: the sum over the 100 grid points, the 100 points of a
  pillar and the 400 pillars of a tile, of the tile's linear layer (and of its square). By induction on the point.
-/
import proofs.«123623_j214748364885_2_alg».proof.Proof.K0Chain
import proofs.«123623_j214748364885_2_alg».proof.Proof.K0Sum

noncomputable section

open Idealize.ShloMosaic Idealize.ShloMosaic.TcCoe Idealize.ShloMosaic.ValueIdx

namespace Cert.KernelIdeal.K0

open Cert.KernelIdeal Cert.KernelIdeal.Gen

variable (V : (c : Dev nD) → (b : Ref sig .tc) → Buf (Elt Ideal) ((c : Thread nD τ).loc b))

/-- The linear layer of the tile at grid point `t`. -/
def tileAt (c : Dev nD) (t : Fin cfg0.N) : FVec Ideal S400x100x64 .f32 :=
  tile (iblk0 V c 0 t) (iblk0 V c 1 t) (iblk0 V c 2 t) (iblk0 V c 3 t) (iblk0 V c 4 t) (iblk0 V c 5 t) (iblk0 V c 6 t)

theorem acc_zero (c : Dev nD) (h : 0 < cfg0.N) :
    acc V c 0 h = (step1 (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (iblk0 V c 6 ⟨0, h⟩) (zero1 (F := Ideal)), step2 (iblk0 V c 0 ⟨0, h⟩) (iblk0 V c 1 ⟨0, h⟩) (iblk0 V c 2 ⟨0, h⟩) (iblk0 V c 3 ⟨0, h⟩) (iblk0 V c 4 ⟨0, h⟩) (iblk0 V c 5 ⟨0, h⟩) (iblk0 V c 6 ⟨0, h⟩) (zero2 (F := Ideal))) := rfl

theorem acc_succ (c : Dev nD) (n : ℕ) (h : n + 1 < cfg0.N) :
    acc V c (n + 1) h = (step1 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (acc V c n (Nat.lt_of_succ_lt h)).1,
      step2 (iblk0 V c 0 ⟨n + 1, h⟩) (iblk0 V c 1 ⟨n + 1, h⟩) (iblk0 V c 2 ⟨n + 1, h⟩) (iblk0 V c 3 ⟨n + 1, h⟩) (iblk0 V c 4 ⟨n + 1, h⟩) (iblk0 V c 5 ⟨n + 1, h⟩) (iblk0 V c 6 ⟨n + 1, h⟩) (acc V c n (Nat.lt_of_succ_lt h)).2) := rfl

/-- The sum accumulator after point `n`, at channel `d`. -/
theorem acc1_apply (c : Dev nD) (d : Fin 64) : ∀ (n : ℕ) (h : n < cfg0.N),
    (acc V c n h).1 (ix2 (0 : Fin 1) d)
      = ∑ t : Fin (n + 1), ∑ j : Fin 100, ∑ r : Fin 400, tileAt V c ⟨t.val, by have := t.isLt; omega⟩ (ix3 r j d)
  | 0, h => by
    rw [acc_zero]
    show step1 (F := Ideal) _ _ _ _ _ _ _ (zero1 (F := Ideal)) (ix2 (0 : Fin 1) d) = _
    rw [step1_apply, zero1_apply, zero_add, Fin.sum_univ_one]
    rfl
  | n + 1, h => by
    rw [acc_succ]
    show step1 (F := Ideal) _ _ _ _ _ _ _ _ (ix2 (0 : Fin 1) d) = _
    rw [step1_apply, acc1_apply c d n (Nat.lt_of_succ_lt h), Fin.sum_univ_castSucc (n := n + 1)]
    rfl

/-- The sum-of-squares accumulator after point `n`, at channel `d`. -/
theorem acc2_apply (c : Dev nD) (d : Fin 64) : ∀ (n : ℕ) (h : n < cfg0.N),
    (acc V c n h).2 (ix2 (0 : Fin 1) d)
      = ∑ t : Fin (n + 1), ∑ j : Fin 100, ∑ r : Fin 400,
          tileAt V c ⟨t.val, by have := t.isLt; omega⟩ (ix3 r j d) * tileAt V c ⟨t.val, by have := t.isLt; omega⟩ (ix3 r j d)
  | 0, h => by
    rw [acc_zero]
    show step2 (F := Ideal) _ _ _ _ _ _ _ (zero2 (F := Ideal)) (ix2 (0 : Fin 1) d) = _
    rw [step2_apply, zero2_apply, zero_add, Fin.sum_univ_one]
    rfl
  | n + 1, h => by
    rw [acc_succ]
    show step2 (F := Ideal) _ _ _ _ _ _ _ _ (ix2 (0 : Fin 1) d) = _
    rw [step2_apply, acc2_apply c d n (Nat.lt_of_succ_lt h), Fin.sum_univ_castSucc (n := n + 1)]
    rfl

end Cert.KernelIdeal.K0

end
-- ==== Proof.K0Blocks.lean ====
/-
  What the first region's windows read. The point arrays, the point counts and the grid coordinates are cut into
  blocks of 400 rows, the block at grid point `t` starting at row `400 t`; the weight is one block, the same at
  every point.
-/
import proofs.«123623_j214748364885_2_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.K0

open Cert.KernelIdeal Cert.KernelIdeal.Gen

variable {F : FTy → Type} [FloatOps F]
variable (V : (c : Dev nD) → (b : Ref sig .tc) → Buf (Elt F) ((c : Thread nD τ).loc b))

/-- Row `400 t + r` of a 40000-row array: row `r` of the block at grid point `t`. -/
abbrev rowOf (t : Fin cfg0.N) (r : Fin 400) : Fin 40000 :=
  ⟨400 * t.val + r.val, by have := t.isLt; have hN : cfg0.N = 100 := N_0; have := r.isLt; omega⟩

theorem idx0_0 : ∀ t : Fin cfg0.N, win0_0.index t 0 = t.val ∧ win0_0.index t 1 = 0 :=
  (by decide +kernel : ∀ t : Fin grid0.N, win0_0.index t 0 = t.val ∧ win0_0.index t 1 = 0)

/-- Window 0's block at point `t`, at row `r`: the array at row `400 t + r`. -/
theorem blk0_0 (c : Dev nD) (t : Fin cfg0.N) (r : Fin 400) (j : Fin 100) :
    (iblk0 V c 0 t : Vec F S400x100 .f32) (ix2 r j) = (V c main_arg0 : S40000x100.Idx → Elt F .f32) (ix2 (rowOf t r) j) := by
  unfold iblk0
  rw [View.read_apply]
  show V c main_arg0 _ = V c main_arg0 _
  refine congrArg (V c main_arg0) ?_
  funext a
  apply Fin.ext
  match a with
  | ⟨0, _⟩ => show win0_0.index t 0 * 400 + 1 * r.val = 400 * t.val + r.val; rw [(idx0_0 t).1]; omega
  | ⟨1, _⟩ => show win0_0.index t 1 * 100 + 1 * j.val = j.val; rw [(idx0_0 t).2]; omega

theorem idx0_1 : ∀ t : Fin cfg0.N, win0_1.index t 0 = t.val ∧ win0_1.index t 1 = 0 :=
  (by decide +kernel : ∀ t : Fin grid0.N, win0_1.index t 0 = t.val ∧ win0_1.index t 1 = 0)

/-- Window 1's block at point `t`, at row `r`: the array at row `400 t + r`. -/
theorem blk0_1 (c : Dev nD) (t : Fin cfg0.N) (r : Fin 400) (j : Fin 100) :
    (iblk0 V c 1 t : Vec F S400x100 .f32) (ix2 r j) = (V c main_arg1 : S40000x100.Idx → Elt F .f32) (ix2 (rowOf t r) j) := by
  unfold iblk0
  rw [View.read_apply]
  show V c main_arg1 _ = V c main_arg1 _
  refine congrArg (V c main_arg1) ?_
  funext a
  apply Fin.ext
  match a with
  | ⟨0, _⟩ => show win0_1.index t 0 * 400 + 1 * r.val = 400 * t.val + r.val; rw [(idx0_1 t).1]; omega
  | ⟨1, _⟩ => show win0_1.index t 1 * 100 + 1 * j.val = j.val; rw [(idx0_1 t).2]; omega

theorem idx0_2 : ∀ t : Fin cfg0.N, win0_2.index t 0 = t.val ∧ win0_2.index t 1 = 0 :=
  (by decide +kernel : ∀ t : Fin grid0.N, win0_2.index t 0 = t.val ∧ win0_2.index t 1 = 0)

/-- Window 2's block at point `t`, at row `r`: the array at row `400 t + r`. -/
theorem blk0_2 (c : Dev nD) (t : Fin cfg0.N) (r : Fin 400) (j : Fin 100) :
    (iblk0 V c 2 t : Vec F S400x100 .f32) (ix2 r j) = (V c main_arg2 : S40000x100.Idx → Elt F .f32) (ix2 (rowOf t r) j) := by
  unfold iblk0
  rw [View.read_apply]
  show V c main_arg2 _ = V c main_arg2 _
  refine congrArg (V c main_arg2) ?_
  funext a
  apply Fin.ext
  match a with
  | ⟨0, _⟩ => show win0_2.index t 0 * 400 + 1 * r.val = 400 * t.val + r.val; rw [(idx0_2 t).1]; omega
  | ⟨1, _⟩ => show win0_2.index t 1 * 100 + 1 * j.val = j.val; rw [(idx0_2 t).2]; omega

theorem idx0_3 : ∀ t : Fin cfg0.N, win0_3.index t 0 = t.val ∧ win0_3.index t 1 = 0 :=
  (by decide +kernel : ∀ t : Fin grid0.N, win0_3.index t 0 = t.val ∧ win0_3.index t 1 = 0)

/-- Window 3's block at point `t`, at row `r`: the array at row `400 t + r`. -/
theorem blk0_3 (c : Dev nD) (t : Fin cfg0.N) (r : Fin 400) (j : Fin 100) :
    (iblk0 V c 3 t : Vec F S400x100 .f32) (ix2 r j) = (V c main_arg3 : S40000x100.Idx → Elt F .f32) (ix2 (rowOf t r) j) := by
  unfold iblk0
  rw [View.read_apply]
  show V c main_arg3 _ = V c main_arg3 _
  refine congrArg (V c main_arg3) ?_
  funext a
  apply Fin.ext
  match a with
  | ⟨0, _⟩ => show win0_3.index t 0 * 400 + 1 * r.val = 400 * t.val + r.val; rw [(idx0_3 t).1]; omega
  | ⟨1, _⟩ => show win0_3.index t 1 * 100 + 1 * j.val = j.val; rw [(idx0_3 t).2]; omega

theorem idx0_4 : ∀ t : Fin cfg0.N, win0_4.index t 0 = t.val ∧ win0_4.index t 1 = 0 :=
  (by decide +kernel : ∀ t : Fin grid0.N, win0_4.index t 0 = t.val ∧ win0_4.index t 1 = 0)

/-- Window 4's block at point `t`, at row `r`: the array at row `400 t + r`. -/
theorem blk0_4 (c : Dev nD) (t : Fin cfg0.N) (r : Fin 400) (u : Fin 1) :
    (iblk0 V c 4 t : Vec F S400x1 .i32) (ix2 r u) = (V c main_v0 : S40000x1.Idx → Elt F .i32) (ix2 (rowOf t r) u) := by
  unfold iblk0
  rw [View.read_apply]
  show V c main_v0 _ = V c main_v0 _
  refine congrArg (V c main_v0) ?_
  funext a
  apply Fin.ext
  match a with
  | ⟨0, _⟩ => show win0_4.index t 0 * 400 + 1 * r.val = 400 * t.val + r.val; rw [(idx0_4 t).1]; omega
  | ⟨1, _⟩ => show win0_4.index t 1 * 1 + 1 * u.val = u.val; rw [(idx0_4 t).2]; omega

theorem idx0_5 : ∀ t : Fin cfg0.N, win0_5.index t 0 = t.val ∧ win0_5.index t 1 = 0 :=
  (by decide +kernel : ∀ t : Fin grid0.N, win0_5.index t 0 = t.val ∧ win0_5.index t 1 = 0)

/-- Window 5's block at point `t`, at row `r`: the array at row `400 t + r`. -/
theorem blk0_5 (c : Dev nD) (t : Fin cfg0.N) (r : Fin 400) (q : Fin 4) :
    (iblk0 V c 5 t : Vec F S400x4 .i32) (ix2 r q) = (V c main_arg5 : S40000x4.Idx → Elt F .i32) (ix2 (rowOf t r) q) := by
  unfold iblk0
  rw [View.read_apply]
  show V c main_arg5 _ = V c main_arg5 _
  refine congrArg (V c main_arg5) ?_
  funext a
  apply Fin.ext
  match a with
  | ⟨0, _⟩ => show win0_5.index t 0 * 400 + 1 * r.val = 400 * t.val + r.val; rw [(idx0_5 t).1]; omega
  | ⟨1, _⟩ => show win0_5.index t 1 * 4 + 1 * q.val = q.val; rw [(idx0_5 t).2]; omega

theorem idx0_6 : ∀ t : Fin cfg0.N, win0_6.index t 0 = 0 ∧ win0_6.index t 1 = 0 :=
  (by decide +kernel : ∀ t : Fin grid0.N, win0_6.index t 0 = 0 ∧ win0_6.index t 1 = 0)

/-- The weight's one block is the weight. -/
theorem blk0_6 (c : Dev nD) (t : Fin cfg0.N) (k : Fin 9) (d : Fin 64) :
    (iblk0 V c 6 t : Vec F S9x64 .f32) (ix2 k d) = (V c main_arg6 : S9x64.Idx → Elt F .f32) (ix2 k d) := by
  unfold iblk0
  rw [View.read_apply]
  show V c main_arg6 _ = V c main_arg6 _
  refine congrArg (V c main_arg6) ?_
  funext a
  apply Fin.ext
  match a with
  | ⟨0, _⟩ => show win0_6.index t 0 * 9 + 1 * k.val = k.val; rw [(idx0_6 t).1]; omega
  | ⟨1, _⟩ => show win0_6.index t 1 * 64 + 1 * d.val = d.val; rw [(idx0_6 t).2]; omega

end Cert.KernelIdeal.K0

end
-- ==== Proof.K1Tile.lean ====
/-
  The linear layer of one tile of 400 pillars, as the vector program both kernel bodies run, and what it is at an
  index.

  A tile holds, for 400 pillars, four [400,100] arrays of point coordinates and intensities, the [400,1] point counts,
  the [400,4] grid coordinates and the [9,64] weight. The bodies form nine [400,100] feature planes — the four loaded
  planes, the three coordinate planes less their row mean (the row sum over the 100 points divided by the count
  clamped below at one), and the two bird's-eye-view centres broadcast along the row —, multiply every plane by the
  validity mask (1 where the point number is below the count), and add up, from zero, the nine outer products of a
  masked plane with a weight row: a [400,100,64] value. Read at pillar r, point j, channel d this is the contraction
  of the nine masked features of point j of row r with column d of the weight: the specification's linRow.
-/
import proofs.«123623_j214748364885_2_alg».proof.Proof.Gen.KernelIdeal.Skeleton
import proofs.«123623_j214748364885_2_alg».proof.Proof.Consts
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.K1

open Idealize.ShloMosaic Idealize.ShloMosaic.ValueIdx

/-- The point counts clamped below at one, as floats: a [400,1] column. -/
def cntCol (x4 : Vec Ideal S400x1 .i32) : FVec Ideal S400x1 .f32 :=
  sitofp .f32 (maxsi (shapeCast S400x1 x4 Gen.shapeCasts_S400x1_S400x1) (broadcast S400x1 1#32))

/-- A coordinate plane less its row mean. -/
def centred (x : Vec Ideal S400x100 .f32) (x4 : Vec Ideal S400x1 .i32) : FVec Ideal S400x100 .f32 :=
  subf x (broadcastTo S400x100
    (divf (shapeCast S400x1
      (multiReduction .add [1] S400 x 0x00000000#32 Gen.reduces_S400x100_S400 (.inl rfl) rfl)
      Gen.shapeCasts_S400_S400x1) (cntCol x4))
    Gen.broadcasts_S400x1_S400x100)

/-- The first bird's-eye-view centre (from grid coordinate 3), broadcast along the row. -/
def bevXPlane (x5 : Vec Ideal S400x4 .i32) : FVec Ideal S400x100 .f32 :=
  broadcastTo S400x100
    (shapeCast S400x1
      (addf (addf (mulf (sitofp .f32 (extractStridedSlice S400x1 ![0, 3] x5 Gen.slices_S400x4_o0_3_S400x1))
          (broadcast S400x1 (Scalar.ofBits .f32 0x3E23D70A#32)))
        (broadcast S400x1 (Scalar.ofBits .f32 0x3DA3D70A#32)))
        (broadcast S400x1 (Scalar.ofBits .f32 0x00000000#32)))
      Gen.shapeCasts_S400x1_S400x1)
    Gen.broadcasts_S400x1_S400x100

/-- The second bird's-eye-view centre (from grid coordinate 2), broadcast along the row. -/
def bevYPlane (x5 : Vec Ideal S400x4 .i32) : FVec Ideal S400x100 .f32 :=
  broadcastTo S400x100
    (shapeCast S400x1
      (addf (addf (mulf (sitofp .f32 (extractStridedSlice S400x1 ![0, 2] x5 Gen.slices_S400x4_o0_2_S400x1))
          (broadcast S400x1 (Scalar.ofBits .f32 0x3E23D70A#32)))
        (broadcast S400x1 (Scalar.ofBits .f32 0x3DA3D70A#32)))
        (broadcast S400x1 (Scalar.ofBits .f32 0xC21EB852#32)))
      Gen.shapeCasts_S400x1_S400x1)
    Gen.broadcasts_S400x1_S400x100

/-- The validity mask: 1 where the point number is below the row's count (signed), else 0. -/
def maskPlane (x4 : Vec Ideal S400x1 .i32) : FVec Ideal S400x100 .f32 :=
  sitofp .f32 (extui 32
    (cmpi .slt (iota .tc S400x100 32 [1] Gen.iota_S400x100_d1_w32)
      (broadcastTo S400x100 (shapeCast S400x1 x4 Gen.shapeCasts_S400x1_S400x1) Gen.broadcasts_S400x1_S400x100))
    Gen.natLt_1_32)

/-- The outer product of a masked feature plane with a weight row (a [1,64] slice of the weight). -/
def outer (f m : FVec Ideal S400x100 .f32) (w : FVec Ideal S1x64 .f32) : FVec Ideal S400x100x64 .f32 :=
  mulf
    (broadcastTo S400x100x64 (shapeCast S400x100x1 (mulf f m) Gen.shapeCasts_S400x100_S400x100x1)
      Gen.broadcasts_S400x100x1_S400x100x64)
    (broadcastTo S400x100x64
      (shapeCast S1x1x64 (shapeCast S64 w Gen.shapeCasts_S1x64_S64) Gen.shapeCasts_S64_S1x1x64)
      Gen.broadcasts_S1x1x64_S400x100x64)

/-- The linear layer of a tile: from zero, the nine outer products added in feature order. -/
def tileLin (x0 x1 x2 x3 : Vec Ideal S400x100 .f32) (x4 : Vec Ideal S400x1 .i32) (x5 : Vec Ideal S400x4 .i32)
    (x6 : Vec Ideal S9x64 .f32) : FVec Ideal S400x100x64 .f32 :=
  addf (addf (addf (addf (addf (addf (addf (addf (addf
    (broadcast S400x100x64 (Scalar.ofBits .f32 0x00000000#32))
    (outer x0 (maskPlane x4) (extractStridedSlice S1x64 ![0, 0] x6 Gen.slices_S9x64_o0_0_S1x64)))
    (outer x1 (maskPlane x4) (extractStridedSlice S1x64 ![1, 0] x6 Gen.slices_S9x64_o1_0_S1x64)))
    (outer x2 (maskPlane x4) (extractStridedSlice S1x64 ![2, 0] x6 Gen.slices_S9x64_o2_0_S1x64)))
    (outer x3 (maskPlane x4) (extractStridedSlice S1x64 ![3, 0] x6 Gen.slices_S9x64_o3_0_S1x64)))
    (outer (centred x0 x4) (maskPlane x4) (extractStridedSlice S1x64 ![4, 0] x6 Gen.slices_S9x64_o4_0_S1x64)))
    (outer (centred x1 x4) (maskPlane x4) (extractStridedSlice S1x64 ![5, 0] x6 Gen.slices_S9x64_o5_0_S1x64)))
    (outer (centred x2 x4) (maskPlane x4) (extractStridedSlice S1x64 ![6, 0] x6 Gen.slices_S9x64_o6_0_S1x64)))
    (outer (bevXPlane x5) (maskPlane x4) (extractStridedSlice S1x64 ![7, 0] x6 Gen.slices_S9x64_o7_0_S1x64)))
    (outer (bevYPlane x5) (maskPlane x4) (extractStridedSlice S1x64 ![8, 0] x6 Gen.slices_S9x64_o8_0_S1x64))

/-! ## Layout steps at an index -/

section Layout
variable {α : Type}

/-- An [a] vector cast to an [a,1] column reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a,1] column broadcast along rows of length b reads, at (i, j), the column at (i, 0). -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- An [a,b] plane cast to [a,b,1] reads, at (i, j, u), the plane at (i, j). -/
theorem shapeCast_ab_ab1_apply {a b : ℕ} (x : (⟨2, ![a, b]⟩ : Shape).Idx → α) (h : (⟨2, ![a, b]⟩ : Shape).ShapeCasts ⟨3, ![a, b, 1]⟩)
    (i : Fin a) (j : Fin b) (u : Fin 1) : shapeCast ⟨3, ![a, b, 1]⟩ x h (ix3 i j u) = x (ix2 i j) :=
  shapeCast_apply x h _ _ (by
    have hu : u.val = 0 := by omega
    rw [Shape.rowMajor_val_three, Shape.rowMajor_val_two]
    show i.val * b + j.val = (i.val * b + j.val) * 1 + u.val
    rw [hu, Nat.mul_one, Nat.add_zero])

/-- An [a,b,1] array broadcast along a last axis of length c reads, at (i, j, d), the array at (i, j, 0). -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (d : Fin c) :
    broadcastTo ⟨3, ![a, b, c]⟩ v h (ix3 i j d) = v (ix3 i j (0 : Fin 1)) := by
  refine broadcastTo_apply v h (ix3 i j d) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A [c] vector cast to [1,1,c] reads, at (u, v, d), the vector at d. -/
theorem shapeCast_c_11c_apply {c : ℕ} (x : (⟨1, ![c]⟩ : Shape).Idx → α) (h : (⟨1, ![c]⟩ : Shape).ShapeCasts ⟨3, ![1, 1, c]⟩)
    (u v : Fin 1) (d : Fin c) : shapeCast ⟨3, ![1, 1, c]⟩ x h (ix3 u v d) = x (ix1 d) :=
  shapeCast_apply x h _ _ (by
    have hu : u.val = 0 := by omega
    have hv : v.val = 0 := by omega
    rw [Shape.rowMajor_val_three, Shape.rowMajor_val_one]
    show d.val = (u.val * 1 + v.val) * c + d.val
    rw [hu, hv]; simp)

/-- A [1,1,c] array broadcast to [a,b,c] reads, at (i, j, d), the array at (0, 0, d). -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (d : Fin c) :
    broadcastTo ⟨3, ![a, b, c]⟩ v h (ix3 i j d) = v (ix3 (0 : Fin 1) (0 : Fin 1) d) := by
  refine broadcastTo_apply v h (ix3 i j d) (ix3 (0 : Fin 1) (0 : Fin 1) d) fun ax => ?_
  match ax with
  | ⟨0, _⟩ => rfl
  | ⟨1, _⟩ => rfl
  | ⟨2, _⟩ =>
    show d.val = if c = 1 then 0 else d.val
    split
    · have := d.isLt; omega
    · rfl

end Layout

/-! ## The planes at an index -/

/-- A one-bit word widened to 32 bits reads, signed, as its value 0 or 1. -/
theorem setWidth_toInt_bit (b : BitVec 1) : (((b.setWidth 32).toInt : ℝ) : EReal) = ((b.toNat : ℝ) : EReal) := by
  rcases BitVec.eq_zero_or_eq_one b with h | h <;> subst h <;> simp

theorem cntCol_apply (x4 : Vec Ideal S400x1 .i32) (r : Fin 400) (u : Fin 1) :
    cntCol x4 (ix2 r u) = Cert.PFN.cnt (x4 (ix2 r u)) := by
  unfold cntCol
  rw [shapeCast_self]
  rfl

theorem maskPlane_apply (x4 : Vec Ideal S400x1 .i32) (r : Fin 400) (j : Fin 100) :
    maskPlane x4 (ix2 r j) = Cert.PFN.mask (x4 (ix2 r (0 : Fin 1))) j := by
  unfold maskPlane
  rw [shapeCast_self]
  show ((((IntOp.cmpi .slt (iota .tc S400x100 32 [1] Gen.iota_S400x100_d1_w32 (ix2 r j))
      (broadcastTo S400x100 x4 Gen.broadcasts_S400x1_S400x100 (ix2 r j))).setWidth 32).toInt : ℝ) : EReal) = _
  rw [iota_single_apply, broadcastTo_a1_ab_apply, setWidth_toInt_bit]
  rfl

theorem rowSum_apply (x : Vec Ideal S400x100 .f32) (r : Fin 400) :
    multiReduction (F := Ideal) .add [1] S400 x 0x00000000#32 Gen.reduces_S400x100_S400 (.inl rfl) rfl (ix1 r)
      = ∑ j : Fin 100, x (ix2 r j) := by
  refine (Ideal.multiReduction_add_single x 0x00000000#32 Gen.reduces_S400x100_S400 (.inl rfl) rfl (ix1 r)).trans ?_
  refine Finset.sum_congr rfl fun j _ => congrArg x (funext fun a => Fin.ext ?_)
  match a with
  | ⟨0, _⟩ => rfl
  | ⟨1, _⟩ => rfl

theorem centred_apply (x : Vec Ideal S400x100 .f32) (x4 : Vec Ideal S400x1 .i32) (r : Fin 400) (j : Fin 100) :
    centred x x4 (ix2 r j) = x (ix2 r j) - Cert.PFN.mean (fun j => x (ix2 r j)) (x4 (ix2 r (0 : Fin 1))) := by
  unfold centred
  rw [subf_apply, broadcastTo_a1_ab_apply, divf_apply, shapeCast_a_a1_apply, rowSum_apply, cntCol_apply]
  rfl

theorem bevXPlane_apply (x5 : Vec Ideal S400x4 .i32) (r : Fin 400) (j : Fin 100) :
    bevXPlane x5 (ix2 r j) = Cert.PFN.bevX (fun q => x5 (ix2 r q)) := by
  unfold bevXPlane
  rw [broadcastTo_a1_ab_apply, shapeCast_self]
  show ((((extractStridedSlice S400x1 ![0, 3] x5 Gen.slices_S400x4_o0_3_S400x1 (ix2 r (0 : Fin 1))).toInt : ℝ) : EReal) * _ + _) + _ = _
  rw [slice2_axis1_apply 3 x5 Gen.slices_S400x4_o0_3_S400x1 r (0 : Fin 1) (3 : Fin 4) rfl]
  rfl

theorem bevYPlane_apply (x5 : Vec Ideal S400x4 .i32) (r : Fin 400) (j : Fin 100) :
    bevYPlane x5 (ix2 r j) = Cert.PFN.bevY (fun q => x5 (ix2 r q)) := by
  unfold bevYPlane
  rw [broadcastTo_a1_ab_apply, shapeCast_self]
  show ((((extractStridedSlice S400x1 ![0, 2] x5 Gen.slices_S400x4_o0_2_S400x1 (ix2 r (0 : Fin 1))).toInt : ℝ) : EReal) * _ + _) + _ = _
  rw [slice2_axis1_apply 2 x5 Gen.slices_S400x4_o0_2_S400x1 r (0 : Fin 1) (2 : Fin 4) rfl]
  rfl

theorem outer_apply (f m : FVec Ideal S400x100 .f32) (w : FVec Ideal S1x64 .f32) (r : Fin 400) (j : Fin 100) (d : Fin 64) :
    outer f m w (ix3 r j d) = (f (ix2 r j) * m (ix2 r j)) * w (ix2 (0 : Fin 1) d) := by
  unfold outer
  rw [mulf_apply, broadcastTo_ab1_abc_apply, shapeCast_ab_ab1_apply, broadcastTo_11c_abc_apply, shapeCast_c_11c_apply,
    shapeCast_1a_a_apply]
  rfl

/-! ## The contraction -/

/-- A sum over nine terms, written as the chain of additions from zero that the bodies perform. -/
theorem sum_nine (g : Fin 9 → EReal) :
    ∑ k : Fin 9, g k = ((((((((0 + g 0) + g 1) + g 2) + g 3) + g 4) + g 5) + g 6) + g 7) + g 8 := by
  rw [Fin.sum_univ_castSucc, Fin.sum_univ_eight, zero_add]
  rfl

/-- The zero word broadcast, read anywhere, is 0. -/
theorem zeroPlane_apply (i : S400x100x64.Idx) :
    broadcast S400x100x64 (Scalar.ofBits (F := Ideal) .f32 0x00000000#32) i = 0 :=
  Cert.PFN.ofBits_zero_word

/-- THE LINEAR LAYER OF A TILE AT AN INDEX: pillar r, point j, channel d of the tile's [400,100,64] value is the
    specification's contraction of the nine masked features of that point with column d of the weight, the row's data
    being row r of each loaded block. -/
theorem tileLin_apply (x0 x1 x2 x3 : Vec Ideal S400x100 .f32) (x4 : Vec Ideal S400x1 .i32) (x5 : Vec Ideal S400x4 .i32)
    (x6 : Vec Ideal S9x64 .f32) (r : Fin 400) (j : Fin 100) (d : Fin 64) :
    tileLin x0 x1 x2 x3 x4 x5 x6 (ix3 r j d)
      = Cert.PFN.linRow (fun j => x0 (ix2 r j)) (fun j => x1 (ix2 r j)) (fun j => x2 (ix2 r j)) (fun j => x3 (ix2 r j))
          (x4 (ix2 r 0)) (fun q => x5 (ix2 r q)) (fun k d => x6 (ix2 k d)) j d := by
  unfold tileLin Cert.PFN.linRow
  rw [sum_nine]
  simp only [addf_apply, zeroPlane_apply, outer_apply, maskPlane_apply, centred_apply, bevXPlane_apply, bevYPlane_apply]
  rw [slice2_axis0_apply 0 x6 Gen.slices_S9x64_o0_0_S1x64 (0 : Fin 1) d (0 : Fin 9) rfl,
    slice2_axis0_apply 1 x6 Gen.slices_S9x64_o1_0_S1x64 (0 : Fin 1) d (1 : Fin 9) rfl,
    slice2_axis0_apply 2 x6 Gen.slices_S9x64_o2_0_S1x64 (0 : Fin 1) d (2 : Fin 9) rfl,
    slice2_axis0_apply 3 x6 Gen.slices_S9x64_o3_0_S1x64 (0 : Fin 1) d (3 : Fin 9) rfl,
    slice2_axis0_apply 4 x6 Gen.slices_S9x64_o4_0_S1x64 (0 : Fin 1) d (4 : Fin 9) rfl,
    slice2_axis0_apply 5 x6 Gen.slices_S9x64_o5_0_S1x64 (0 : Fin 1) d (5 : Fin 9) rfl,
    slice2_axis0_apply 6 x6 Gen.slices_S9x64_o6_0_S1x64 (0 : Fin 1) d (6 : Fin 9) rfl,
    slice2_axis0_apply 7 x6 Gen.slices_S9x64_o7_0_S1x64 (0 : Fin 1) d (7 : Fin 9) rfl,
    slice2_axis0_apply 8 x6 Gen.slices_S9x64_o8_0_S1x64 (0 : Fin 1) d (8 : Fin 9) rfl]
  rfl

/-! ## The two bodies' linear layers are this one term -/

open Gen in
/-- The normalise-and-pool body's [400,100,64] linear-layer value, as its payloads nest, is tileLin of its loads. -/
theorem k1_lin_eq_tileLin (v0 v1 v2 v3 : Vec Ideal S400x100 .f32) (v4 : Vec Ideal S400x1 .i32) (v6 : Vec Ideal S400x4 .i32)
    (v7 : Vec Ideal S9x64 .f32) :
    k1_pay14 v7 (k1_pay5 v1 v4) (k1_pay6 v2 v4) (k1_pay8 v6) (k1_pay9 (k1_pay7 v6)) (k1_pay10 (F := Ideal) (k1_pay2 v4))
      (k1_pay11 v0 v1 v2 v3 (k1_pay2 v4) v7) (k1_pay12 v7) (k1_pay13 (k1_pay2 v4) (k1_pay4 v0 v4))
    = tileLin v0 v1 v2 v3 v4 v6 v7 := rfl

open Gen in
/-- The moments body's [400,100,64] linear-layer value, as its payloads nest, is tileLin of its loads. -/
theorem k0_lin_eq_tileLin (v3 v4 v5 v6 : Vec Ideal S400x100 .f32) (v7 : Vec Ideal S400x1 .i32) (v9 : Vec Ideal S400x4 .i32)
    (v10 : Vec Ideal S9x64 .f32) :
    k0_pay16 v10 (k0_pay6 v3 v7) (k0_pay7 v4 v7) (k0_pay8 v5 v7) (k0_pay12 (k0_pay10 v9) (k0_pay11 (F := Ideal)))
      (k0_pay13 (k0_pay9 v9)) (k0_pay14 (F := Ideal) (k0_pay4 v7)) (k0_pay15 v3 v4 v5 v6 (k0_pay4 v7) v10)
    = tileLin v3 v4 v5 v6 v7 v9 v10 := rfl

end Cert.KernelIdeal.K1

end
-- ==== Proof.K0Moments.lean ====
/-
  The first region's two result arrays are the two moments of the linear layer over all 40000 x 100 points.

  The accumulators hold, per channel, the sum over grid points, points and the tile's pillars of the tile's linear
  layer (and of its square). A tile's layer at pillar `r` is the linear layer of row `400 t + r` of the arrays, and
  (grid point, pillar in the tile) runs over the 40000 rows exactly once.
-/
import proofs.«123623_j214748364885_2_alg».proof.Proof.K0Arr
import proofs.«123623_j214748364885_2_alg».proof.Proof.K0Total
import proofs.«123623_j214748364885_2_alg».proof.Proof.K0Blocks
import proofs.«123623_j214748364885_2_alg».proof.Proof.K1Tile
import proofs.«123623_j214748364885_2_alg».proof.Proof.Spec

noncomputable section

open Idealize.ShloMosaic Idealize.ShloMosaic.TcCoe Idealize.ShloMosaic.ValueIdx

namespace Cert.KernelIdeal.K0

open Cert.KernelIdeal Cert.KernelIdeal.Gen

/-- Rows of 400-row tiles: summing over the 100 tiles and the 400 rows of each is summing over the 40000 rows. -/
theorem sum_rows {M : Type*} [AddCommMonoid M] (f : Fin 40000 → M) (row : Fin 100 → Fin 400 → Fin 40000)
    (hrow : ∀ t r, (row t r).val = 400 * t.val + r.val) :
    ∑ t : Fin 100, ∑ r : Fin 400, f (row t r) = ∑ p : Fin 40000, f p := by
  rw [← Fintype.sum_prod_type' (fun t r => f (row t r))]
  refine Fintype.sum_equiv (finProdFinEquiv (m := 100) (n := 400)) _ _ fun x => congrArg f (Fin.ext ?_)
  rw [hrow]
  show 400 * x.1.val + x.2.val = x.2.val + 400 * x.1.val
  omega

variable (V : (c : Dev nD) → (b : Ref sig .tc) → Buf (Elt Ideal) ((c : Thread nD τ).loc b))

/-- The linear layer over the arrays the region is entered with: pillar `p`, point `j`, channel `d`. -/
def lin (c : Dev nD) (p : Fin 40000) (j : Fin 100) (d : Fin 64) : EReal :=
  Cert.PFN.linRow (fun j => (V c main_arg0 : S40000x100.Idx → EReal) (ix2 p j)) (fun j => (V c main_arg1 : S40000x100.Idx → EReal) (ix2 p j))
    (fun j => (V c main_arg2 : S40000x100.Idx → EReal) (ix2 p j)) (fun j => (V c main_arg3 : S40000x100.Idx → EReal) (ix2 p j))
    ((V c main_v0 : S40000x1.Idx → BitVec 32) (ix2 p (0 : Fin 1))) (fun q => (V c main_arg5 : S40000x4.Idx → BitVec 32) (ix2 p q))
    (fun k d => (V c main_arg6 : S9x64.Idx → EReal) (ix2 k d)) j d

/-- A tile's linear layer at pillar `r` is the arrays' at row `400 t + r`. -/
theorem tileAt_apply (c : Dev nD) (t : Fin cfg0.N) (r : Fin 400) (j : Fin 100) (d : Fin 64) :
    tileAt V c t (ix3 r j d) = lin V c (rowOf t r) j d := by
  unfold tileAt tile lin
  rw [Cert.KernelIdeal.K1.k0_lin_eq_tileLin, Cert.KernelIdeal.K1.tileLin_apply]
  simp only [blk0_0, blk0_1, blk0_2, blk0_3, blk0_4, blk0_5, blk0_6]

/-- Re-indexing the accumulated triple sum by the array's rows. -/
theorem sum_points (g : Fin 40000 → Fin 100 → EReal) :
    ∑ t : Fin (99 + 1), ∑ j : Fin 100, ∑ r : Fin 400, g (rowOf ⟨t.val, by have := t.isLt; have hN : cfg0.N = 100 := N_0; omega⟩ r) j
      = ∑ p : Fin 40000, ∑ j : Fin 100, g p j := by
  have e : ∀ t : Fin (99 + 1), (∑ j : Fin 100, ∑ r : Fin 400, g (rowOf ⟨t.val, by have := t.isLt; have hN : cfg0.N = 100 := N_0; omega⟩ r) j)
      = ∑ r : Fin 400, ∑ j : Fin 100, g (rowOf ⟨t.val, by have := t.isLt; have hN : cfg0.N = 100 := N_0; omega⟩ r) j :=
    fun t => Finset.sum_comm
  rw [Finset.sum_congr rfl fun t _ => e t]
  exact sum_rows (fun p => ∑ j : Fin 100, g p j)
    (fun t r => rowOf ⟨t.val, by have := t.isLt; have hN : cfg0.N = 100 := N_0; omega⟩ r) (fun t r => rfl)

/-- The sum array at channel `d`: the first moment. -/
theorem moment1 (c : Dev nD) (d : Fin 64) :
    ((dat0 V c).arrAt 7 cfg0.N : S1x64.Idx → EReal) (ix2 (0 : Fin 1) d) = Cert.PFN.mom1 fun p j => lin V c p j d := by
  rw [arr7]
  show (acc V c 99 tLast.isLt).1 (ix2 (0 : Fin 1) d) = _
  rw [acc1_apply]
  simp only [tileAt_apply]
  exact sum_points (fun p j => lin V c p j d)

/-- The sum-of-squares array at channel `d`: the second moment. -/
theorem moment2 (c : Dev nD) (d : Fin 64) :
    ((dat0 V c).arrAt 8 cfg0.N : S1x64.Idx → EReal) (ix2 (0 : Fin 1) d) = Cert.PFN.mom2 fun p j => lin V c p j d := by
  rw [arr8]
  show (acc V c 99 tLast.isLt).2 (ix2 (0 : Fin 1) d) = _
  rw [acc2_apply]
  simp only [tileAt_apply]
  exact sum_points (fun p j => lin V c p j d * lin V c p j d)

end Cert.KernelIdeal.K0

end
-- ==== Proof.KEntry.lean ====
/-
  What the second region is entered with, read at a channel, over the extended reals: the batch mean and the
  variance (as mean of squares less squared mean) of the linear layer over the launch arrays, the scale and the shift at
  the channel, and the point count of a pillar.
-/
import proofs.«123623_j214748364885_2_alg».proof.Proof.KHost
import proofs.«123623_j214748364885_2_alg».proof.Proof.K0Moments

noncomputable section

open Idealize.ShloMosaic Idealize.ShloMosaic.TcCoe Idealize.ShloMosaic.ValueIdx

namespace Cert.KernelIdeal.KE

open Cert.KernelIdeal Cert.KernelIdeal.Gen

variable (m : (ℓ : Loc nD τ sig) → Buf (Elt Ideal) ℓ) (ρ : Dev nD → PrngReg)

/-- The reshaped point counts at row `p`. -/
theorem counts_apply (c : Dev nD) (p : Fin 40000) (u : Fin 1) :
    (shapeCast S40000x1 (m ((c : Thread nD τ).loc main_arg4)) shapeCasts_S40000_S40000x1 : S40000x1.Idx → BitVec 32) (ix2 p u)
      = ((m ((c : Thread nD τ).loc main_arg4)) : S40000.Idx → BitVec 32) (ix1 p) :=
  Cert.KernelIdeal.K1.shapeCast_a_a1_apply _ _ p u

/-- A [64] vector reshaped to a row, at channel `d`. -/
theorem row_apply (x : S64.Idx → EReal) (d : Fin 64) :
    (shapeCast S1x64 x shapeCasts_S64_S1x64 : S1x64.Idx → EReal) (ix2 (0 : Fin 1) d) = x (ix1 d) :=
  shapeCast_a_1a_apply _ _ _ d

/-- The linear layer over the first region's entry arrays is the linear layer over the launch arrays. -/
theorem lin_first (c : Dev nD) (p : Fin 40000) (j : Fin 100) (d : Fin 64) :
    Cert.KernelIdeal.K0.lin (V1 m ρ) c p j d = Cert.PFN.linArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) p j d := by
  unfold Cert.KernelIdeal.K0.lin Cert.PFN.linArr
  rw [KH.first_arg0, KH.first_arg1, KH.first_arg2, KH.first_arg3, KH.first_arg5, KH.first_arg6, KH.first_counts, counts_apply]

/-- The element-count row at any index is the word of 4.0e6. -/
theorem countRow_apply (i : S1x64.Idx) : (KH.countRow (F := Ideal)) i = Cert.PFN.kN := rfl

/-- The mean the second region is entered with, at channel `d`. -/
theorem mean_apply (c : Dev nD) (d : Fin 64) :
    (V3 m ρ c main_v5 : S1x64.Idx → EReal) (ix2 (0 : Fin 1) d) = Cert.PFN.bmean fun p j => Cert.PFN.linArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) p j d := by
  rw [KH.second_mean]
  show Ideal.div (((dat0 (V1 m ρ) c).arrAt 7 cfg0.N : S1x64.Idx → EReal) (ix2 (0 : Fin 1) d)) Cert.PFN.kN = _
  rw [Cert.KernelIdeal.K0.moment1]
  simp only [lin_first]
  rfl

/-- The variance the second region is entered with, at channel `d`. -/
theorem var_apply (c : Dev nD) (d : Fin 64) :
    (V3 m ρ c main_v9 : S1x64.Idx → EReal) (ix2 (0 : Fin 1) d) = Cert.PFN.varMoments fun p j => Cert.PFN.linArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) p j d := by
  rw [KH.second_var]
  show Ideal.div (((dat0 (V1 m ρ) c).arrAt 8 cfg0.N : S1x64.Idx → EReal) (ix2 (0 : Fin 1) d)) Cert.PFN.kN
      - Ideal.div (((dat0 (V1 m ρ) c).arrAt 7 cfg0.N : S1x64.Idx → EReal) (ix2 (0 : Fin 1) d)) Cert.PFN.kN
        * Ideal.div (((dat0 (V1 m ρ) c).arrAt 7 cfg0.N : S1x64.Idx → EReal) (ix2 (0 : Fin 1) d)) Cert.PFN.kN = _
  rw [Cert.KernelIdeal.K0.moment1, Cert.KernelIdeal.K0.moment2]
  simp only [lin_first]
  rfl

/-- The scale and the shift the second region is entered with, at channel `d`. -/
theorem scale_apply (c : Dev nD) (d : Fin 64) :
    (V3 m ρ c main_v1 : S1x64.Idx → EReal) (ix2 (0 : Fin 1) d) = ((m ((c : Thread nD τ).loc main_arg7)) : S64.Idx → EReal) (ix1 d) := by
  rw [KH.second_scale]; exact row_apply _ d

theorem shift_apply (c : Dev nD) (d : Fin 64) :
    (V3 m ρ c main_v2 : S1x64.Idx → EReal) (ix2 (0 : Fin 1) d) = ((m ((c : Thread nD τ).loc main_arg8)) : S64.Idx → EReal) (ix1 d) := by
  rw [KH.second_shift]; exact row_apply _ d

/-- The point count of pillar `p` the second region is entered with. -/
theorem count_apply (c : Dev nD) (p : Fin 40000) :
    (V3 m ρ c main_v0 : S40000x1.Idx → BitVec 32) (ix2 p (0 : Fin 1)) = ((m ((c : Thread nD τ).loc main_arg4)) : S40000.Idx → BitVec 32) (ix1 p) := by
  rw [KH.second_counts]; exact counts_apply m c p 0

end Cert.KernelIdeal.KE

end
-- ==== Proof.K1Block.lean ====
/-
  The output block of the normalise-and-pool body at one grid point, read at an index.

  From the tile's linear layer l (pillar r, point j, channel d) and four [1,64] rows — the batch mean mu, the batch
  variance v, the scale g and the shift b — the body forms max (((l - mu) * rsqrt (v + eps)) * g + b) 0 at every
  (r, j, d) and takes, for every pillar and channel, the maximum over the pillar's 100 points starting from -inf.
  A maximum folded from the bottom element over all 100 points is the supremum over them: the specification's pool
  of bnRelu.
-/
import proofs.«123623_j214748364885_2_alg».proof.Proof.K1Tile
import proofs.«123623_j214748364885_2_alg».proof.Proof.Gen.KernelIdeal.Frame

noncomputable section

namespace Cert.KernelIdeal.K1

open Idealize.ShloMosaic Idealize.ShloMosaic.ValueIdx

/-- The word of -inf denotes the bottom element. -/
theorem ofBits_neg_inf_word : Ideal.ofBits .f32 0xFF800000#32 = ⊥ := by
  simp [Ideal.ofBits, Ideal.ieee]

/-- A [1,64] row viewed as [1,1,64] reads, at (0, 0, d), the row at (0, d). -/
theorem row11_apply (x : FVec Ideal S1x64 .f32) (d : Fin 64) :
    shapeCast S1x1x64 (shapeCast S1x64 x Gen.shapeCasts_S1x64_S1x64) Gen.shapeCasts_S1x64_S1x1x64
      (ix3 (0 : Fin 1) (0 : Fin 1) d) = x (ix2 (0 : Fin 1) d) := by
  rw [shapeCast_self]
  exact shapeCast_ab_1ab_apply x Gen.shapeCasts_S1x64_S1x1x64 (0 : Fin 1) (0 : Fin 1) d

/-- The maximum over a pillar's points, folded from -inf, is the supremum over the points. -/
theorem poolMax_apply (src : FVec Ideal S400x100x64 .f32) (r : Fin 400) (d : Fin 64) :
    multiReduction (F := Ideal) .maximumf [1] S400x64 src 0xFF800000#32 Gen.reduces_S400x100x64_S400x64 (.inl rfl) rfl (ix2 r d)
      = Cert.PFN.pool (fun j => src (ix3 r j d)) := by
  refine (Ideal.multiReduction_maximumf_single src 0xFF800000#32 Gen.reduces_S400x100x64_S400x64 (.inl rfl) rfl (ix2 r d)).trans ?_
  have hf : (src ∘ Gen.reduces_S400x100x64_S400x64.lift (ix2 r d)) = fun j : Fin 100 => src (ix3 r j d) := by
    funext j
    refine congrArg src (funext fun a => Fin.ext ?_)
    match a with
    | ⟨0, _⟩ => rfl
    | ⟨1, _⟩ => rfl
    | ⟨2, _⟩ => rfl
  rw [hf]
  show Finset.fold max (Ideal.ofBits .f32 0xFF800000#32) (fun j : Fin 100 => src (ix3 r j d)) Finset.univ = _
  rw [ofBits_neg_inf_word]
  rfl

theorem rsqrt_apply {s : Shape} (x : FVec Ideal s .f32) (i : s.Idx) : rsqrt x i = Ideal.rsqrt (x i) := rfl

/-- Normalise, scale, shift, clip and pool, for ANY [400,100,64] value l in the linear layer's place. -/
theorem normPool_apply (l : FVec Ideal S400x100x64 .f32) (x7 x8 x9 x10 : Vec Ideal S1x64 .f32) (r : Fin 400) (d : Fin 64) :
    Gen.k1_pay1 l (Gen.k1_pay15 x7) (Gen.k1_pay16 x8) (Gen.k1_pay17 x9) (Gen.k1_pay18 x10)
        (Scalar.ofBits (F := Ideal) .f32 0x3727C5AC#32) (ix2 r d)
      = Cert.PFN.pool (fun j => Cert.PFN.bnRelu (l (ix3 r j d)) (x7 (ix2 (0 : Fin 1) d)) (x8 (ix2 (0 : Fin 1) d))
          (x9 (ix2 (0 : Fin 1) d)) (x10 (ix2 (0 : Fin 1) d))) := by
  unfold Gen.k1_pay1
  refine (poolMax_apply _ r d).trans ?_
  refine congrArg Cert.PFN.pool (funext fun j => ?_)
  unfold Gen.k1_pay15 Gen.k1_pay16 Gen.k1_pay17 Gen.k1_pay18
  simp only [maximumf_apply, addf_apply, mulf_apply, subf_apply, broadcast_apply, broadcastTo_11c_abc_apply, rsqrt_apply,
    row11_apply]
  rfl

/-- THE OUTPUT BLOCK AT AN INDEX: what the body leaves in its output block, at pillar r and channel d, is the pool over
    the pillar's points of the normalised, clipped linear layer of the point's input blocks. -/
theorem out_block_apply (x0 x1 x2 x3 : Vec Ideal S400x100 .f32) (x4 : Vec Ideal S400x1 .i32) (x5 : Vec Ideal S400x4 .i32)
    (x6 : Vec Ideal S9x64 .f32) (x7 x8 x9 x10 : Vec Ideal S1x64 .f32) (r : Fin 400) (d : Fin 64) :
    Gen.out1_11 x0 x1 x2 x3 x4 x5 x6 x7 x8 x9 x10 (ix2 r d)
      = Cert.PFN.pool (fun j => Cert.PFN.bnRelu (tileLin x0 x1 x2 x3 x4 x5 x6 (ix3 r j d)) (x7 (ix2 (0 : Fin 1) d))
          (x8 (ix2 (0 : Fin 1) d)) (x9 (ix2 (0 : Fin 1) d)) (x10 (ix2 (0 : Fin 1) d))) := by
  have hz : (![0, 0] : Fin 2 → Nat) = fun _ => 0 := funext fun a => by fin_cases a <;> rfl
  unfold Gen.out1_11
  rw [View.canon_unit_zero hz]
  simp only [View.ld_unit_zero (S := S400x100) hz, View.ld_unit_zero (S := S400x1) hz, View.ld_unit_zero (S := S400x4) hz,
    View.ld_unit_zero (S := S9x64) hz, View.ld_unit_zero (S := S1x64) hz]
  rw [k1_lin_eq_tileLin]
  exact normPool_apply _ x7 x8 x9 x10 r d

end Cert.KernelIdeal.K1

end
-- ==== Proof.K1Array.lean ====
/-
  From the output blocks to the whole output array of the normalise-and-pool region.

  The grid has 100 points; point t handles pillars 400 t .. 400 t + 399: every row-blocked window (the four point
  arrays, the counts, the grid coordinates, the output) sits at block index (t, 0), and the weight and the four
  per-channel rows are whole-array windows at block index (0, 0). So row r of a block at point t is row 400 t + r
  of its array, the block written back at point t is the restriction of one function of the arrays to rows
  400 t .. 400 t + 399, and the point that covers row p is p / 400. The array after the run is that function.
-/
import proofs.«123623_j214748364885_2_alg».proof.Proof.K1Block

noncomputable section

namespace Cert.KernelIdeal.K1

open Idealize.ShloMosaic Idealize.ShloMosaic.ValueIdx Idealize.ShloMosaic.TcCoe Idealize.SL.Sem
open Idealize.ShloMosaic.Pipeline (Dat Cfg Window)

/-- The printed index maps over the grid: the row-blocked windows move with the point, the others stay at zero. -/
theorem idx_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = 0 ∧ win1_6.index t (1 : Fin 2) = 0)
    ∧ (win1_7.index t (0 : Fin 2) = 0 ∧ win1_7.index t (1 : Fin 2) = 0)
    ∧ (win1_8.index t (0 : Fin 2) = 0 ∧ win1_8.index t (1 : Fin 2) = 0)
    ∧ (win1_9.index t (0 : Fin 2) = 0 ∧ win1_9.index t (1 : Fin 2) = 0)
    ∧ (win1_10.index t (0 : Fin 2) = 0 ∧ win1_10.index t (1 : Fin 2) = 0)
    ∧ (win1_11.index t (0 : Fin 2) = t.val ∧ win1_11.index t (1 : Fin 2) = 0) :=
  (by decide +kernel : ∀ t : Fin grid1.N, _)

/-- A grid point is below 100. -/
theorem point_lt (t : Fin cfg1.N) : t.val < 100 := lt_of_lt_of_eq t.isLt Gen.N_1

/-- The array row of row r of the block at point t. -/
def rowOf (t : Fin cfg1.N) (r : Fin 400) : Fin 40000 := ⟨t.val * 400 + r.val, by have := point_lt t; have := r.isLt; omega⟩

section
variable (V : (c : Dev nD) → (b : Ref sig .tc) → Buf (Elt Ideal) ((c : Thread nD τ).loc b)) (c : Dev nD)

/-! ## Each input block read where the point's rows sit -/

theorem blk0_apply (t : Fin cfg1.N) (r : Fin 400) (j : Fin 100) :
    Gen.iblk1 (F := Ideal) V c 0 t (ix2 r j) = (V c main_arg0 : S40000x100.Idx → EReal) (ix2 (rowOf t r) j) := by
  unfold Gen.iblk1
  show (V c main_arg0 : S40000x100.Idx → EReal) (((cfg1.win 0).blk t).view.emb (ix2 r j)) = _
  refine congrArg _ (funext fun a => Fin.ext ?_)
  obtain ⟨e0, e1⟩ := (idx_facts t).1
  match a with
  | ⟨0, _⟩ => show win1_0.index t (0 : Fin 2) * 400 + 1 * r.val = t.val * 400 + r.val; omega
  | ⟨1, _⟩ => show win1_0.index t (1 : Fin 2) * 100 + 1 * j.val = j.val; omega

theorem blk1_apply (t : Fin cfg1.N) (r : Fin 400) (j : Fin 100) :
    Gen.iblk1 (F := Ideal) V c 1 t (ix2 r j) = (V c main_arg1 : S40000x100.Idx → EReal) (ix2 (rowOf t r) j) := by
  unfold Gen.iblk1
  show (V c main_arg1 : S40000x100.Idx → EReal) (((cfg1.win 1).blk t).view.emb (ix2 r j)) = _
  refine congrArg _ (funext fun a => Fin.ext ?_)
  obtain ⟨e0, e1⟩ := (idx_facts t).2.1
  match a with
  | ⟨0, _⟩ => show win1_1.index t (0 : Fin 2) * 400 + 1 * r.val = t.val * 400 + r.val; omega
  | ⟨1, _⟩ => show win1_1.index t (1 : Fin 2) * 100 + 1 * j.val = j.val; omega

theorem blk2_apply (t : Fin cfg1.N) (r : Fin 400) (j : Fin 100) :
    Gen.iblk1 (F := Ideal) V c 2 t (ix2 r j) = (V c main_arg2 : S40000x100.Idx → EReal) (ix2 (rowOf t r) j) := by
  unfold Gen.iblk1
  show (V c main_arg2 : S40000x100.Idx → EReal) (((cfg1.win 2).blk t).view.emb (ix2 r j)) = _
  refine congrArg _ (funext fun a => Fin.ext ?_)
  obtain ⟨e0, e1⟩ := (idx_facts t).2.2.1
  match a with
  | ⟨0, _⟩ => show win1_2.index t (0 : Fin 2) * 400 + 1 * r.val = t.val * 400 + r.val; omega
  | ⟨1, _⟩ => show win1_2.index t (1 : Fin 2) * 100 + 1 * j.val = j.val; omega

theorem blk3_apply (t : Fin cfg1.N) (r : Fin 400) (j : Fin 100) :
    Gen.iblk1 (F := Ideal) V c 3 t (ix2 r j) = (V c main_arg3 : S40000x100.Idx → EReal) (ix2 (rowOf t r) j) := by
  unfold Gen.iblk1
  show (V c main_arg3 : S40000x100.Idx → EReal) (((cfg1.win 3).blk t).view.emb (ix2 r j)) = _
  refine congrArg _ (funext fun a => Fin.ext ?_)
  obtain ⟨e0, e1⟩ := (idx_facts t).2.2.2.1
  match a with
  | ⟨0, _⟩ => show win1_3.index t (0 : Fin 2) * 400 + 1 * r.val = t.val * 400 + r.val; omega
  | ⟨1, _⟩ => show win1_3.index t (1 : Fin 2) * 100 + 1 * j.val = j.val; omega

theorem blk4_apply (t : Fin cfg1.N) (r : Fin 400) (j : Fin 1) :
    Gen.iblk1 (F := Ideal) V c 4 t (ix2 r j) = (V c main_v0 : S40000x1.Idx → BitVec 32) (ix2 (rowOf t r) j) := by
  unfold Gen.iblk1
  show (V c main_v0 : S40000x1.Idx → BitVec 32) (((cfg1.win 4).blk t).view.emb (ix2 r j)) = _
  refine congrArg _ (funext fun a => Fin.ext ?_)
  obtain ⟨e0, e1⟩ := (idx_facts t).2.2.2.2.1
  match a with
  | ⟨0, _⟩ => show win1_4.index t (0 : Fin 2) * 400 + 1 * r.val = t.val * 400 + r.val; omega
  | ⟨1, _⟩ => show win1_4.index t (1 : Fin 2) * 1 + 1 * j.val = j.val; omega

theorem blk5_apply (t : Fin cfg1.N) (r : Fin 400) (j : Fin 4) :
    Gen.iblk1 (F := Ideal) V c 5 t (ix2 r j) = (V c main_arg5 : S40000x4.Idx → BitVec 32) (ix2 (rowOf t r) j) := by
  unfold Gen.iblk1
  show (V c main_arg5 : S40000x4.Idx → BitVec 32) (((cfg1.win 5).blk t).view.emb (ix2 r j)) = _
  refine congrArg _ (funext fun a => Fin.ext ?_)
  obtain ⟨e0, e1⟩ := (idx_facts t).2.2.2.2.2.1
  match a with
  | ⟨0, _⟩ => show win1_5.index t (0 : Fin 2) * 400 + 1 * r.val = t.val * 400 + r.val; omega
  | ⟨1, _⟩ => show win1_5.index t (1 : Fin 2) * 4 + 1 * j.val = j.val; omega

theorem blk6_apply (t : Fin cfg1.N) (k : Fin 9) (d : Fin 64) :
    Gen.iblk1 (F := Ideal) V c 6 t (ix2 k d) = (V c main_arg6 : S9x64.Idx → EReal) (ix2 k d) := by
  unfold Gen.iblk1
  show (V c main_arg6 : S9x64.Idx → EReal) (((cfg1.win 6).blk t).view.emb (ix2 k d)) = _
  refine congrArg _ (funext fun a => Fin.ext ?_)
  obtain ⟨e0, e1⟩ := (idx_facts t).2.2.2.2.2.2.1
  match a with
  | ⟨0, _⟩ => show win1_6.index t (0 : Fin 2) * 9 + 1 * k.val = k.val; omega
  | ⟨1, _⟩ => show win1_6.index t (1 : Fin 2) * 64 + 1 * d.val = d.val; omega

theorem blk7_apply (t : Fin cfg1.N) (k : Fin 1) (d : Fin 64) :
    Gen.iblk1 (F := Ideal) V c 7 t (ix2 k d) = (V c main_v5 : S1x64.Idx → EReal) (ix2 k d) := by
  unfold Gen.iblk1
  show (V c main_v5 : S1x64.Idx → EReal) (((cfg1.win 7).blk t).view.emb (ix2 k d)) = _
  refine congrArg _ (funext fun a => Fin.ext ?_)
  obtain ⟨e0, e1⟩ := (idx_facts t).2.2.2.2.2.2.2.1
  match a with
  | ⟨0, _⟩ => show win1_7.index t (0 : Fin 2) * 1 + 1 * k.val = k.val; omega
  | ⟨1, _⟩ => show win1_7.index t (1 : Fin 2) * 64 + 1 * d.val = d.val; omega

theorem blk8_apply (t : Fin cfg1.N) (k : Fin 1) (d : Fin 64) :
    Gen.iblk1 (F := Ideal) V c 8 t (ix2 k d) = (V c main_v9 : S1x64.Idx → EReal) (ix2 k d) := by
  unfold Gen.iblk1
  show (V c main_v9 : S1x64.Idx → EReal) (((cfg1.win 8).blk t).view.emb (ix2 k d)) = _
  refine congrArg _ (funext fun a => Fin.ext ?_)
  obtain ⟨e0, e1⟩ := (idx_facts t).2.2.2.2.2.2.2.2.1
  match a with
  | ⟨0, _⟩ => show win1_8.index t (0 : Fin 2) * 1 + 1 * k.val = k.val; omega
  | ⟨1, _⟩ => show win1_8.index t (1 : Fin 2) * 64 + 1 * d.val = d.val; omega

theorem blk9_apply (t : Fin cfg1.N) (k : Fin 1) (d : Fin 64) :
    Gen.iblk1 (F := Ideal) V c 9 t (ix2 k d) = (V c main_v1 : S1x64.Idx → EReal) (ix2 k d) := by
  unfold Gen.iblk1
  show (V c main_v1 : S1x64.Idx → EReal) (((cfg1.win 9).blk t).view.emb (ix2 k d)) = _
  refine congrArg _ (funext fun a => Fin.ext ?_)
  obtain ⟨e0, e1⟩ := (idx_facts t).2.2.2.2.2.2.2.2.2.1
  match a with
  | ⟨0, _⟩ => show win1_9.index t (0 : Fin 2) * 1 + 1 * k.val = k.val; omega
  | ⟨1, _⟩ => show win1_9.index t (1 : Fin 2) * 64 + 1 * d.val = d.val; omega

theorem blk10_apply (t : Fin cfg1.N) (k : Fin 1) (d : Fin 64) :
    Gen.iblk1 (F := Ideal) V c 10 t (ix2 k d) = (V c main_v2 : S1x64.Idx → EReal) (ix2 k d) := by
  unfold Gen.iblk1
  show (V c main_v2 : S1x64.Idx → EReal) (((cfg1.win 10).blk t).view.emb (ix2 k d)) = _
  refine congrArg _ (funext fun a => Fin.ext ?_)
  obtain ⟨e0, e1⟩ := (idx_facts t).2.2.2.2.2.2.2.2.2.2.1
  match a with
  | ⟨0, _⟩ => show win1_10.index t (0 : Fin 2) * 1 + 1 * k.val = k.val; omega
  | ⟨1, _⟩ => show win1_10.index t (1 : Fin 2) * 64 + 1 * d.val = d.val; omega

/-! ## The output array as one function of the arrays -/

/-- Pillar p, channel d of the result: the pool over the pillar's points of the normalised, clipped linear layer, read
    off the region's arrays. -/
def outVal (p : Fin 40000) (d : Fin 64) : EReal :=
  Cert.PFN.pool (fun j => Cert.PFN.bnRelu
    (Cert.PFN.linRow (fun j => (V c main_arg0 : S40000x100.Idx → EReal) (ix2 p j))
      (fun j => (V c main_arg1 : S40000x100.Idx → EReal) (ix2 p j))
      (fun j => (V c main_arg2 : S40000x100.Idx → EReal) (ix2 p j))
      (fun j => (V c main_arg3 : S40000x100.Idx → EReal) (ix2 p j))
      ((V c main_v0 : S40000x1.Idx → BitVec 32) (ix2 p 0))
      (fun q => (V c main_arg5 : S40000x4.Idx → BitVec 32) (ix2 p q))
      (fun k d => (V c main_arg6 : S9x64.Idx → EReal) (ix2 k d)) j d)
    ((V c main_v5 : S1x64.Idx → EReal) (ix2 0 d)) ((V c main_v9 : S1x64.Idx → EReal) (ix2 0 d))
    ((V c main_v1 : S1x64.Idx → EReal) (ix2 0 d)) ((V c main_v2 : S1x64.Idx → EReal) (ix2 0 d)))

/-- The same as a function of the array's index. -/
def outArr : S40000x64.Idx → EReal := fun i => outVal V c ⟨(i 0).val, idx2_lt0 i⟩ ⟨(i 1).val, idx2_lt1 i⟩

theorem outArr_apply (p : Fin 40000) (d : Fin 64) : outArr V c (ix2 p d) = outVal V c p d := rfl

/-- Row r, channel d of the output block at point t sits in the array at row 400 t + r, channel d. -/
theorem emb_out (t : Fin cfg1.N) (r : Fin 400) (d : Fin 64) :
    ((cfg1.win 11).blk t).view.emb (ix2 r d) = (ix2 (rowOf t r) d : S40000x64.Idx) := by
  refine funext fun a => Fin.ext ?_
  obtain ⟨e0, e1⟩ := (idx_facts t).2.2.2.2.2.2.2.2.2.2.2
  match a with
  | ⟨0, _⟩ => show win1_11.index t (0 : Fin 2) * 400 + 1 * r.val = t.val * 400 + r.val; omega
  | ⟨1, _⟩ => show win1_11.index t (1 : Fin 2) * 64 + 1 * d.val = d.val; omega

/-- WHAT POINT t WRITES BACK is block t of that function. -/
theorem flushed_eq (t : Fin cfg1.N) :
    (Gen.dat1 (F := Ideal) V c).flushed 11 t = ((cfg1.win 11).blk t).view.read (Elt Ideal) (outArr V c) := by
  show (cfg1.win 11).cut (grid1.coords t) ((Gen.dat1 (F := Ideal) V c).after 11 t) = _
  rw [Gen.after1_11]
  funext y
  obtain ⟨r, d, rfl⟩ : ∃ (r : Fin 400) (d : Fin 64), y = ix2 r d := ⟨y 0, y 1, eq_ix2 y⟩
  show Gen.out1_11 (Gen.iblk1 V c 0 t) (Gen.iblk1 V c 1 t) (Gen.iblk1 V c 2 t) (Gen.iblk1 V c 3 t) (Gen.iblk1 V c 4 t)
      (Gen.iblk1 V c 5 t) (Gen.iblk1 V c 6 t) (Gen.iblk1 V c 7 t) (Gen.iblk1 V c 8 t) (Gen.iblk1 V c 9 t)
      (Gen.iblk1 V c 10 t) (ix2 r d) = outArr V c (((cfg1.win 11).blk t).view.emb (ix2 r d))
  rw [emb_out, outArr_apply]
  refine (out_block_apply (Gen.iblk1 V c 0 t) (Gen.iblk1 V c 1 t) (Gen.iblk1 V c 2 t) (Gen.iblk1 V c 3 t)
    (Gen.iblk1 V c 4 t) (Gen.iblk1 V c 5 t) (Gen.iblk1 V c 6 t) (Gen.iblk1 V c 7 t) (Gen.iblk1 V c 8 t)
    (Gen.iblk1 V c 9 t) (Gen.iblk1 V c 10 t) r d).trans ?_
  unfold outVal
  refine congrArg Cert.PFN.pool (funext fun j => ?_)
  rw [tileLin_apply (Gen.iblk1 V c 0 t) (Gen.iblk1 V c 1 t) (Gen.iblk1 V c 2 t) (Gen.iblk1 V c 3 t)
    (Gen.iblk1 V c 4 t) (Gen.iblk1 V c 5 t) (Gen.iblk1 V c 6 t) r j d]
  rw [blk7_apply V c t 0 d, blk8_apply V c t 0 d, blk9_apply V c t 0 d, blk10_apply V c t 0 d, blk4_apply V c t r 0]
  rw [show (fun j => Gen.iblk1 (F := Ideal) V c 0 t (ix2 r j)) = fun j => (V c main_arg0 : S40000x100.Idx → EReal) (ix2 (rowOf t r) j)
        from funext fun j => blk0_apply V c t r j,
    show (fun j => Gen.iblk1 (F := Ideal) V c 1 t (ix2 r j)) = fun j => (V c main_arg1 : S40000x100.Idx → EReal) (ix2 (rowOf t r) j)
        from funext fun j => blk1_apply V c t r j,
    show (fun j => Gen.iblk1 (F := Ideal) V c 2 t (ix2 r j)) = fun j => (V c main_arg2 : S40000x100.Idx → EReal) (ix2 (rowOf t r) j)
        from funext fun j => blk2_apply V c t r j,
    show (fun j => Gen.iblk1 (F := Ideal) V c 3 t (ix2 r j)) = fun j => (V c main_arg3 : S40000x100.Idx → EReal) (ix2 (rowOf t r) j)
        from funext fun j => blk3_apply V c t r j,
    show (fun q => Gen.iblk1 (F := Ideal) V c 5 t (ix2 r q)) = fun q => (V c main_arg5 : S40000x4.Idx → BitVec 32) (ix2 (rowOf t r) q)
        from funext fun q => blk5_apply V c t r q,
    show (fun k d => Gen.iblk1 (F := Ideal) V c 6 t (ix2 k d)) = fun k d => (V c main_arg6 : S9x64.Idx → EReal) (ix2 k d)
        from funext fun k => funext fun d => blk6_apply V c t k d]

/-- An index of the array is in point t's block iff each coordinate is in the block's range on its axis. -/
theorem mem_blk (t : Fin cfg1.N) (i : S40000x64.Idx) :
    i ∈ ((cfg1.win 11).blk t).view.set ↔ ∀ a : Fin 2, win1_11.index t a * S400x64.size a ≤ (i a).val
      ∧ (i a).val < win1_11.index t a * S400x64.size a + S400x64.size a := by
  show i ∈ ((View.whole main_v10).slice (win1_11.rect t)).set ↔ _
  rw [View.set_slice_whole, Rect.mem_set_unit]
  exact Iff.rfl

/-- Every index of the array is in the block of the point its row falls under. -/
theorem covered (i : S40000x64.Idx) :
    ∃ t : Fin cfg1.N, (cfg1.win 11).flush t = true ∧ i ∈ ((cfg1.win 11).blk t).view.set := by
  have hi0 : (i 0).val < 40000 := idx2_lt0 i
  have hi1 : (i 1).val < 64 := idx2_lt1 i
  have hN : cfg1.N = 100 := Gen.N_1
  let t : Fin cfg1.N := ⟨(i 0).val / 400, by rw [hN]; omega⟩
  have ht : t.val = (i 0).val / 400 := rfl
  obtain ⟨e0, e1⟩ := (idx_facts t).2.2.2.2.2.2.2.2.2.2.2
  refine ⟨t, Gen.flush1_11 t, ?_⟩
  rw [mem_blk]
  intro a
  match a with
  | ⟨0, _⟩ =>
    show win1_11.index t (0 : Fin 2) * 400 ≤ (i 0).val ∧ (i 0).val < win1_11.index t (0 : Fin 2) * 400 + 400
    omega
  | ⟨1, _⟩ =>
    show win1_11.index t (1 : Fin 2) * 64 ≤ (i 1).val ∧ (i 1).val < win1_11.index t (1 : Fin 2) * 64 + 64
    omega

/-- THE OUTPUT ARRAY AFTER THE REGION, for any entry contents: that function of the arrays. -/
theorem arr_final : (Gen.dat1 (F := Ideal) V c).arrAt 11 cfg1.N = outArr V c :=
  (Gen.dat1 (F := Ideal) V c).arrAt_eq_of_cover 11 (outArr V c) (fun t _ => flushed_eq V c t) (covered)

end

/-- THE OUTPUT ARRAY AT AN INDEX: pillar p, channel d of the array the region leaves is the pool over the pillar's
    points of the normalised, clipped linear layer read off the arrays the region was entered with. -/
theorem arr_out (V : (c : Dev nD) → (b : Ref sig .tc) → Buf (Elt Ideal) ((c : Thread nD τ).loc b)) (c : Dev nD)
    (p : Fin 40000) (d : Fin 64) :
    (Gen.dat1 (F := Ideal) V c).arrAt 11 cfg1.N (ix2 p d)
      = Cert.PFN.pool (fun j => Cert.PFN.bnRelu
          (Cert.PFN.linRow (fun j => (V c main_arg0 : S40000x100.Idx → EReal) (ix2 p j))
            (fun j => (V c main_arg1 : S40000x100.Idx → EReal) (ix2 p j))
            (fun j => (V c main_arg2 : S40000x100.Idx → EReal) (ix2 p j))
            (fun j => (V c main_arg3 : S40000x100.Idx → EReal) (ix2 p j))
            ((V c main_v0 : S40000x1.Idx → BitVec 32) (ix2 p 0))
            (fun q => (V c main_arg5 : S40000x4.Idx → BitVec 32) (ix2 p q))
            (fun k d => (V c main_arg6 : S9x64.Idx → EReal) (ix2 k d)) j d)
          ((V c main_v5 : S1x64.Idx → EReal) (ix2 0 d)) ((V c main_v9 : S1x64.Idx → EReal) (ix2 0 d))
          ((V c main_v1 : S1x64.Idx → EReal) (ix2 0 d)) ((V c main_v2 : S1x64.Idx → EReal) (ix2 0 d))) := by
  rw [arr_final V c]
  rfl

end Cert.KernelIdeal.K1

end
-- ==== Proof.KValue.lean ====
/-
  The idealized kernel's result array, entry by entry, as a function of the launch arrays: at pillar `p` and channel
  `d`, the pooled, clipped, normalised linear layer, with the batch mean and the variance in its moments form (mean of
  squares less squared mean) that the first region accumulates and the host finishes.
-/
import proofs.«123623_j214748364885_2_alg».proof.Proof.KEntry
import proofs.«123623_j214748364885_2_alg».proof.Proof.K1Array

noncomputable section

open Idealize.ShloMosaic Idealize.ShloMosaic.TcCoe Idealize.ShloMosaic.ValueIdx

namespace Cert.KernelIdeal.KV

open Cert.KernelIdeal Cert.KernelIdeal.Gen

variable (m : (ℓ : Loc nD τ sig) → Buf (Elt Ideal) ℓ) (ρ : Dev nD → PrngReg)

/-- The second region's output array at (p, d). -/
theorem result_apply (c : Dev nD) (p : Fin 40000) (d : Fin 64) :
    ((dat1 (V3 m ρ) c).arrAt 11 cfg1.N : S40000x64.Idx → EReal) (ix2 p d) = Cert.PFN.outWith Cert.PFN.varMoments (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) p d := by
  rw [Cert.KernelIdeal.K1.arr_out]
  unfold Cert.PFN.outWith Cert.PFN.linArr
  rw [KH.second_arg0, KH.second_arg1, KH.second_arg2, KH.second_arg3, KH.second_arg5, KH.second_arg6,
    KE.count_apply, KE.mean_apply, KE.var_apply, KE.scale_apply, KE.shift_apply]
  rfl

end Cert.KernelIdeal.KV

end
-- ==== Proof.AlgVariance.lean ====
/-
  The two forms of a batch variance agree on real data.

  One program forms the variance of a channel as the mean of the squares less the square of the mean; the other as
  the mean of the squared deviations from the mean. Over the real numbers these are the same number: with N points,
  S their sum, Q the sum of their squares and mu = S / N,

      sum (x - mu)^2 = Q - 2 mu S + N mu^2,    so    (sum (x - mu)^2) / N = Q / N - mu^2.

  Over the extended reals the identity can fail (distributivity breaks at the infinities), so it is stated for data
  every entry of which is the coercion of a real; there every sum, product and quotient by the nonzero count is again
  a coercion and the identity is the real one.
-/
import proofs.«123623_j214748364885_2_alg».proof.Proof.Spec
import proofs.«123623_j214748364885_2_alg».proof.Proof.Consts
import Mathlib

noncomputable section

namespace Cert.PFN

open Idealize.ShloMosaic

/-- The coercion of the reals into the extended reals commutes with finite sums. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The variance identity over the reals, for any finite index type with N ≠ 0 elements; quotients are written as
    products with 1 / N, the form a quotient by a real takes in the extended reals. -/
theorem real_var_identity {ι : Type*} [Fintype ι] (x : ι → ℝ) (N : ℝ) (hN : (Fintype.card ι : ℝ) = N) (hN0 : N ≠ 0) :
    (∑ i, x i * x i) * (1 / N) - ((∑ i, x i) * (1 / N)) * ((∑ i, x i) * (1 / N))
      = (∑ i, (x i - (∑ i, x i) * (1 / N)) * (x i - (∑ i, x i) * (1 / N))) * (1 / N) := by
  set S : ℝ := ∑ i, x i with hS
  set Q : ℝ := ∑ i, x i * x i with hQ
  set μ : ℝ := S * (1 / N) with hμ
  have h1 : ∑ i, (x i - μ) * (x i - μ) = Q - 2 * μ * S + N * (μ * μ) := by
    have h2 : ∀ i, (x i - μ) * (x i - μ) = x i * x i - 2 * μ * x i + μ * μ := fun i => by ring
    simp only [h2, Finset.sum_add_distrib, Finset.sum_sub_distrib, ← Finset.mul_sum, Finset.sum_const,
      Finset.card_univ, nsmul_eq_mul, hN, ← hS, ← hQ]
    ring
  rw [h1, hμ]
  field_simp
  ring

/-- The double sum over pillars and points, as one sum over pairs. -/
theorem real_var_identity_grid (f : Fin 40000 → Fin 100 → ℝ) :
    (∑ p : Fin 40000, ∑ j : Fin 100, f p j * f p j) * (1 / (4000000 : ℝ))
        - ((∑ p : Fin 40000, ∑ j : Fin 100, f p j) * (1 / (4000000 : ℝ)))
          * ((∑ p : Fin 40000, ∑ j : Fin 100, f p j) * (1 / (4000000 : ℝ)))
      = (∑ p : Fin 40000, ∑ j : Fin 100,
          (f p j - (∑ p : Fin 40000, ∑ j : Fin 100, f p j) * (1 / (4000000 : ℝ)))
            * (f p j - (∑ p : Fin 40000, ∑ j : Fin 100, f p j) * (1 / (4000000 : ℝ)))) * (1 / (4000000 : ℝ)) := by
  have hcard : (Fintype.card (Fin 40000 × Fin 100) : ℝ) = 4000000 := by
    rw [Fintype.card_prod, Fintype.card_fin, Fintype.card_fin]; norm_num
  have h := real_var_identity (ι := Fin 40000 × Fin 100) (fun q => f q.1 q.2) 4000000 hcard (by norm_num)
  simpa only [Fintype.sum_prod_type] using h

/-- On real data the first moment is the coercion of the real double sum. -/
theorem mom1_coe (f : Fin 40000 → Fin 100 → ℝ) :
    mom1 (fun p j => (f p j : EReal)) = ((∑ p : Fin 40000, ∑ j : Fin 100, f p j : ℝ) : EReal) := by
  simp only [mom1, coe_finset_sum]

/-- On real data the second moment is the coercion of the real double sum of squares. -/
theorem mom2_coe (f : Fin 40000 → Fin 100 → ℝ) :
    mom2 (fun p j => (f p j : EReal)) = ((∑ p : Fin 40000, ∑ j : Fin 100, f p j * f p j : ℝ) : EReal) := by
  simp only [mom2, coe_finset_sum, EReal.coe_mul]

/-- A quotient of a real by the count 4,000,000 is the coercion of the real product with its reciprocal. -/
theorem div_kN_coe (r : ℝ) : Ideal.div (r : EReal) kN = ((r * (1 / (4000000 : ℝ)) : ℝ) : EReal) := by
  rw [kN_eq, Ideal.div_coe (by norm_num : (4000000 : ℝ) ≠ 0), ← EReal.coe_mul]

/-- On real data the batch mean is the coercion of the real mean. -/
theorem bmean_coe (f : Fin 40000 → Fin 100 → ℝ) :
    bmean (fun p j => (f p j : EReal))
      = (((∑ p : Fin 40000, ∑ j : Fin 100, f p j) * (1 / (4000000 : ℝ)) : ℝ) : EReal) := by
  rw [bmean, mom1_coe, div_kN_coe]

/-- The two forms of the variance agree when every entry is a real number. -/
theorem var_eq_of_real (l : Fin 40000 → Fin 100 → EReal) (h : ∀ p j, ∃ r : ℝ, l p j = (r : EReal)) :
    Cert.PFN.varMoments l = Cert.PFN.varCentred l := by
  choose f hf using h
  obtain rfl : l = fun p j => (f p j : EReal) := by funext p j; exact hf p j
  have hc : (∑ p : Fin 40000, ∑ j : Fin 100,
        ((f p j : EReal) - bmean (fun p j => (f p j : EReal))) * ((f p j : EReal) - bmean (fun p j => (f p j : EReal))))
      = ((∑ p : Fin 40000, ∑ j : Fin 100,
          (f p j - (∑ p : Fin 40000, ∑ j : Fin 100, f p j) * (1 / (4000000 : ℝ)))
            * (f p j - (∑ p : Fin 40000, ∑ j : Fin 100, f p j) * (1 / (4000000 : ℝ))) : ℝ) : EReal) := by
    simp only [bmean_coe, coe_finset_sum, EReal.coe_mul, EReal.coe_sub]
  rw [varMoments, varCentred, hc, mom2_coe, bmean_coe, div_kN_coe, div_kN_coe, ← EReal.coe_mul, ← EReal.coe_sub,
    real_var_identity_grid]

end Cert.PFN

end
-- ==== Proof.AlgFinite.lean ====
/-
  The linear layer of real inputs is real, and hence the two forms of the batch variance give one result.

  An extended real is called real here when it is the coercion of a real number. Coercions, sums, differences and
  products of reals are real; so is a finite sum of reals, and a quotient of a real by a nonzero real. A float word
  whose exponent field is not all ones denotes a real (a zero, a subnormal or a normal number), whatever its value:
  that is all that is ever used of the voxel constants. The clamped point count max(n, 1) is an integer at least one,
  so a row's mean, a quotient by it, is real. Every feature is then real, the mask is a coercion by definition, and
  the contraction with a real weight is a finite sum of products of reals.
-/
import proofs.«123623_j214748364885_2_alg».proof.Proof.Spec
import proofs.«123623_j214748364885_2_alg».proof.Proof.Consts
import proofs.«123623_j214748364885_2_alg».proof.Proof.AlgVariance

noncomputable section

namespace Cert.PFN

open Idealize.ShloMosaic Idealize.ShloMosaic.ValueIdx

/-- An extended real that is the coercion of a real number. -/
def IsReal (x : EReal) : Prop := ∃ r : ℝ, x = (r : EReal)

theorem IsReal.coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.sum {ι : Type*} (s : Finset ι) (f : ι → EReal) (h : ∀ i ∈ s, IsReal (f i)) :
    IsReal (∑ i ∈ s, f i) := by
  classical
  induction s using Finset.induction_on with
  | empty => exact ⟨0, by simp⟩
  | insert a s ha ih =>
    rw [Finset.sum_insert ha]
    exact (h a (Finset.mem_insert_self a s)).add (ih fun i hi => h i (Finset.mem_insert_of_mem hi))

/-- A quotient of a real by a nonzero real is real. -/
theorem IsReal.div {x : EReal} (hx : IsReal x) {y : ℝ} (hy : y ≠ 0) : IsReal (Ideal.div x (y : EReal)) := by
  rw [Ideal.div_coe hy]; exact hx.mul (IsReal.coe _)

/-- A float word whose exponent field is not all ones denotes a real number. -/
theorem isReal_ieee (e m : Nat) {w : Nat} (b : BitVec w) (h : (b.extractLsb' m e).toNat ≠ 2 ^ e - 1) :
    IsReal (Ideal.ieee e m b) := by
  unfold Ideal.ieee
  simp only [h, if_false]
  split_ifs <;> exact ⟨_, rfl⟩

theorem k16_real : IsReal k16 := isReal_ieee 8 23 (0x3E23D70A#32) (by decide)
theorem k08_real : IsReal k08 := isReal_ieee 8 23 (0x3DA3D70A#32) (by decide)
theorem km39_real : IsReal km39 := isReal_ieee 8 23 (0xC21EB852#32) (by decide)
theorem kz_real : IsReal kz := isReal_ieee 8 23 (0x00000000#32) (by decide)

/-- The clamped point count is at least one. -/
theorem one_le_maxsi (n : BitVec 32) : 1 ≤ (IntOp.maxsi n 1#32).toInt := by
  unfold IntOp.maxsi
  split
  · rename_i h
    have h1 : (1#32 : BitVec 32).toInt < n.toInt := by simpa [BitVec.slt] using h
    have h2 : (1#32 : BitVec 32).toInt = 1 := by decide
    omega
  · decide

/-- So, as a real, it is not zero. -/
theorem cnt_ne_zero (n : BitVec 32) : (((IntOp.maxsi n 1#32).toInt : ℝ)) ≠ 0 := by
  have h := one_le_maxsi n
  have h' : (1 : ℝ) ≤ ((IntOp.maxsi n 1#32).toInt : ℝ) := by exact_mod_cast h
  linarith

/-- A row's mean of reals is real. -/
theorem mean_real (a : Fin 100 → EReal) (n : BitVec 32) (ha : ∀ j, IsReal (a j)) : IsReal (mean a n) := by
  unfold mean cnt
  exact (IsReal.sum _ _ fun j _ => ha j).div (cnt_ne_zero n)

theorem bevX_real (c : Fin 4 → BitVec 32) : IsReal (bevX c) :=
  (((IsReal.coe _).mul k16_real).add k08_real).add kz_real

theorem bevY_real (c : Fin 4 → BitVec 32) : IsReal (bevY c) :=
  (((IsReal.coe _).mul k16_real).add k08_real).add km39_real

theorem mask_real (n : BitVec 32) (j : Fin 100) : IsReal (mask n j) := IsReal.coe _

/-- Each of the nine features of real coordinates is real. -/
theorem feat_real (x y z i : Fin 100 → EReal) (n : BitVec 32) (c : Fin 4 → BitVec 32)
    (hx : ∀ j, IsReal (x j)) (hy : ∀ j, IsReal (y j)) (hz : ∀ j, IsReal (z j)) (hi : ∀ j, IsReal (i j))
    (k : Fin 9) (j : Fin 100) : IsReal (feat x y z i n c k j) := by
  match k with
  | 0 => exact hx j
  | 1 => exact hy j
  | 2 => exact hz j
  | 3 => exact hi j
  | 4 => exact (hx j).sub (mean_real x n hx)
  | 5 => exact (hy j).sub (mean_real y n hy)
  | 6 => exact (hz j).sub (mean_real z n hz)
  | 7 => exact bevX_real c
  | 8 => exact bevY_real c

/-- The linear layer of a pillar of real points with a real weight is real. -/
theorem linRow_real (x y z i : Fin 100 → EReal) (n : BitVec 32) (c : Fin 4 → BitVec 32) (W : Fin 9 → Fin 64 → EReal)
    (hx : ∀ j, IsReal (x j)) (hy : ∀ j, IsReal (y j)) (hz : ∀ j, IsReal (z j)) (hi : ∀ j, IsReal (i j))
    (hW : ∀ k d, IsReal (W k d)) (j : Fin 100) (d : Fin 64) : IsReal (linRow x y z i n c W j d) := by
  unfold linRow
  exact IsReal.sum _ _ fun k _ => ((feat_real x y z i n c hx hy hz hi k j).mul (mask_real n j)).mul (hW k d)

/-- The linear layer over whole arrays is real when the four coordinate arrays and the weight are. -/
theorem linArr_real (a0 a1 a2 a3 : (⟨2, ![40000, 100]⟩ : Shape).Idx → EReal)
    (n : (⟨1, ![40000]⟩ : Shape).Idx → BitVec 32) (c : (⟨2, ![40000, 4]⟩ : Shape).Idx → BitVec 32)
    (w : (⟨2, ![9, 64]⟩ : Shape).Idx → EReal)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal))
    (hw : ∀ i, ∃ r : ℝ, w i = (r : EReal))
    (p : Fin 40000) (j : Fin 100) (d : Fin 64) :
    ∃ r : ℝ, Cert.PFN.linArr a0 a1 a2 a3 n c w p j d = (r : EReal) := by
  unfold linArr
  exact linRow_real _ _ _ _ _ _ _ (fun j => h0 (ix2 p j)) (fun j => h1 (ix2 p j)) (fun j => h2 (ix2 p j))
    (fun j => h3 (ix2 p j)) (fun k d => hw (ix2 k d)) j d

/-- With real inputs the result of the layer is the same whichever form of the variance it normalises with. -/
theorem outWith_var_eq (a0 a1 a2 a3 : (⟨2, ![40000, 100]⟩ : Shape).Idx → EReal)
    (n : (⟨1, ![40000]⟩ : Shape).Idx → BitVec 32) (c : (⟨2, ![40000, 4]⟩ : Shape).Idx → BitVec 32)
    (w : (⟨2, ![9, 64]⟩ : Shape).Idx → EReal) (g b : (⟨1, ![64]⟩ : Shape).Idx → EReal)
    (h0 : ∀ i, ∃ r : ℝ, a0 i = (r : EReal)) (h1 : ∀ i, ∃ r : ℝ, a1 i = (r : EReal))
    (h2 : ∀ i, ∃ r : ℝ, a2 i = (r : EReal)) (h3 : ∀ i, ∃ r : ℝ, a3 i = (r : EReal))
    (hw : ∀ i, ∃ r : ℝ, w i = (r : EReal))
    (p : Fin 40000) (d : Fin 64) :
    Cert.PFN.outWith Cert.PFN.varMoments a0 a1 a2 a3 n c w g b p d
      = Cert.PFN.outWith Cert.PFN.varCentred a0 a1 a2 a3 n c w g b p d := by
  have hv := var_eq_of_real (fun p j => linArr a0 a1 a2 a3 n c w p j d)
    (fun p j => linArr_real a0 a1 a2 a3 n c w h0 h1 h2 h3 hw p j d)
  unfold outWith
  rw [hv]

end Cert.PFN

end
-- ==== Proof.FinPre.lean ====
/-
  From the precondition to "every entry is a real number".

  The precondition is a conjunction of seven tests, one per float argument, each of the form: every element x of the
  array satisfies |x| < +infinity. In the extended reals |x| is max x (-x) and the word of +infinity denotes the top
  element, so the test at an element says x is neither top nor bottom: x is the coercion of a real. A test over a whole
  array is a reduction by "and" of the elementwise comparisons to a single bit; when that bit is one, every
  comparison is one.
-/
import proofs.«123623_j214748364885_2_alg».proof.Defs
import proofs.«123623_j214748364885_2_alg».proof.Proof.Gen.Pre_finite_inputs
import Idealize.ShloMosaic.Lib.ReduceAll
import Idealize.ShloMosaic.Lib.ValueIdx

noncomputable section

namespace Cert.PFN.Pre

open Idealize.ShloMosaic Idealize.SL.Sem

/-- The word of +infinity denotes the top element. -/
theorem ofBits_inf : Ideal.ofBits .f32 0x7F800000#32 = (⊤ : EReal) := by
  simp [Ideal.ofBits, Ideal.ieee]

/-- An extended real whose absolute value compares below +infinity is a real number. -/
theorem real_of_abs_lt_inf (x : EReal)
    (h : Ideal.cmp .olt (max x (-x)) (Ideal.ofBits .f32 0x7F800000#32) = 1#1) : ∃ r : ℝ, x = (r : EReal) := by
  rw [ofBits_inf] at h
  have hlt : max x (-x) < ⊤ := by
    by_contra hn
    simp [Ideal.cmp, hn] at h
  induction x using EReal.rec with
  | bot => simp at hlt
  | top => simp at hlt
  | coe r => exact ⟨r, rfl⟩

/-- The result shape of a reduction over all axes has exactly one index. -/
instance : Subsingleton Cert.Pre_finite_inputs.S_.Idx := ⟨fun a b => funext fun d => d.elim0⟩

/-- One test of the precondition, read back: if the reduction by "and" of the comparisons |x i| < +infinity is one,
    every x i is a real number. -/
theorem real_of_all {S : Shape} {axes : List (Fin S.rank)} (x : S.Idx → EReal)
    (bc : Cert.Pre_finite_inputs.S_.BroadcastsInDim S (![] : Fin 0 → Fin S.rank))
    (hr : S.ReducesTo axes Cert.Pre_finite_inputs.S_) (hu : 0 < Cert.Pre_finite_inputs.S_.numel)
    (init : Cert.Pre_finite_inputs.S_.Idx → BitVec 1) (j : Cert.Pre_finite_inputs.S_.Idx)
    (e : Host.reduce IntOp.andi
        (cmpf (F := Ideal) (φ := .f32) .olt (Host.absf (F := Ideal) (φ := .f32) x)
          (broadcastInDim S ![] bc (constant (F := Ideal) Cert.Pre_finite_inputs.S_ .f32 0x7F800000#32)))
        init hr hu j = 1#1) (i : S.Idx) : ∃ r : ℝ, x i = (r : EReal) :=
  real_of_abs_lt_inf (x i) (Host.reduce_andi_all _ init hr hu j e i)

/-- Under the precondition the four coordinate arrays and the weight hold real numbers only. -/
theorem real_of_pre [hP : Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i : (⟨2, ![40000, 100]⟩ : Shape).Idx, ∃ r : ℝ,
        m ((c.tc : Thread Cert.KernelIdeal.nD Cert.KernelIdeal.τ).loc Cert.KernelIdeal.main_arg0) i = (r : EReal))
    ∧ (∀ i : (⟨2, ![40000, 100]⟩ : Shape).Idx, ∃ r : ℝ,
        m ((c.tc : Thread Cert.KernelIdeal.nD Cert.KernelIdeal.τ).loc Cert.KernelIdeal.main_arg1) i = (r : EReal))
    ∧ (∀ i : (⟨2, ![40000, 100]⟩ : Shape).Idx, ∃ r : ℝ,
        m ((c.tc : Thread Cert.KernelIdeal.nD Cert.KernelIdeal.τ).loc Cert.KernelIdeal.main_arg2) i = (r : EReal))
    ∧ (∀ i : (⟨2, ![40000, 100]⟩ : Shape).Idx, ∃ r : ℝ,
        m ((c.tc : Thread Cert.KernelIdeal.nD Cert.KernelIdeal.τ).loc Cert.KernelIdeal.main_arg3) i = (r : EReal))
    ∧ (∀ i : (⟨2, ![9, 64]⟩ : Shape).Idx, ∃ r : ℝ,
        m ((c.tc : Thread Cert.KernelIdeal.nD Cert.KernelIdeal.τ).loc Cert.KernelIdeal.main_arg6) i = (r : EReal)) := by
  have h := congrFun (hpre c) ValueIdx.ix0
  dsimp only [Cert.Pre_finite_inputs.fn, Cert.Pre_finite_inputs.fn_part1, andi] at h
  obtain ⟨h6, _⟩ := IntOp.andi_eq_one.1 h
  obtain ⟨h5, _⟩ := IntOp.andi_eq_one.1 h6
  obtain ⟨h4, hw⟩ := IntOp.andi_eq_one.1 h5
  obtain ⟨h3', h3⟩ := IntOp.andi_eq_one.1 h4
  obtain ⟨h2', h2⟩ := IntOp.andi_eq_one.1 h3'
  obtain ⟨h0, h1⟩ := IntOp.andi_eq_one.1 h2'
  exact ⟨real_of_all _ _ _ _ _ _ h0, real_of_all _ _ _ _ _ _ h1, real_of_all _ _ _ _ _ _ h2,
    real_of_all _ _ _ _ _ _ h3, real_of_all _ _ _ _ _ _ hw⟩

end Cert.PFN.Pre

end
-- ==== Proof.RefRunOps.lean ====
/-
  The reference program as a straight line of host operations. The three outlined functions (the clamp of the point
  count at one, the variance with its inner selection, the clip at zero) are written out at their call sites over the
  buffers of each call, so the whole program is one list of operations, cut into six consecutive stretches: the row
  means and centred coordinates; the first bird's-eye-view centre; the second centre and the point numbering; the mask,
  the nine stacked features and their contraction with the weight; the two batch moments; and the normalisation, the
  clip and the maximum over the points. Running the program is running the list, and every buffer ends at the fold of
  the operations over what the launch dealt it.
-/
import proofs.«123623_j214748364885_2_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- The clamped point count as a column, the three row sums divided by it, and the coordinates less those means. -/
abbrev opsA : List (HloOp τ sig (Elt F)) :=
  [ nullary main_c (constantI S_ 32 1#32),
    TRef.unary (.of main_c : TRef sig ⟨S_, .i32⟩) main_call0.v0 id,
    TRef.unary main_call0.v0 main_call0.v1 (broadcastInDim S40000 ![] bcast_S_S40000),
    TRef.binary main_call0.v1 (.of main_arg4 : TRef sig ⟨S40000, .i32⟩) main_call0.v2 maxsi,
    unary main_v0 main_v1 (sitofp .f32 : (⟨S40000, .i32⟩ : BufTy).Contents (Elt F) → (⟨S40000, .f32⟩ : BufTy).Contents (Elt F)),
    unary main_v1 main_v2 (broadcastInDim S40000x1 ![0] bcast_S40000_S40000x1_0 : (⟨S40000, .f32⟩ : BufTy).Contents (Elt F) → (⟨S40000x1, .f32⟩ : BufTy).Contents (Elt F)),
    nullary main_cst (constant S_ .f32 0x00000000#32),
    binary main_arg0 main_cst main_v3 ((fun x v => Host.reduceAdd x v reducesTo_S40000x100_S40000_d1 h_S_) : (⟨S40000x100, .f32⟩ : BufTy).Contents (Elt F) → (⟨S_, .f32⟩ : BufTy).Contents (Elt F) → (⟨S40000, .f32⟩ : BufTy).Contents (Elt F)),
    unary main_v3 main_v4 (broadcastInDim S40000x1 ![0] bcast_S40000_S40000x1_0 : (⟨S40000, .f32⟩ : BufTy).Contents (Elt F) → (⟨S40000x1, .f32⟩ : BufTy).Contents (Elt F)),
    binary main_v4 main_v2 main_v5 (Host.divf : (⟨S40000x1, .f32⟩ : BufTy).Contents (Elt F) → (⟨S40000x1, .f32⟩ : BufTy).Contents (Elt F) → (⟨S40000x1, .f32⟩ : BufTy).Contents (Elt F)),
    nullary main_cst_0 (constant S_ .f32 0x00000000#32),
    binary main_arg1 main_cst_0 main_v6 ((fun x v => Host.reduceAdd x v reducesTo_S40000x100_S40000_d1 h_S_) : (⟨S40000x100, .f32⟩ : BufTy).Contents (Elt F) → (⟨S_, .f32⟩ : BufTy).Contents (Elt F) → (⟨S40000, .f32⟩ : BufTy).Contents (Elt F)),
    unary main_v6 main_v7 (broadcastInDim S40000x1 ![0] bcast_S40000_S40000x1_0 : (⟨S40000, .f32⟩ : BufTy).Contents (Elt F) → (⟨S40000x1, .f32⟩ : BufTy).Contents (Elt F)),
    binary main_v7 main_v2 main_v8 (Host.divf : (⟨S40000x1, .f32⟩ : BufTy).Contents (Elt F) → (⟨S40000x1, .f32⟩ : BufTy).Contents (Elt F) → (⟨S40000x1, .f32⟩ : BufTy).Contents (Elt F)),
    nullary main_cst_1 (constant S_ .f32 0x00000000#32),
    binary main_arg2 main_cst_1 main_v9 ((fun x v => Host.reduceAdd x v reducesTo_S40000x100_S40000_d1 h_S_) : (⟨S40000x100, .f32⟩ : BufTy).Contents (Elt F) → (⟨S_, .f32⟩ : BufTy).Contents (Elt F) → (⟨S40000, .f32⟩ : BufTy).Contents (Elt F)),
    unary main_v9 main_v10 (broadcastInDim S40000x1 ![0] bcast_S40000_S40000x1_0 : (⟨S40000, .f32⟩ : BufTy).Contents (Elt F) → (⟨S40000x1, .f32⟩ : BufTy).Contents (Elt F)),
    binary main_v10 main_v2 main_v11 (Host.divf : (⟨S40000x1, .f32⟩ : BufTy).Contents (Elt F) → (⟨S40000x1, .f32⟩ : BufTy).Contents (Elt F) → (⟨S40000x1, .f32⟩ : BufTy).Contents (Elt F)),
    unary main_v5 main_v12 (broadcastInDim S40000x100 ![0, 1] bcast_S40000x1_S40000x100_0_1 : (⟨S40000x1, .f32⟩ : BufTy).Contents (Elt F) → (⟨S40000x100, .f32⟩ : BufTy).Contents (Elt F)),
    binary main_arg0 main_v12 main_v13 (subf : (⟨S40000x100, .f32⟩ : BufTy).Contents (Elt F) → (⟨S40000x100, .f32⟩ : BufTy).Contents (Elt F) → (⟨S40000x100, .f32⟩ : BufTy).Contents (Elt F)),
    unary main_v8 main_v14 (broadcastInDim S40000x100 ![0, 1] bcast_S40000x1_S40000x100_0_1 : (⟨S40000x1, .f32⟩ : BufTy).Contents (Elt F) → (⟨S40000x100, .f32⟩ : BufTy).Contents (Elt F)),
    binary main_arg1 main_v14 main_v15 (subf : (⟨S40000x100, .f32⟩ : BufTy).Contents (Elt F) → (⟨S40000x100, .f32⟩ : BufTy).Contents (Elt F) → (⟨S40000x100, .f32⟩ : BufTy).Contents (Elt F)),
    unary main_v11 main_v16 (broadcastInDim S40000x100 ![0, 1] bcast_S40000x1_S40000x100_0_1 : (⟨S40000x1, .f32⟩ : BufTy).Contents (Elt F) → (⟨S40000x100, .f32⟩ : BufTy).Contents (Elt F)),
    binary main_arg2 main_v16 main_v17 (subf : (⟨S40000x100, .f32⟩ : BufTy).Contents (Elt F) → (⟨S40000x100, .f32⟩ : BufTy).Contents (Elt F) → (⟨S40000x100, .f32⟩ : BufTy).Contents (Elt F)) ]

theorem opsA_sub : (opsA : List (HloOp τ sig (Elt F))).Forall fun op => op.bufs ⊆ tcRefs τ sig :=
  ⟨nullary_bufs_sub .., unary_bufs_sub .., unary_bufs_sub .., binary_bufs_sub .., unary_bufs_sub .., unary_bufs_sub .., nullary_bufs_sub .., binary_bufs_sub .., unary_bufs_sub .., binary_bufs_sub .., nullary_bufs_sub .., binary_bufs_sub .., unary_bufs_sub .., binary_bufs_sub .., nullary_bufs_sub .., binary_bufs_sub .., unary_bufs_sub .., binary_bufs_sub .., unary_bufs_sub .., binary_bufs_sub .., unary_bufs_sub .., binary_bufs_sub .., unary_bufs_sub .., binary_bufs_sub ..⟩

/-- The first bird's-eye-view centre from grid coordinate 3, spread over the points. -/
abbrev opsB : List (HloOp τ sig (Elt F)) :=
  [ unary main_arg5 main_v18 ((extractStridedSlice S40000x1 ![0, 3] · slices_S40000x4_S40000x1_0_3) : (⟨S40000x4, .i32⟩ : BufTy).Contents (Elt F) → (⟨S40000x1, .i32⟩ : BufTy).Contents (Elt F)),
    reshape main_v18 main_v19 rfl shapeCasts_S40000x1_S40000,
    unary main_v19 main_v20 (sitofp .f32 : (⟨S40000, .i32⟩ : BufTy).Contents (Elt F) → (⟨S40000, .f32⟩ : BufTy).Contents (Elt F)),
    nullary main_cst_2 (constant S_ .f32 0x3E23D70A#32),
    unary main_cst_2 main_v21 (broadcastInDim S40000 ![] bcast_S_S40000 : (⟨S_, .f32⟩ : BufTy).Contents (Elt F) → (⟨S40000, .f32⟩ : BufTy).Contents (Elt F)),
    binary main_v20 main_v21 main_v22 (mulf : (⟨S40000, .f32⟩ : BufTy).Contents (Elt F) → (⟨S40000, .f32⟩ : BufTy).Contents (Elt F) → (⟨S40000, .f32⟩ : BufTy).Contents (Elt F)),
    nullary main_cst_3 (constant S_ .f32 0x3DA3D70A#32),
    unary main_cst_3 main_v23 (broadcastInDim S40000 ![] bcast_S_S40000 : (⟨S_, .f32⟩ : BufTy).Contents (Elt F) → (⟨S40000, .f32⟩ : BufTy).Contents (Elt F)),
    binary main_v22 main_v23 main_v24 (addf : (⟨S40000, .f32⟩ : BufTy).Contents (Elt F) → (⟨S40000, .f32⟩ : BufTy).Contents (Elt F) → (⟨S40000, .f32⟩ : BufTy).Contents (Elt F)),
    nullary main_cst_4 (constant S_ .f32 0x00000000#32),
    unary main_cst_4 main_v25 (broadcastInDim S40000 ![] bcast_S_S40000 : (⟨S_, .f32⟩ : BufTy).Contents (Elt F) → (⟨S40000, .f32⟩ : BufTy).Contents (Elt F)),
    binary main_v24 main_v25 main_v26 (addf : (⟨S40000, .f32⟩ : BufTy).Contents (Elt F) → (⟨S40000, .f32⟩ : BufTy).Contents (Elt F) → (⟨S40000, .f32⟩ : BufTy).Contents (Elt F)),
    unary main_v26 main_v27 (broadcastInDim S40000x1 ![0] bcast_S40000_S40000x1_0 : (⟨S40000, .f32⟩ : BufTy).Contents (Elt F) → (⟨S40000x1, .f32⟩ : BufTy).Contents (Elt F)),
    nullary main_cst_5 (constant S_ .f32 0x3F800000#32),
    unary main_cst_5 main_v28 (broadcastInDim S1x100 ![] bcast_S_S1x100 : (⟨S_, .f32⟩ : BufTy).Contents (Elt F) → (⟨S1x100, .f32⟩ : BufTy).Contents (Elt F)),
    unary main_v27 main_v29 (broadcastInDim S40000x100 ![0, 1] bcast_S40000x1_S40000x100_0_1 : (⟨S40000x1, .f32⟩ : BufTy).Contents (Elt F) → (⟨S40000x100, .f32⟩ : BufTy).Contents (Elt F)),
    unary main_v28 main_v30 (broadcastInDim S40000x100 ![0, 1] bcast_S1x100_S40000x100_0_1 : (⟨S1x100, .f32⟩ : BufTy).Contents (Elt F) → (⟨S40000x100, .f32⟩ : BufTy).Contents (Elt F)),
    binary main_v29 main_v30 main_v31 (mulf : (⟨S40000x100, .f32⟩ : BufTy).Contents (Elt F) → (⟨S40000x100, .f32⟩ : BufTy).Contents (Elt F) → (⟨S40000x100, .f32⟩ : BufTy).Contents (Elt F)) ]

theorem opsB_sub : (opsB : List (HloOp τ sig (Elt F))).Forall fun op => op.bufs ⊆ tcRefs τ sig :=
  ⟨unary_bufs_sub .., reshape_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., unary_bufs_sub .., unary_bufs_sub .., binary_bufs_sub ..⟩

/-- The second bird's-eye-view centre from grid coordinate 2, spread over the points, and the numbering of the points. -/
abbrev opsC : List (HloOp τ sig (Elt F)) :=
  [ unary main_arg5 main_v32 ((extractStridedSlice S40000x1 ![0, 2] · slices_S40000x4_S40000x1_0_2) : (⟨S40000x4, .i32⟩ : BufTy).Contents (Elt F) → (⟨S40000x1, .i32⟩ : BufTy).Contents (Elt F)),
    reshape main_v32 main_v33 rfl shapeCasts_S40000x1_S40000,
    unary main_v33 main_v34 (sitofp .f32 : (⟨S40000, .i32⟩ : BufTy).Contents (Elt F) → (⟨S40000, .f32⟩ : BufTy).Contents (Elt F)),
    nullary main_cst_6 (constant S_ .f32 0x3E23D70A#32),
    unary main_cst_6 main_v35 (broadcastInDim S40000 ![] bcast_S_S40000 : (⟨S_, .f32⟩ : BufTy).Contents (Elt F) → (⟨S40000, .f32⟩ : BufTy).Contents (Elt F)),
    binary main_v34 main_v35 main_v36 (mulf : (⟨S40000, .f32⟩ : BufTy).Contents (Elt F) → (⟨S40000, .f32⟩ : BufTy).Contents (Elt F) → (⟨S40000, .f32⟩ : BufTy).Contents (Elt F)),
    nullary main_cst_7 (constant S_ .f32 0x3DA3D70A#32),
    unary main_cst_7 main_v37 (broadcastInDim S40000 ![] bcast_S_S40000 : (⟨S_, .f32⟩ : BufTy).Contents (Elt F) → (⟨S40000, .f32⟩ : BufTy).Contents (Elt F)),
    binary main_v36 main_v37 main_v38 (addf : (⟨S40000, .f32⟩ : BufTy).Contents (Elt F) → (⟨S40000, .f32⟩ : BufTy).Contents (Elt F) → (⟨S40000, .f32⟩ : BufTy).Contents (Elt F)),
    nullary main_cst_8 (constant S_ .f32 0xC21EB852#32),
    unary main_cst_8 main_v39 (broadcastInDim S40000 ![] bcast_S_S40000 : (⟨S_, .f32⟩ : BufTy).Contents (Elt F) → (⟨S40000, .f32⟩ : BufTy).Contents (Elt F)),
    binary main_v38 main_v39 main_v40 (addf : (⟨S40000, .f32⟩ : BufTy).Contents (Elt F) → (⟨S40000, .f32⟩ : BufTy).Contents (Elt F) → (⟨S40000, .f32⟩ : BufTy).Contents (Elt F)),
    unary main_v40 main_v41 (broadcastInDim S40000x1 ![0] bcast_S40000_S40000x1_0 : (⟨S40000, .f32⟩ : BufTy).Contents (Elt F) → (⟨S40000x1, .f32⟩ : BufTy).Contents (Elt F)),
    nullary main_cst_9 (constant S_ .f32 0x3F800000#32),
    unary main_cst_9 main_v42 (broadcastInDim S1x100 ![] bcast_S_S1x100 : (⟨S_, .f32⟩ : BufTy).Contents (Elt F) → (⟨S1x100, .f32⟩ : BufTy).Contents (Elt F)),
    unary main_v41 main_v43 (broadcastInDim S40000x100 ![0, 1] bcast_S40000x1_S40000x100_0_1 : (⟨S40000x1, .f32⟩ : BufTy).Contents (Elt F) → (⟨S40000x100, .f32⟩ : BufTy).Contents (Elt F)),
    unary main_v42 main_v44 (broadcastInDim S40000x100 ![0, 1] bcast_S1x100_S40000x100_0_1 : (⟨S1x100, .f32⟩ : BufTy).Contents (Elt F) → (⟨S40000x100, .f32⟩ : BufTy).Contents (Elt F)),
    binary main_v43 main_v44 main_v45 (mulf : (⟨S40000x100, .f32⟩ : BufTy).Contents (Elt F) → (⟨S40000x100, .f32⟩ : BufTy).Contents (Elt F) → (⟨S40000x100, .f32⟩ : BufTy).Contents (Elt F)),
    nullary main_v46 (iotaInDim S100 32 0),
    unary main_v46 main_v47 (broadcastInDim S1x100 ![1] bcast_S100_S1x100_1 : (⟨S100, .i32⟩ : BufTy).Contents (Elt F) → (⟨S1x100, .i32⟩ : BufTy).Contents (Elt F)) ]

theorem opsC_sub : (opsC : List (HloOp τ sig (Elt F))).Forall fun op => op.bufs ⊆ tcRefs τ sig :=
  ⟨unary_bufs_sub .., reshape_bufs_sub .., unary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., unary_bufs_sub .., unary_bufs_sub .., binary_bufs_sub .., nullary_bufs_sub .., unary_bufs_sub ..⟩

/-- The validity mask, the nine features stacked along a last axis, their product with the mask, and the contraction with the weight. -/
abbrev opsD : List (HloOp τ sig (Elt F)) :=
  [ unary main_arg4 main_v48 (broadcastInDim S40000x1 ![0] bcast_S40000_S40000x1_0 : (⟨S40000, .i32⟩ : BufTy).Contents (Elt F) → (⟨S40000x1, .i32⟩ : BufTy).Contents (Elt F)),
    unary main_v47 main_v49 (broadcastInDim S40000x100 ![0, 1] bcast_S1x100_S40000x100_0_1 : (⟨S1x100, .i32⟩ : BufTy).Contents (Elt F) → (⟨S40000x100, .i32⟩ : BufTy).Contents (Elt F)),
    unary main_v48 main_v50 (broadcastInDim S40000x100 ![0, 1] bcast_S40000x1_S40000x100_0_1 : (⟨S40000x1, .i32⟩ : BufTy).Contents (Elt F) → (⟨S40000x100, .i32⟩ : BufTy).Contents (Elt F)),
    binary main_v49 main_v50 main_v51 (cmpi .slt : (⟨S40000x100, .i32⟩ : BufTy).Contents (Elt F) → (⟨S40000x100, .i32⟩ : BufTy).Contents (Elt F) → (⟨S40000x100, .i1⟩ : BufTy).Contents (Elt F)),
    unary main_v51 main_v52 (uitofp .f32 : (⟨S40000x100, .i1⟩ : BufTy).Contents (Elt F) → (⟨S40000x100, .f32⟩ : BufTy).Contents (Elt F)),
    unary main_arg0 main_v53 (broadcastInDim S40000x100x1 ![0, 1] bcast_S40000x100_S40000x100x1_0_1 : (⟨S40000x100, .f32⟩ : BufTy).Contents (Elt F) → (⟨S40000x100x1, .f32⟩ : BufTy).Contents (Elt F)),
    unary main_arg1 main_v54 (broadcastInDim S40000x100x1 ![0, 1] bcast_S40000x100_S40000x100x1_0_1 : (⟨S40000x100, .f32⟩ : BufTy).Contents (Elt F) → (⟨S40000x100x1, .f32⟩ : BufTy).Contents (Elt F)),
    unary main_arg2 main_v55 (broadcastInDim S40000x100x1 ![0, 1] bcast_S40000x100_S40000x100x1_0_1 : (⟨S40000x100, .f32⟩ : BufTy).Contents (Elt F) → (⟨S40000x100x1, .f32⟩ : BufTy).Contents (Elt F)),
    unary main_arg3 main_v56 (broadcastInDim S40000x100x1 ![0, 1] bcast_S40000x100_S40000x100x1_0_1 : (⟨S40000x100, .f32⟩ : BufTy).Contents (Elt F) → (⟨S40000x100x1, .f32⟩ : BufTy).Contents (Elt F)),
    unary main_v13 main_v57 (broadcastInDim S40000x100x1 ![0, 1] bcast_S40000x100_S40000x100x1_0_1 : (⟨S40000x100, .f32⟩ : BufTy).Contents (Elt F) → (⟨S40000x100x1, .f32⟩ : BufTy).Contents (Elt F)),
    unary main_v15 main_v58 (broadcastInDim S40000x100x1 ![0, 1] bcast_S40000x100_S40000x100x1_0_1 : (⟨S40000x100, .f32⟩ : BufTy).Contents (Elt F) → (⟨S40000x100x1, .f32⟩ : BufTy).Contents (Elt F)),
    unary main_v17 main_v59 (broadcastInDim S40000x100x1 ![0, 1] bcast_S40000x100_S40000x100x1_0_1 : (⟨S40000x100, .f32⟩ : BufTy).Contents (Elt F) → (⟨S40000x100x1, .f32⟩ : BufTy).Contents (Elt F)),
    unary main_v31 main_v60 (broadcastInDim S40000x100x1 ![0, 1] bcast_S40000x100_S40000x100x1_0_1 : (⟨S40000x100, .f32⟩ : BufTy).Contents (Elt F) → (⟨S40000x100x1, .f32⟩ : BufTy).Contents (Elt F)),
    unary main_v45 main_v61 (broadcastInDim S40000x100x1 ![0, 1] bcast_S40000x100_S40000x100x1_0_1 : (⟨S40000x100, .f32⟩ : BufTy).Contents (Elt F) → (⟨S40000x100x1, .f32⟩ : BufTy).Contents (Elt F)),
    nary ![main_v53, main_v54, main_v55, main_v56, main_v57, main_v58, main_v59, main_v60, main_v61] main_v62 (fun u => concatenate S40000x100x9 2 [⟨S40000x100x1, u 0⟩, ⟨S40000x100x1, u 1⟩, ⟨S40000x100x1, u 2⟩, ⟨S40000x100x1, u 3⟩, ⟨S40000x100x1, u 4⟩, ⟨S40000x100x1, u 5⟩, ⟨S40000x100x1, u 6⟩, ⟨S40000x100x1, u 7⟩, ⟨S40000x100x1, u 8⟩] concatenates_S40000x100x1_S40000x100x1_S40000x100x1_S40000x100x1_S40000x100x1_S40000x100x1_S40000x100x1_S40000x100x1_S40000x100x1_S40000x100x9_d2),
    unary main_v52 main_v63 (broadcastInDim S40000x100x1 ![0, 1] bcast_S40000x100_S40000x100x1_0_1 : (⟨S40000x100, .f32⟩ : BufTy).Contents (Elt F) → (⟨S40000x100x1, .f32⟩ : BufTy).Contents (Elt F)),
    unary main_v63 main_v64 (broadcastInDim S40000x100x9 ![0, 1, 2] bcast_S40000x100x1_S40000x100x9_0_1_2 : (⟨S40000x100x1, .f32⟩ : BufTy).Contents (Elt F) → (⟨S40000x100x9, .f32⟩ : BufTy).Contents (Elt F)),
    binary main_v62 main_v64 main_v65 (mulf : (⟨S40000x100x9, .f32⟩ : BufTy).Contents (Elt F) → (⟨S40000x100x9, .f32⟩ : BufTy).Contents (Elt F) → (⟨S40000x100x9, .f32⟩ : BufTy).Contents (Elt F)),
    binary main_v65 main_arg6 main_v66 ((fun l r => Host.dotGeneral dot_S40000x100x9_S9x64_S40000x100x64_2_0_01_1_n_n none l r) : (⟨S40000x100x9, .f32⟩ : BufTy).Contents (Elt F) → (⟨S9x64, .f32⟩ : BufTy).Contents (Elt F) → (⟨S40000x100x64, .f32⟩ : BufTy).Contents (Elt F)) ]

theorem opsD_sub : (opsD : List (HloOp τ sig (Elt F))).Forall fun op => op.bufs ⊆ tcRefs τ sig :=
  ⟨unary_bufs_sub .., unary_bufs_sub .., unary_bufs_sub .., binary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., unary_bufs_sub .., unary_bufs_sub .., binary_bufs_sub .., binary_bufs_sub ..⟩

/-- The batch mean of the linear layer, and its variance as the mean of squared deviations with the selection that guards the divisor. -/
abbrev opsE : List (HloOp τ sig (Elt F)) :=
  [ nullary main_cst_10 (constant S_ .f32 0x00000000#32),
    binary main_v66 main_cst_10 main_v67 ((fun x v => Host.reduceAdd x v reducesTo_S40000x100x64_S64_d0_1 h_S_) : (⟨S40000x100x64, .f32⟩ : BufTy).Contents (Elt F) → (⟨S_, .f32⟩ : BufTy).Contents (Elt F) → (⟨S64, .f32⟩ : BufTy).Contents (Elt F)),
    nullary main_cst_11 (constant S_ .f32 0x4A742400#32),
    unary main_cst_11 main_v68 (broadcastInDim S64 ![] bcast_S_S64 : (⟨S_, .f32⟩ : BufTy).Contents (Elt F) → (⟨S64, .f32⟩ : BufTy).Contents (Elt F)),
    binary main_v67 main_v68 main_v69 (Host.divf : (⟨S64, .f32⟩ : BufTy).Contents (Elt F) → (⟨S64, .f32⟩ : BufTy).Contents (Elt F) → (⟨S64, .f32⟩ : BufTy).Contents (Elt F)),
    nullary main_c_12 (constantI S_ 32 0#32),
    TRef.nullary main_call1.cst (constant S_ .f32 0x00000000#32),
    TRef.binary (.of main_v66 : TRef sig ⟨S40000x100x64, .f32⟩) main_call1.cst main_call1.v0 (fun x v => Host.reduceAdd x v reducesTo_S40000x100x64_S64_d0_1 h_S_),
    TRef.unary main_call1.v0 main_call1.v1 (broadcastInDim S1x1x64 ![2] bcast_S64_S1x1x64_2),
    TRef.nullary main_call1.cst_0 (constant S_ .f32 0x4A742400#32),
    TRef.unary main_call1.cst_0 main_call1.v2 (broadcastInDim S1x1x64 ![] bcast_S_S1x1x64),
    TRef.binary main_call1.v1 main_call1.v2 main_call1.v3 Host.divf,
    TRef.unary main_call1.v3 main_call1.v4 (broadcastInDim S40000x100x64 ![0, 1, 2] bcast_S1x1x64_S40000x100x64_0_1_2),
    TRef.binary (.of main_v66 : TRef sig ⟨S40000x100x64, .f32⟩) main_call1.v4 main_call1.v5 subf,
    TRef.binary main_call1.v5 main_call1.v5 main_call1.v6 mulf,
    TRef.unary (.of main_c_12 : TRef sig ⟨S_, .i32⟩) main_call1.v7 (sitofp .f32),
    TRef.nullary main_call1.cst_1 (constant S_ .f32 0x4A742400#32),
    TRef.binary main_call1.cst_1 main_call1.v7 main_call1.v8 subf,
    TRef.nullary main_call1.cst_2 (constant S_ .f32 0x00000000#32),
    TRef.binary main_call1.v6 main_call1.cst_2 main_call1.v9 (fun x v => Host.reduceAdd x v reducesTo_S40000x100x64_S64_d0_1 h_S_),
    TRef.unary main_call1.v8 main_call1.v10 (broadcastInDim S64 ![] bcast_S_S64),
    TRef.binary main_call1.v9 main_call1.v10 main_call1.v11 Host.divf,
    TRef.nullary main_call1.cst_3 (constant S_ .f32 0x00000000#32),
    TRef.binary main_call1.v8 main_call1.cst_3 main_call1.v12 (cmpf .ogt),
    TRef.nullary main_call1.cst_4 (constant S_ .f32 0x7FC00000#32),
    TRef.unary main_call1.cst_4 main_call1.call0.v0 id,
    TRef.unary main_call1.call0.v0 main_call1.call0.v1 (broadcastInDim S64 ![] bcast_S_S64),
    TRef.ternary main_call1.v12 main_call1.v11 main_call1.call0.v1 main_call1.call0.v2 (fun p a b => select (broadcastInDim S64 ![] bcast_S_S64 p) a b) ]

theorem opsE_sub : (opsE : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub ..⟩

/-- Normalisation by mean and variance, scale and shift, the clip at zero, and the maximum over each pillar's points. -/
abbrev opsF : List (HloOp τ sig (Elt F)) :=
  [ unary main_v69 main_v71 (broadcastInDim S1x1x64 ![2] bcast_S64_S1x1x64_2 : (⟨S64, .f32⟩ : BufTy).Contents (Elt F) → (⟨S1x1x64, .f32⟩ : BufTy).Contents (Elt F)),
    unary main_v71 main_v72 (broadcastInDim S40000x100x64 ![0, 1, 2] bcast_S1x1x64_S40000x100x64_0_1_2 : (⟨S1x1x64, .f32⟩ : BufTy).Contents (Elt F) → (⟨S40000x100x64, .f32⟩ : BufTy).Contents (Elt F)),
    binary main_v66 main_v72 main_v73 (subf : (⟨S40000x100x64, .f32⟩ : BufTy).Contents (Elt F) → (⟨S40000x100x64, .f32⟩ : BufTy).Contents (Elt F) → (⟨S40000x100x64, .f32⟩ : BufTy).Contents (Elt F)),
    nullary main_cst_13 (constant S_ .f32 0x3727C5AC#32),
    unary main_cst_13 main_v74 (broadcastInDim S64 ![] bcast_S_S64 : (⟨S_, .f32⟩ : BufTy).Contents (Elt F) → (⟨S64, .f32⟩ : BufTy).Contents (Elt F)),
    binary main_v70 main_v74 main_v75 (addf : (⟨S64, .f32⟩ : BufTy).Contents (Elt F) → (⟨S64, .f32⟩ : BufTy).Contents (Elt F) → (⟨S64, .f32⟩ : BufTy).Contents (Elt F)),
    unary main_v75 main_v76 (Host.rsqrt : (⟨S64, .f32⟩ : BufTy).Contents (Elt F) → (⟨S64, .f32⟩ : BufTy).Contents (Elt F)),
    unary main_v76 main_v77 (broadcastInDim S1x1x64 ![2] bcast_S64_S1x1x64_2 : (⟨S64, .f32⟩ : BufTy).Contents (Elt F) → (⟨S1x1x64, .f32⟩ : BufTy).Contents (Elt F)),
    unary main_v77 main_v78 (broadcastInDim S40000x100x64 ![0, 1, 2] bcast_S1x1x64_S40000x100x64_0_1_2 : (⟨S1x1x64, .f32⟩ : BufTy).Contents (Elt F) → (⟨S40000x100x64, .f32⟩ : BufTy).Contents (Elt F)),
    binary main_v73 main_v78 main_v79 (mulf : (⟨S40000x100x64, .f32⟩ : BufTy).Contents (Elt F) → (⟨S40000x100x64, .f32⟩ : BufTy).Contents (Elt F) → (⟨S40000x100x64, .f32⟩ : BufTy).Contents (Elt F)),
    unary main_arg7 main_v80 (broadcastInDim S1x1x64 ![2] bcast_S64_S1x1x64_2 : (⟨S64, .f32⟩ : BufTy).Contents (Elt F) → (⟨S1x1x64, .f32⟩ : BufTy).Contents (Elt F)),
    unary main_v80 main_v81 (broadcastInDim S40000x100x64 ![0, 1, 2] bcast_S1x1x64_S40000x100x64_0_1_2 : (⟨S1x1x64, .f32⟩ : BufTy).Contents (Elt F) → (⟨S40000x100x64, .f32⟩ : BufTy).Contents (Elt F)),
    binary main_v79 main_v81 main_v82 (mulf : (⟨S40000x100x64, .f32⟩ : BufTy).Contents (Elt F) → (⟨S40000x100x64, .f32⟩ : BufTy).Contents (Elt F) → (⟨S40000x100x64, .f32⟩ : BufTy).Contents (Elt F)),
    unary main_arg8 main_v83 (broadcastInDim S1x1x64 ![2] bcast_S64_S1x1x64_2 : (⟨S64, .f32⟩ : BufTy).Contents (Elt F) → (⟨S1x1x64, .f32⟩ : BufTy).Contents (Elt F)),
    unary main_v83 main_v84 (broadcastInDim S40000x100x64 ![0, 1, 2] bcast_S1x1x64_S40000x100x64_0_1_2 : (⟨S1x1x64, .f32⟩ : BufTy).Contents (Elt F) → (⟨S40000x100x64, .f32⟩ : BufTy).Contents (Elt F)),
    binary main_v82 main_v84 main_v85 (addf : (⟨S40000x100x64, .f32⟩ : BufTy).Contents (Elt F) → (⟨S40000x100x64, .f32⟩ : BufTy).Contents (Elt F) → (⟨S40000x100x64, .f32⟩ : BufTy).Contents (Elt F)),
    TRef.nullary main_call2.cst (constant S_ .f32 0x00000000#32),
    TRef.unary main_call2.cst main_call2.v0 (broadcastInDim S40000x100x64 ![] bcast_S_S40000x100x64),
    TRef.binary (.of main_v85 : TRef sig ⟨S40000x100x64, .f32⟩) main_call2.v0 main_call2.v1 maximumf,
    nullary main_cst_14 (constant S_ .f32 0xFF800000#32),
    binary main_v86 main_cst_14 main_v87 ((fun x v => Host.reduce FloatOps.maximumf x v reducesTo_S40000x100x64_S40000x64_d1 h_S_) : (⟨S40000x100x64, .f32⟩ : BufTy).Contents (Elt F) → (⟨S_, .f32⟩ : BufTy).Contents (Elt F) → (⟨S40000x64, .f32⟩ : BufTy).Contents (Elt F)) ]

theorem opsF_sub : (opsF : List (HloOp τ sig (Elt F))).Forall fun op => op.bufs ⊆ tcRefs τ sig :=
  ⟨unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., binary_bufs_sub ..⟩

/-- The whole program: the six stretches in order, the first three being the first printed window of @main. -/
abbrev ops : List (HloOp τ sig (Elt F)) := (opsA ++ opsB ++ opsC) ++ (opsD ++ opsE ++ opsF)

set_option maxRecDepth 4096 in
/-- The first printed window is its three stretches: the clamp's definition opened at its call, sequencing reassociated. -/
theorem part0_eq (c : Dev nD) : main_part0 (F := F) c = seq (opsA ++ opsB ++ opsC) := by
  simp only [main_part0, fn_clip.body, seq, List.cons_append, List.nil_append, bind_assoc, pure_bind]
  rfl

set_option maxRecDepth 4096 in
/-- The second printed window is its three stretches: the variance, its selection and the clip opened at their calls. -/
theorem part1_eq (c : Dev nD) : main_part1 (F := F) c = seq (opsD ++ opsE ++ opsF) := by
  simp only [main_part1, fn_var.body, fn_where.body, fn_relu.body, seq, List.cons_append, List.nil_append, bind_assoc, pure_bind]

/-- @main is the whole list run in order. -/
theorem main_eq (c : Dev nD) : main (F := F) c = seq ops := by
  rw [show (ops : List (HloOp τ sig (Elt F))) = (opsA ++ opsB ++ opsC) ++ (opsD ++ opsE ++ opsF) from rfl, seq_append,
    ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with ((h | h) | h) | ((h | h) | h)
    exacts [List.forall_iff_forall_mem.mp opsA_sub op h, List.forall_iff_forall_mem.mp opsB_sub op h,
      List.forall_iff_forall_mem.mp opsC_sub op h, List.forall_iff_forall_mem.mp opsD_sub op h,
      List.forall_iff_forall_mem.mp opsE_sub op h, List.forall_iff_forall_mem.mp opsF_sub op h]

/-- Every operation determines its results. -/
theorem ops_fresh : ∀ op ∈ (ops : List (HloOp τ sig (Elt F))), op.fresh = ∅ := by
  intro op h
  simp only [ops, List.mem_append] at h
  rcases h with ((h | h) | h) | ((h | h) | h) <;>
    ((repeat (cases h with | head => rfl | tail _ h => ?_)); exact nomatch h)

/-- The fold of two stretches is the fold of the second over the fold of the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold of the whole program, stretch by stretch. -/
theorem after_ops (V : Valuation τ sig (Elt F)) :
    after ops V = after opsF (after opsE (after opsD (after opsC (after opsB (after opsA V))))) := by
  rw [show (ops : List (HloOp τ sig (Elt F))) = (opsA ++ opsB ++ opsC) ++ (opsD ++ opsE ++ opsF) from rfl]
  simp only [after_app]

/-- On every device, from any memory with zero counters: every weakly fair execution of @main terminates with each
    buffer at the fold of the operations over its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefValue

end
-- ==== Proof.RefStages.lean ====
/-
  The reference's arithmetic as named pure functions of arrays, one per step of the layer: the clamped point count as
  a column of floats; a coordinate array less its row mean; a bird's-eye-view centre from one column of the grid
  coordinates; the validity mask; the nine features stacked along a last axis, masked and contracted with the weight;
  the batch mean and the variance of a channel over all points; the normalisation with scale and shift; the clip at
  zero followed by the maximum over a pillar's points. Their composition is the reference's result as a function of
  its nine arguments.
-/
import proofs.«123623_j214748364885_2_alg».proof.Proof.Gen.ReferenceIdeal
import Idealize.ShloMosaic.PureOps
import Idealize.ShloMosaic.PureOps.Ideal

noncomputable section

namespace Cert.ReferenceIdeal.RefValue

open Cert.ReferenceIdeal Cert.ReferenceIdeal.Gen Idealize.ShloMosaic

variable {F : FTy → Type} [FloatOps F]

/-- The point counts clamped below at one (the larger of a row of ones and the counts), as floats, as a column. -/
def cntCol (a4 : IVec S40000 32) : FVec F S40000x1 .f32 :=
  broadcastInDim S40000x1 ![0] bcast_S40000_S40000x1_0
    (sitofp .f32 (maxsi (broadcastInDim S40000 ![] bcast_S_S40000 (constantI S_ 32 1#32)) a4))

/-- A row's sum from the zero word, as a column. -/
def rowSumCol (a : FVec F S40000x100 .f32) : FVec F S40000x1 .f32 :=
  broadcastInDim S40000x1 ![0] bcast_S40000_S40000x1_0
    (Host.reduceAdd a (constant S_ .f32 0x00000000#32) reducesTo_S40000x100_S40000_d1 h_S_)

/-- A coordinate array less its row mean: the row sum over the count column `n`, spread back over the points. -/
def centred (a : FVec F S40000x100 .f32) (n : FVec F S40000x1 .f32) : FVec F S40000x100 .f32 :=
  subf a (broadcastInDim S40000x100 ![0, 1] bcast_S40000x1_S40000x100_0_1 (Host.divf (rowSumCol a) n))

/-- A bird's-eye-view centre: the grid coordinate in the column cut out at `off`, as a float, times the voxel size,
    plus half of it, plus the origin word `w`; spread over the points and multiplied by a row of ones. -/
def bev (off : Fin S40000x4.rank → Nat) (hoff : S40000x4.Slices off S40000x1) (w : BitVec 32) (a5 : IVec S40000x4 32) :
    FVec F S40000x100 .f32 :=
  mulf
    (broadcastInDim S40000x100 ![0, 1] bcast_S40000x1_S40000x100_0_1
      (broadcastInDim S40000x1 ![0] bcast_S40000_S40000x1_0
        (addf
          (addf
            (mulf (sitofp .f32 (shapeCast S40000 (extractStridedSlice S40000x1 off a5 hoff) shapeCasts_S40000x1_S40000))
              (broadcastInDim S40000 ![] bcast_S_S40000 (constant S_ .f32 0x3E23D70A#32)))
            (broadcastInDim S40000 ![] bcast_S_S40000 (constant S_ .f32 0x3DA3D70A#32)))
          (broadcastInDim S40000 ![] bcast_S_S40000 (constant S_ .f32 w)))))
    (broadcastInDim S40000x100 ![0, 1] bcast_S1x100_S40000x100_0_1
      (broadcastInDim S1x100 ![] bcast_S_S1x100 (constant S_ .f32 0x3F800000#32)))

/-- The numbering 0 … 99 of a pillar's points, as a row. -/
def iotaRow : IVec S1x100 32 := broadcastInDim S1x100 ![1] bcast_S100_S1x100_1 (iotaInDim S100 32 0)

/-- The validity mask: 1.0 where the point's number is below the pillar's count (signed), else 0.0. -/
def maskArr (io : IVec S1x100 32) (a4 : IVec S40000 32) : FVec F S40000x100 .f32 :=
  uitofp .f32 (cmpi .slt (broadcastInDim S40000x100 ![0, 1] bcast_S1x100_S40000x100_0_1 io)
    (broadcastInDim S40000x100 ![0, 1] bcast_S40000x1_S40000x100_0_1
      (broadcastInDim S40000x1 ![0] bcast_S40000_S40000x1_0 a4)))

/-- An array of points with a last axis of extent one added. -/
def col (x : FVec F S40000x100 .f32) : FVec F S40000x100x1 .f32 :=
  broadcastInDim S40000x100x1 ![0, 1] bcast_S40000x100_S40000x100x1_0_1 x

/-- Nine arrays with a last axis of extent one, stacked along it. -/
def stackedCols (c0 c1 c2 c3 c4 c5 c6 c7 c8 : FVec F S40000x100x1 .f32) : FVec F S40000x100x9 .f32 :=
  concatenate S40000x100x9 2 [⟨S40000x100x1, c0⟩, ⟨S40000x100x1, c1⟩, ⟨S40000x100x1, c2⟩, ⟨S40000x100x1, c3⟩,
    ⟨S40000x100x1, c4⟩, ⟨S40000x100x1, c5⟩, ⟨S40000x100x1, c6⟩, ⟨S40000x100x1, c7⟩, ⟨S40000x100x1, c8⟩]
    concatenates_S40000x100x1_S40000x100x1_S40000x100x1_S40000x100x1_S40000x100x1_S40000x100x1_S40000x100x1_S40000x100x1_S40000x100x1_S40000x100x9_d2

/-- The stacked arrays times the mask (spread along the last axis), contracted with the weight over the axis of nine. -/
def linearCols (c0 c1 c2 c3 c4 c5 c6 c7 c8 : FVec F S40000x100x1 .f32) (msk : FVec F S40000x100 .f32)
    (w : FVec F S9x64 .f32) : FVec F S40000x100x64 .f32 :=
  Host.dotGeneral dot_S40000x100x9_S9x64_S40000x100x64_2_0_01_1_n_n none
    (mulf (stackedCols c0 c1 c2 c3 c4 c5 c6 c7 c8)
      (broadcastInDim S40000x100x9 ![0, 1, 2] bcast_S40000x100x1_S40000x100x9_0_1_2 (col msk))) w

/-- The linear layer: the nine features stacked along a new last axis, masked, contracted with the weight. -/
def linear (f0 f1 f2 f3 f4 f5 f6 f7 f8 msk : FVec F S40000x100 .f32) (w : FVec F S9x64 .f32) : FVec F S40000x100x64 .f32 :=
  linearCols (col f0) (col f1) (col f2) (col f3) (col f4) (col f5) (col f6) (col f7) (col f8) msk w

/-- A channel's sum over all pillars and points, from the zero word. -/
def chanSum (l : FVec F S40000x100x64 .f32) : FVec F S64 .f32 :=
  Host.reduceAdd l (constant S_ .f32 0x00000000#32) reducesTo_S40000x100x64_S64_d0_1 h_S_

/-- The batch mean of each channel: its sum over the word of 4.0e6. -/
def batchMean (l : FVec F S40000x100x64 .f32) : FVec F S64 .f32 :=
  Host.divf (chanSum l) (broadcastInDim S64 ![] bcast_S_S64 (constant S_ .f32 0x4A742400#32))

/-- A per-channel vector spread over every pillar and point. -/
def spread (v : FVec F S64 .f32) : FVec F S40000x100x64 .f32 :=
  broadcastInDim S40000x100x64 ![0, 1, 2] bcast_S1x1x64_S40000x100x64_0_1_2
    (broadcastInDim S1x1x64 ![2] bcast_S64_S1x1x64_2 v)

/-- The deviations from the channel mean (the mean taken on the shape [1, 1, 64]). -/
def devs (l : FVec F S40000x100x64 .f32) : FVec F S40000x100x64 .f32 :=
  subf l (broadcastInDim S40000x100x64 ![0, 1, 2] bcast_S1x1x64_S40000x100x64_0_1_2
    (Host.divf (broadcastInDim S1x1x64 ![2] bcast_S64_S1x1x64_2 (chanSum l))
      (broadcastInDim S1x1x64 ![] bcast_S_S1x1x64 (constant S_ .f32 0x4A742400#32))))

/-- The variance's divisor: the word of 4.0e6 less zero degrees of freedom. -/
def varDen : FVec F S_ .f32 := subf (constant S_ .f32 0x4A742400#32) (sitofp .f32 (constantI S_ 32 0#32))

/-- The variance of each channel: the sum of squared deviations over the divisor where the divisor is positive, else
    the word of a quiet NaN. -/
def batchVar (l : FVec F S40000x100x64 .f32) : FVec F S64 .f32 :=
  select (broadcastInDim S64 ![] bcast_S_S64 (cmpf .ogt (varDen (F := F)) (constant S_ .f32 0x00000000#32)))
    (Host.divf (chanSum (mulf (devs l) (devs l))) (broadcastInDim S64 ![] bcast_S_S64 varDen))
    (broadcastInDim S64 ![] bcast_S_S64 (constant S_ .f32 0x7FC00000#32))

/-- Normalise with a mean and a variance per channel (epsilon the word of 1e-5), scale by `g`, shift by `b`. -/
def normed (l : FVec F S40000x100x64 .f32) (mu var g b : FVec F S64 .f32) : FVec F S40000x100x64 .f32 :=
  addf (mulf (mulf (subf l (spread mu))
      (spread (Host.rsqrt (addf var (broadcastInDim S64 ![] bcast_S_S64 (constant S_ .f32 0x3727C5AC#32))))))
    (spread g)) (spread b)

/-- Clip at the zero word, then the maximum over each pillar's points from the word of minus infinity. -/
def pooled (x : FVec F S40000x100x64 .f32) : FVec F S40000x64 .f32 :=
  Host.reduce FloatOps.maximumf
    (maximumf x (broadcastInDim S40000x100x64 ![] bcast_S_S40000x100x64 (constant S_ .f32 0x00000000#32)))
    (constant S_ .f32 0xFF800000#32) reducesTo_S40000x100x64_S40000x64_d1 h_S_

/-- The linear layer of the nine arguments' first seven. -/
def lin (a0 a1 a2 a3 : FVec F S40000x100 .f32) (a4 : IVec S40000 32) (a5 : IVec S40000x4 32) (a6 : FVec F S9x64 .f32) :
    FVec F S40000x100x64 .f32 :=
  linear a0 a1 a2 a3 (centred a0 (cntCol a4)) (centred a1 (cntCol a4)) (centred a2 (cntCol a4))
    (bev ![0, 3] slices_S40000x4_S40000x1_0_3 0x00000000#32 a5) (bev ![0, 2] slices_S40000x4_S40000x1_0_2 0xC21EB852#32 a5)
    (maskArr iotaRow a4) a6

/-- The layer's result from a linear layer `l`: normalised by its own batch moments, clipped, pooled. -/
def outOf (l : FVec F S40000x100x64 .f32) (a7 a8 : FVec F S64 .f32) : FVec F S40000x64 .f32 :=
  pooled (normed l (batchMean l) (batchVar l) a7 a8)

/-- The reference's result as a function of its nine argument arrays, over the extended reals. -/
def refOut (a0 a1 a2 a3 : FVec Ideal S40000x100 .f32) (a4 : IVec S40000 32) (a5 : IVec S40000x4 32)
    (a6 : FVec Ideal S9x64 .f32) (a7 a8 : FVec Ideal S64 .f32) : FVec Ideal S40000x64 .f32 :=
  outOf (lin a0 a1 a2 a3 a4 a5 a6) a7 a8

end Cert.ReferenceIdeal.RefValue

end
-- ==== Proof.RefRunFold.lean ====
/-
  What each stretch of the reference leaves in its buffers, as the named step functions of what the stretch found:
  the fold of a stretch's operations, read at the buffers later stretches use, is the step's function of the buffers the
  stretch reads; and a buffer a stretch does not write keeps its contents through it.
-/
import proofs.«123623_j214748364885_2_alg».proof.Proof.RefRunOps
import proofs.«123623_j214748364885_2_alg».proof.Proof.RefStages

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- One operation's written buffer is in the list. -/
local macro "one_write" : term =>
  `(by simp only [nullary_writes, unary_writes, binary_writes, ternary_writes, reshape_writes, nary_writes,
        Finset.singleton_subset_iff, List.mem_toFinset]; exact List.mem_map_of_mem (by decide))

/-- The buffers stretch A writes. -/
abbrev wrA : List (Ref sig .tc) := [main_c, main_call0.v0.ref, main_call0.v1.ref, main_call0.v2.ref, main_v1, main_v2, main_cst, main_v3, main_v4, main_v5, main_cst_0, main_v6, main_v7, main_v8, main_cst_1, main_v9, main_v10, main_v11, main_v12, main_v13, main_v14, main_v15, main_v16, main_v17]

theorem wrA_covers : (opsA : List (HloOp τ sig (Elt F))).Forall fun op =>
    op.writes ⊆ (wrA.map (Proc.devRef (τ := τ) .tc)).toFinset := by
  simp only [List.Forall]
  exact ⟨one_write, one_write, one_write, one_write, one_write, one_write, one_write, one_write, one_write, one_write, one_write, one_write, one_write, one_write, one_write, one_write, one_write, one_write, one_write, one_write, one_write, one_write, one_write, one_write⟩

/-- A buffer stretch A does not write keeps its contents through it. -/
theorem keepA (W : Valuation τ sig (Elt F)) (r : Ref sig .tc) (h : r ∉ wrA) :
    after opsA W (Proc.devRef .tc r) = W (Proc.devRef .tc r) :=
  after_of_writes_sub opsA W wrA_covers h

/-- The buffers stretch B writes. -/
abbrev wrB : List (Ref sig .tc) := [main_v18, main_v19, main_v20, main_cst_2, main_v21, main_v22, main_cst_3, main_v23, main_v24, main_cst_4, main_v25, main_v26, main_v27, main_cst_5, main_v28, main_v29, main_v30, main_v31]

theorem wrB_covers : (opsB : List (HloOp τ sig (Elt F))).Forall fun op =>
    op.writes ⊆ (wrB.map (Proc.devRef (τ := τ) .tc)).toFinset := by
  simp only [List.Forall]
  exact ⟨one_write, one_write, one_write, one_write, one_write, one_write, one_write, one_write, one_write, one_write, one_write, one_write, one_write, one_write, one_write, one_write, one_write, one_write⟩

/-- A buffer stretch B does not write keeps its contents through it. -/
theorem keepB (W : Valuation τ sig (Elt F)) (r : Ref sig .tc) (h : r ∉ wrB) :
    after opsB W (Proc.devRef .tc r) = W (Proc.devRef .tc r) :=
  after_of_writes_sub opsB W wrB_covers h

/-- The buffers stretch C writes. -/
abbrev wrC : List (Ref sig .tc) := [main_v32, main_v33, main_v34, main_cst_6, main_v35, main_v36, main_cst_7, main_v37, main_v38, main_cst_8, main_v39, main_v40, main_v41, main_cst_9, main_v42, main_v43, main_v44, main_v45, main_v46, main_v47]

theorem wrC_covers : (opsC : List (HloOp τ sig (Elt F))).Forall fun op =>
    op.writes ⊆ (wrC.map (Proc.devRef (τ := τ) .tc)).toFinset := by
  simp only [List.Forall]
  exact ⟨one_write, one_write, one_write, one_write, one_write, one_write, one_write, one_write, one_write, one_write, one_write, one_write, one_write, one_write, one_write, one_write, one_write, one_write, one_write, one_write⟩

/-- A buffer stretch C does not write keeps its contents through it. -/
theorem keepC (W : Valuation τ sig (Elt F)) (r : Ref sig .tc) (h : r ∉ wrC) :
    after opsC W (Proc.devRef .tc r) = W (Proc.devRef .tc r) :=
  after_of_writes_sub opsC W wrC_covers h

/-- The buffers stretch D writes. -/
abbrev wrD : List (Ref sig .tc) := [main_v48, main_v49, main_v50, main_v51, main_v52, main_v53, main_v54, main_v55, main_v56, main_v57, main_v58, main_v59, main_v60, main_v61, main_v62, main_v63, main_v64, main_v65, main_v66]

theorem wrD_covers : (opsD : List (HloOp τ sig (Elt F))).Forall fun op =>
    op.writes ⊆ (wrD.map (Proc.devRef (τ := τ) .tc)).toFinset := by
  simp only [List.Forall]
  exact ⟨one_write, one_write, one_write, one_write, one_write, one_write, one_write, one_write, one_write, one_write, one_write, one_write, one_write, one_write, one_write, one_write, one_write, one_write, one_write⟩

/-- A buffer stretch D does not write keeps its contents through it. -/
theorem keepD (W : Valuation τ sig (Elt F)) (r : Ref sig .tc) (h : r ∉ wrD) :
    after opsD W (Proc.devRef .tc r) = W (Proc.devRef .tc r) :=
  after_of_writes_sub opsD W wrD_covers h

/-- The buffers stretch E writes. -/
abbrev wrE : List (Ref sig .tc) := [main_cst_10, main_v67, main_cst_11, main_v68, main_v69, main_c_12, main_call1.cst.ref, main_call1.v0.ref, main_call1.v1.ref, main_call1.cst_0.ref, main_call1.v2.ref, main_call1.v3.ref, main_call1.v4.ref, main_call1.v5.ref, main_call1.v6.ref, main_call1.v7.ref, main_call1.cst_1.ref, main_call1.v8.ref, main_call1.cst_2.ref, main_call1.v9.ref, main_call1.v10.ref, main_call1.v11.ref, main_call1.cst_3.ref, main_call1.v12.ref, main_call1.cst_4.ref, main_call1.call0.v0.ref, main_call1.call0.v1.ref, main_call1.call0.v2.ref]

theorem wrE_covers : (opsE : List (HloOp τ sig (Elt F))).Forall fun op =>
    op.writes ⊆ (wrE.map (Proc.devRef (τ := τ) .tc)).toFinset := by
  simp only [List.Forall]
  exact ⟨one_write, one_write, one_write, one_write, one_write, one_write, one_write, one_write, one_write, one_write, one_write, one_write, one_write, one_write, one_write, one_write, one_write, one_write, one_write, one_write, one_write, one_write, one_write, one_write, one_write, one_write, one_write, one_write⟩

/-- A buffer stretch E does not write keeps its contents through it. -/
theorem keepE (W : Valuation τ sig (Elt F)) (r : Ref sig .tc) (h : r ∉ wrE) :
    after opsE W (Proc.devRef .tc r) = W (Proc.devRef .tc r) :=
  after_of_writes_sub opsE W wrE_covers h

/-- The buffers stretch F writes. -/
abbrev wrF : List (Ref sig .tc) := [main_v71, main_v72, main_v73, main_cst_13, main_v74, main_v75, main_v76, main_v77, main_v78, main_v79, main_v80, main_v81, main_v82, main_v83, main_v84, main_v85, main_call2.cst.ref, main_call2.v0.ref, main_call2.v1.ref, main_cst_14, main_v87]

theorem wrF_covers : (opsF : List (HloOp τ sig (Elt F))).Forall fun op =>
    op.writes ⊆ (wrF.map (Proc.devRef (τ := τ) .tc)).toFinset := by
  simp only [List.Forall]
  exact ⟨one_write, one_write, one_write, one_write, one_write, one_write, one_write, one_write, one_write, one_write, one_write, one_write, one_write, one_write, one_write, one_write, one_write, one_write, one_write, one_write, one_write⟩

/-- A buffer stretch F does not write keeps its contents through it. -/
theorem keepF (W : Valuation τ sig (Elt F)) (r : Ref sig .tc) (h : r ∉ wrF) :
    after opsF W (Proc.devRef .tc r) = W (Proc.devRef .tc r) :=
  after_of_writes_sub opsF W wrF_covers h

/-! ## What each stretch computes -/

/-- Stretch A leaves the three centred coordinate arrays. -/
theorem foldA_v13 (W : Valuation τ sig (Elt F)) :
    after opsA W (Proc.devRef .tc main_v13) = centred (W (Proc.devRef .tc main_arg0)) (cntCol (W (Proc.devRef .tc main_arg4))) := by
  simp only [opsA]
  after_results_simp
  rfl

theorem foldA_v15 (W : Valuation τ sig (Elt F)) :
    after opsA W (Proc.devRef .tc main_v15) = centred (W (Proc.devRef .tc main_arg1)) (cntCol (W (Proc.devRef .tc main_arg4))) := by
  simp only [opsA]
  after_results_simp
  rfl

theorem foldA_v17 (W : Valuation τ sig (Elt F)) :
    after opsA W (Proc.devRef .tc main_v17) = centred (W (Proc.devRef .tc main_arg2)) (cntCol (W (Proc.devRef .tc main_arg4))) := by
  simp only [opsA]
  after_results_simp
  rfl

/-- Stretch B leaves the first centre, from grid coordinate 3 and the zero word. -/
theorem foldB_v31 (W : Valuation τ sig (Elt F)) :
    after opsB W (Proc.devRef .tc main_v31) = bev ![0, 3] slices_S40000x4_S40000x1_0_3 0x00000000#32 (W (Proc.devRef .tc main_arg5)) := by
  simp only [opsB]
  after_results_simp
  rfl

/-- Stretch C leaves the second centre, from grid coordinate 2 and the origin word, and the points' numbering. -/
theorem foldC_v45 (W : Valuation τ sig (Elt F)) :
    after opsC W (Proc.devRef .tc main_v45) = bev ![0, 2] slices_S40000x4_S40000x1_0_2 0xC21EB852#32 (W (Proc.devRef .tc main_arg5)) := by
  simp only [opsC]
  after_results_simp
  rfl

theorem foldC_v47 (W : Valuation τ sig (Elt F)) :
    after opsC W (Proc.devRef .tc main_v47) = iotaRow := by
  simp only [opsC]
  after_results_simp
  rfl

/-- Stretch D in two halves: the mask and the nine arrays given a last axis; then the stacking, the masking and the contraction. -/
abbrev opsD1 : List (HloOp τ sig (Elt F)) :=
  [ unary main_arg4 main_v48 (broadcastInDim S40000x1 ![0] bcast_S40000_S40000x1_0 : (⟨S40000, .i32⟩ : BufTy).Contents (Elt F) → (⟨S40000x1, .i32⟩ : BufTy).Contents (Elt F)),
    unary main_v47 main_v49 (broadcastInDim S40000x100 ![0, 1] bcast_S1x100_S40000x100_0_1 : (⟨S1x100, .i32⟩ : BufTy).Contents (Elt F) → (⟨S40000x100, .i32⟩ : BufTy).Contents (Elt F)),
    unary main_v48 main_v50 (broadcastInDim S40000x100 ![0, 1] bcast_S40000x1_S40000x100_0_1 : (⟨S40000x1, .i32⟩ : BufTy).Contents (Elt F) → (⟨S40000x100, .i32⟩ : BufTy).Contents (Elt F)),
    binary main_v49 main_v50 main_v51 (cmpi .slt : (⟨S40000x100, .i32⟩ : BufTy).Contents (Elt F) → (⟨S40000x100, .i32⟩ : BufTy).Contents (Elt F) → (⟨S40000x100, .i1⟩ : BufTy).Contents (Elt F)),
    unary main_v51 main_v52 (uitofp .f32 : (⟨S40000x100, .i1⟩ : BufTy).Contents (Elt F) → (⟨S40000x100, .f32⟩ : BufTy).Contents (Elt F)),
    unary main_arg0 main_v53 (broadcastInDim S40000x100x1 ![0, 1] bcast_S40000x100_S40000x100x1_0_1 : (⟨S40000x100, .f32⟩ : BufTy).Contents (Elt F) → (⟨S40000x100x1, .f32⟩ : BufTy).Contents (Elt F)),
    unary main_arg1 main_v54 (broadcastInDim S40000x100x1 ![0, 1] bcast_S40000x100_S40000x100x1_0_1 : (⟨S40000x100, .f32⟩ : BufTy).Contents (Elt F) → (⟨S40000x100x1, .f32⟩ : BufTy).Contents (Elt F)),
    unary main_arg2 main_v55 (broadcastInDim S40000x100x1 ![0, 1] bcast_S40000x100_S40000x100x1_0_1 : (⟨S40000x100, .f32⟩ : BufTy).Contents (Elt F) → (⟨S40000x100x1, .f32⟩ : BufTy).Contents (Elt F)),
    unary main_arg3 main_v56 (broadcastInDim S40000x100x1 ![0, 1] bcast_S40000x100_S40000x100x1_0_1 : (⟨S40000x100, .f32⟩ : BufTy).Contents (Elt F) → (⟨S40000x100x1, .f32⟩ : BufTy).Contents (Elt F)),
    unary main_v13 main_v57 (broadcastInDim S40000x100x1 ![0, 1] bcast_S40000x100_S40000x100x1_0_1 : (⟨S40000x100, .f32⟩ : BufTy).Contents (Elt F) → (⟨S40000x100x1, .f32⟩ : BufTy).Contents (Elt F)),
    unary main_v15 main_v58 (broadcastInDim S40000x100x1 ![0, 1] bcast_S40000x100_S40000x100x1_0_1 : (⟨S40000x100, .f32⟩ : BufTy).Contents (Elt F) → (⟨S40000x100x1, .f32⟩ : BufTy).Contents (Elt F)),
    unary main_v17 main_v59 (broadcastInDim S40000x100x1 ![0, 1] bcast_S40000x100_S40000x100x1_0_1 : (⟨S40000x100, .f32⟩ : BufTy).Contents (Elt F) → (⟨S40000x100x1, .f32⟩ : BufTy).Contents (Elt F)),
    unary main_v31 main_v60 (broadcastInDim S40000x100x1 ![0, 1] bcast_S40000x100_S40000x100x1_0_1 : (⟨S40000x100, .f32⟩ : BufTy).Contents (Elt F) → (⟨S40000x100x1, .f32⟩ : BufTy).Contents (Elt F)),
    unary main_v45 main_v61 (broadcastInDim S40000x100x1 ![0, 1] bcast_S40000x100_S40000x100x1_0_1 : (⟨S40000x100, .f32⟩ : BufTy).Contents (Elt F) → (⟨S40000x100x1, .f32⟩ : BufTy).Contents (Elt F)) ]

abbrev opsD2 : List (HloOp τ sig (Elt F)) :=
  [ nary ![main_v53, main_v54, main_v55, main_v56, main_v57, main_v58, main_v59, main_v60, main_v61] main_v62 (fun u => concatenate S40000x100x9 2 [⟨S40000x100x1, u 0⟩, ⟨S40000x100x1, u 1⟩, ⟨S40000x100x1, u 2⟩, ⟨S40000x100x1, u 3⟩, ⟨S40000x100x1, u 4⟩, ⟨S40000x100x1, u 5⟩, ⟨S40000x100x1, u 6⟩, ⟨S40000x100x1, u 7⟩, ⟨S40000x100x1, u 8⟩] concatenates_S40000x100x1_S40000x100x1_S40000x100x1_S40000x100x1_S40000x100x1_S40000x100x1_S40000x100x1_S40000x100x1_S40000x100x1_S40000x100x9_d2),
    unary main_v52 main_v63 (broadcastInDim S40000x100x1 ![0, 1] bcast_S40000x100_S40000x100x1_0_1 : (⟨S40000x100, .f32⟩ : BufTy).Contents (Elt F) → (⟨S40000x100x1, .f32⟩ : BufTy).Contents (Elt F)),
    unary main_v63 main_v64 (broadcastInDim S40000x100x9 ![0, 1, 2] bcast_S40000x100x1_S40000x100x9_0_1_2 : (⟨S40000x100x1, .f32⟩ : BufTy).Contents (Elt F) → (⟨S40000x100x9, .f32⟩ : BufTy).Contents (Elt F)),
    binary main_v62 main_v64 main_v65 (mulf : (⟨S40000x100x9, .f32⟩ : BufTy).Contents (Elt F) → (⟨S40000x100x9, .f32⟩ : BufTy).Contents (Elt F) → (⟨S40000x100x9, .f32⟩ : BufTy).Contents (Elt F)),
    binary main_v65 main_arg6 main_v66 ((fun l r => Host.dotGeneral dot_S40000x100x9_S9x64_S40000x100x64_2_0_01_1_n_n none l r) : (⟨S40000x100x9, .f32⟩ : BufTy).Contents (Elt F) → (⟨S9x64, .f32⟩ : BufTy).Contents (Elt F) → (⟨S40000x100x64, .f32⟩ : BufTy).Contents (Elt F)) ]

theorem opsD_split : (opsD : List (HloOp τ sig (Elt F))) = opsD1 ++ opsD2 := rfl

/-- The buffers the first half of stretch D writes. -/
abbrev wrD1 : List (Ref sig .tc) := [main_v48, main_v49, main_v50, main_v51, main_v52, main_v53, main_v54, main_v55, main_v56, main_v57, main_v58, main_v59, main_v60, main_v61]

theorem wrD1_covers : (opsD1 : List (HloOp τ sig (Elt F))).Forall fun op =>
    op.writes ⊆ (wrD1.map (Proc.devRef (τ := τ) .tc)).toFinset := by
  simp only [List.Forall]
  exact ⟨one_write, one_write, one_write, one_write, one_write, one_write, one_write, one_write, one_write, one_write, one_write, one_write, one_write, one_write⟩

theorem keepD1 (W : Valuation τ sig (Elt F)) (r : Ref sig .tc) (h : r ∉ wrD1) :
    after opsD1 W (Proc.devRef .tc r) = W (Proc.devRef .tc r) :=
  after_of_writes_sub opsD1 W wrD1_covers h

theorem foldD1_v52 (W : Valuation τ sig (Elt F)) :
    after opsD1 W (Proc.devRef .tc main_v52) = maskArr (W (Proc.devRef .tc main_v47)) (W (Proc.devRef .tc main_arg4)) := by
  simp only [opsD1]
  after_results_simp
  rfl

theorem foldD1_v53 (W : Valuation τ sig (Elt F)) :
    after opsD1 W (Proc.devRef .tc main_v53) = col (W (Proc.devRef .tc main_arg0)) := by
  simp only [opsD1]
  after_results_simp
  rfl

theorem foldD1_v54 (W : Valuation τ sig (Elt F)) :
    after opsD1 W (Proc.devRef .tc main_v54) = col (W (Proc.devRef .tc main_arg1)) := by
  simp only [opsD1]
  after_results_simp
  rfl

theorem foldD1_v55 (W : Valuation τ sig (Elt F)) :
    after opsD1 W (Proc.devRef .tc main_v55) = col (W (Proc.devRef .tc main_arg2)) := by
  simp only [opsD1]
  after_results_simp
  rfl

theorem foldD1_v56 (W : Valuation τ sig (Elt F)) :
    after opsD1 W (Proc.devRef .tc main_v56) = col (W (Proc.devRef .tc main_arg3)) := by
  simp only [opsD1]
  after_results_simp
  rfl

theorem foldD1_v57 (W : Valuation τ sig (Elt F)) :
    after opsD1 W (Proc.devRef .tc main_v57) = col (W (Proc.devRef .tc main_v13)) := by
  simp only [opsD1]
  after_results_simp
  rfl

theorem foldD1_v58 (W : Valuation τ sig (Elt F)) :
    after opsD1 W (Proc.devRef .tc main_v58) = col (W (Proc.devRef .tc main_v15)) := by
  simp only [opsD1]
  after_results_simp
  rfl

theorem foldD1_v59 (W : Valuation τ sig (Elt F)) :
    after opsD1 W (Proc.devRef .tc main_v59) = col (W (Proc.devRef .tc main_v17)) := by
  simp only [opsD1]
  after_results_simp
  rfl

theorem foldD1_v60 (W : Valuation τ sig (Elt F)) :
    after opsD1 W (Proc.devRef .tc main_v60) = col (W (Proc.devRef .tc main_v31)) := by
  simp only [opsD1]
  after_results_simp
  rfl

theorem foldD1_v61 (W : Valuation τ sig (Elt F)) :
    after opsD1 W (Proc.devRef .tc main_v61) = col (W (Proc.devRef .tc main_v45)) := by
  simp only [opsD1]
  after_results_simp
  rfl

theorem foldD2_v66 (W : Valuation τ sig (Elt F)) :
    after opsD2 W (Proc.devRef .tc main_v66)
      = linearCols (W (Proc.devRef .tc main_v53)) (W (Proc.devRef .tc main_v54)) (W (Proc.devRef .tc main_v55)) (W (Proc.devRef .tc main_v56)) (W (Proc.devRef .tc main_v57))
          (W (Proc.devRef .tc main_v58)) (W (Proc.devRef .tc main_v59)) (W (Proc.devRef .tc main_v60)) (W (Proc.devRef .tc main_v61)) (W (Proc.devRef .tc main_v52))
          (W (Proc.devRef .tc main_arg6)) := by
  simp only [opsD2]
  after_results_simp
  rfl

/-- Stretch D leaves the linear layer of the four point arrays, the three centred ones, the two centres and the mask. -/
theorem foldD_v66 (W : Valuation τ sig (Elt F)) :
    after opsD W (Proc.devRef .tc main_v66)
      = linear (W (Proc.devRef .tc main_arg0)) (W (Proc.devRef .tc main_arg1)) (W (Proc.devRef .tc main_arg2)) (W (Proc.devRef .tc main_arg3))
          (W (Proc.devRef .tc main_v13)) (W (Proc.devRef .tc main_v15)) (W (Proc.devRef .tc main_v17)) (W (Proc.devRef .tc main_v31)) (W (Proc.devRef .tc main_v45))
          (maskArr (W (Proc.devRef .tc main_v47)) (W (Proc.devRef .tc main_arg4))) (W (Proc.devRef .tc main_arg6)) := by
  rw [opsD_split, after_app, foldD2_v66, foldD1_v52, foldD1_v53, foldD1_v54, foldD1_v55, foldD1_v56, foldD1_v57, foldD1_v58,
    foldD1_v59, foldD1_v60, foldD1_v61, keepD1 _ main_arg6 (by decide)]
  rfl

/-- Stretch E leaves the batch mean and the variance of the linear layer. -/
theorem foldE_v69 (W : Valuation τ sig (Elt F)) :
    after opsE W (Proc.devRef .tc main_v69) = batchMean (W (Proc.devRef .tc main_v66)) := by
  simp only [opsE]
  after_results_simp
  rfl

theorem foldE_v70 (W : Valuation τ sig (Elt F)) :
    after opsE W (Proc.devRef .tc main_v70) = batchVar (W (Proc.devRef .tc main_v66)) := by
  simp only [opsE]
  after_results_simp
  rfl

/-- Stretch F leaves the result: normalised, scaled, shifted, clipped and pooled. -/
theorem foldF_v87 (W : Valuation τ sig (Elt F)) :
    after opsF W (Proc.devRef .tc main_v87)
      = pooled (normed (W (Proc.devRef .tc main_v66)) (W (Proc.devRef .tc main_v69)) (W (Proc.devRef .tc main_v70)) (W (Proc.devRef .tc main_arg7)) (W (Proc.devRef .tc main_arg8))) := by
  simp only [opsF]
  after_results_simp
  rfl

end Cert.ReferenceIdeal.RefValue

end
-- ==== Proof.RefRun.lean ====
/-
  The reference's run: every weakly fair execution of @main terminates with the result buffer at the composed step
  functions of the nine argument arrays, and the arguments unchanged. The result is read off stretch by stretch: each
  stretch's fold at the buffers the next ones use is a step function of what it found, and what it does not write it
  keeps.
-/
import proofs.«123623_j214748364885_2_alg».proof.Proof.RefRunFold

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- A buffer no stretch writes keeps its launch contents through the whole program. -/
theorem keepAll (V : Valuation τ sig (Elt F)) (r : Ref sig .tc) (hA : r ∉ wrA) (hB : r ∉ wrB) (hC : r ∉ wrC)
    (hD : r ∉ wrD) (hE : r ∉ wrE) (hF : r ∉ wrF) : after ops V (Proc.devRef .tc r) = V (Proc.devRef .tc r) := by
  rw [after_ops, keepF _ r hF, keepE _ r hE, keepD _ r hD, keepC _ r hC, keepB _ r hB, keepA _ r hA]

/-- The linear layer as the first four stretches leave it. -/
theorem lin_eq (V : Valuation τ sig (Elt F)) :
    after opsD (after opsC (after opsB (after opsA V))) (Proc.devRef .tc main_v66)
      = lin (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) := by
  rw [foldD_v66, foldC_v45, foldC_v47,
    keepC _ main_arg0 (by decide), keepC _ main_arg1 (by decide), keepC _ main_arg2 (by decide),
    keepC _ main_arg3 (by decide), keepC _ main_arg4 (by decide), keepC _ main_arg6 (by decide),
    keepC _ main_v13 (by decide), keepC _ main_v15 (by decide), keepC _ main_v17 (by decide), keepC _ main_v31 (by decide),
    foldB_v31,
    keepB _ main_arg0 (by decide), keepB _ main_arg1 (by decide), keepB _ main_arg2 (by decide),
    keepB _ main_arg3 (by decide), keepB _ main_arg4 (by decide), keepB _ main_arg5 (by decide), keepB _ main_arg6 (by decide),
    keepB _ main_v13 (by decide), keepB _ main_v15 (by decide), keepB _ main_v17 (by decide),
    foldA_v13, foldA_v15, foldA_v17,
    keepA _ main_arg0 (by decide), keepA _ main_arg1 (by decide), keepA _ main_arg2 (by decide),
    keepA _ main_arg3 (by decide), keepA _ main_arg4 (by decide), keepA _ main_arg5 (by decide), keepA _ main_arg6 (by decide)]
  rfl

/-- The result buffer after the whole program is the composed step functions of the launch contents of the arguments. -/
theorem out_eq (V : Valuation τ sig (Elt F)) :
    after ops V (Proc.devRef .tc main_v87)
      = outOf (lin (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6))) (V (Proc.devRef .tc main_arg7)) (V (Proc.devRef .tc main_arg8)) := by
  rw [after_ops, foldF_v87, foldE_v69, foldE_v70, keepE _ main_v66 (by decide), keepE _ main_arg7 (by decide),
    keepE _ main_arg8 (by decide), lin_eq,
    keepD _ main_arg7 (by decide), keepD _ main_arg8 (by decide), keepC _ main_arg7 (by decide), keepC _ main_arg8 (by decide),
    keepB _ main_arg7 (by decide), keepB _ main_arg8 (by decide), keepA _ main_arg7 (by decide), keepA _ main_arg8 (by decide)]
  rfl

/-- On every device, from any memory with zero counters: every weakly fair execution of @main at the extended reals
    terminates with the result at `refOut` of the arguments' launch contents, and the arguments unchanged. -/
theorem run (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, ρ⟩ (fun r => ∀ c : Dev Cert.ReferenceIdeal.nD,
      r.2.mem ((c.tc : Thread nD τ).loc main_v87)
        = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v87).trans (out_eq (launchContents m c)),
      (h c main_arg0).trans (keepAll (launchContents m c) main_arg0 (by decide) (by decide) (by decide) (by decide) (by decide) (by decide)),
      (h c main_arg1).trans (keepAll (launchContents m c) main_arg1 (by decide) (by decide) (by decide) (by decide) (by decide) (by decide)),
      (h c main_arg2).trans (keepAll (launchContents m c) main_arg2 (by decide) (by decide) (by decide) (by decide) (by decide) (by decide)),
      (h c main_arg3).trans (keepAll (launchContents m c) main_arg3 (by decide) (by decide) (by decide) (by decide) (by decide) (by decide)),
      (h c main_arg4).trans (keepAll (launchContents m c) main_arg4 (by decide) (by decide) (by decide) (by decide) (by decide) (by decide)),
      (h c main_arg5).trans (keepAll (launchContents m c) main_arg5 (by decide) (by decide) (by decide) (by decide) (by decide) (by decide)),
      (h c main_arg6).trans (keepAll (launchContents m c) main_arg6 (by decide) (by decide) (by decide) (by decide) (by decide) (by decide)),
      (h c main_arg7).trans (keepAll (launchContents m c) main_arg7 (by decide) (by decide) (by decide) (by decide) (by decide) (by decide)),
      (h c main_arg8).trans (keepAll (launchContents m c) main_arg8 (by decide) (by decide) (by decide) (by decide) (by decide) (by decide))⟩)
    (run_after m ρ)

end Cert.ReferenceIdeal.RefValue

end
-- ==== Proof.RefLin.lean ====
/-
  The reference's linear layer read at an index.

  The reference forms, for every pillar and point: the point count clamped below at one as a float column; the three
  row sums of the coordinate planes divided by it, spread back over the row and subtracted; the two bird's-eye-view
  centres, affine in two of the grid coordinates, spread over the row and multiplied by a row of ones; the validity
  mask, one where the point number is below the count. The nine planes are given a last axis of length one and laid
  side by side along it, the mask is spread along that axis and multiplied in, and the last axis is contracted with
  the weight. Each step is read here at an index: a broadcast reads its operand at the coordinates it keeps, a row sum
  is the sum over the row's points, the side-by-side arrangement reads the plane its last coordinate names, and the
  contraction is the sum over the nine features. Composed, the layer at pillar p, point j, channel d is the sum over
  the nine features of the masked feature times the weight entry: the specification's linear layer.
-/
import proofs.«123623_j214748364885_2_alg».proof.Proof.RefStages
import proofs.«123623_j214748364885_2_alg».proof.Proof.Spec
import proofs.«123623_j214748364885_2_alg».proof.Proof.Consts
import Idealize.ShloMosaic.Lib.Pipeline.Value
import Idealize.ShloMosaic.Lib.ValueLayout
import Idealize.ShloMosaic.Lib.ValueIdx
import Idealize.ShloMosaic.Lib.IdealHost
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## Broadcasts, a cast and a cut at an index -/

section Layout
variable {α : Type}

/-- A vector as a column reads, at (i, u), the vector at i. -/
theorem bid_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply _ h x (ix2 i u) (ix1 i) fun ax => ?_
  match ax with
  | ⟨0, _⟩ =>
    show i.val = if a = 1 then 0 else i.val
    split
    · have := i.isLt; omega
    · rfl

/-- A column spread along rows of length b reads, at (i, j), the column at (i, 0). -/
theorem bid_a1_ab_apply {a b : ℕ} (x : (⟨2, ![a, 1]⟩ : Shape).Idx → α)
    (h : (⟨2, ![a, 1]⟩ : Shape).BroadcastsInDim ⟨2, ![a, b]⟩ (![0, 1] : Fin 2 → Fin 2)) (i : Fin a) (j : Fin b) :
    broadcastInDim ⟨2, ![a, b]⟩ ![0, 1] h x (ix2 i j) = x (ix2 i (0 : Fin 1)) := by
  refine broadcastInDim_apply _ h x (ix2 i j) (ix2 i (0 : Fin 1)) fun ax => ?_
  match ax with
  | ⟨0, _⟩ =>
    show i.val = if a = 1 then 0 else i.val
    split
    · have := i.isLt; omega
    · rfl
  | ⟨1, _⟩ => rfl

/-- A row spread down a columns reads, at (i, j), the row at (0, j). -/
theorem bid_1b_ab_apply {a b : ℕ} (x : (⟨2, ![1, b]⟩ : Shape).Idx → α)
    (h : (⟨2, ![1, b]⟩ : Shape).BroadcastsInDim ⟨2, ![a, b]⟩ (![0, 1] : Fin 2 → Fin 2)) (i : Fin a) (j : Fin b) :
    broadcastInDim ⟨2, ![a, b]⟩ ![0, 1] h x (ix2 i j) = x (ix2 (0 : Fin 1) j) := by
  refine broadcastInDim_apply _ h x (ix2 i j) (ix2 (0 : Fin 1) j) fun ax => ?_
  match ax with
  | ⟨0, _⟩ => rfl
  | ⟨1, _⟩ =>
    show j.val = if b = 1 then 0 else j.val
    split
    · have := j.isLt; omega
    · rfl

/-- A vector as a row reads, at (u, j), the vector at j. -/
theorem bid_b_1b_apply {b : ℕ} (x : (⟨1, ![b]⟩ : Shape).Idx → α)
    (h : (⟨1, ![b]⟩ : Shape).BroadcastsInDim ⟨2, ![1, b]⟩ (![1] : Fin 1 → Fin 2)) (u : Fin 1) (j : Fin b) :
    broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A plane given a last axis of length one reads, at (i, j, u), the plane at (i, j). -/
theorem bid_ab_ab1_apply {a b : ℕ} (x : (⟨2, ![a, b]⟩ : Shape).Idx → α)
    (h : (⟨2, ![a, b]⟩ : Shape).BroadcastsInDim ⟨3, ![a, b, 1]⟩ (![0, 1] : Fin 2 → Fin 3)) (i : Fin a) (j : Fin b)
    (u : Fin 1) : broadcastInDim ⟨3, ![a, b, 1]⟩ ![0, 1] h x (ix3 i j u) = x (ix2 i j) := by
  refine broadcastInDim_apply _ h x (ix3 i j u) (ix2 i j) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl

/-- An array with a last axis of length one spread along a last axis of length c reads, at (i, j, k), the array at
    (i, j, 0). -/
theorem bid_ab1_abc_apply {a b c : ℕ} (x : (⟨3, ![a, b, 1]⟩ : Shape).Idx → α)
    (h : (⟨3, ![a, b, 1]⟩ : Shape).BroadcastsInDim ⟨3, ![a, b, c]⟩ (![0, 1, 2] : Fin 3 → Fin 3)) (i : Fin a)
    (j : Fin b) (k : Fin c) :
    broadcastInDim ⟨3, ![a, b, c]⟩ ![0, 1, 2] h x (ix3 i j k) = x (ix3 i j (0 : Fin 1)) := by
  refine broadcastInDim_apply _ h x (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- A column cast to a vector reads, at i, the column at (i, 0). -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

end Layout

/-! ## The stages at an index -/

/-- The signed maximum with one, in either order. -/
theorem maxsi_one_comm (n : BitVec 32) : IntOp.maxsi 1#32 n = IntOp.maxsi n 1#32 := by
  unfold IntOp.maxsi
  have h1 : (1#32 : BitVec 32).toInt = 1 := by decide
  simp only [BitVec.slt, decide_eq_true_eq, h1]
  split_ifs with h h' h'
  · omega
  · rfl
  · rfl
  · exact (BitVec.eq_of_toInt_eq (by rw [h1]; omega)).symm

/-- The clamped count column at (p, u) is the clamped count of pillar p. -/
theorem cntCol_apply (a4 : IVec S40000 32) (p : Fin 40000) (u : Fin 1) :
    cntCol (F := Ideal) a4 (ix2 p u) = Cert.PFN.cnt (a4 (ix1 p)) := by
  unfold cntCol
  refine (bid_a_a1_apply _ _ p u).trans ?_
  show (((IntOp.maxsi 1#32 (a4 (ix1 p))).toInt : ℝ) : EReal) = Cert.PFN.cnt (a4 (ix1 p))
  rw [maxsi_one_comm]
  rfl

/-- The row-sum column at (p, u) is the sum over the points of pillar p. -/
theorem rowSumCol_apply (a : FVec Ideal S40000x100 .f32) (p : Fin 40000) (u : Fin 1) :
    rowSumCol (F := Ideal) a (ix2 p u) = ∑ k : Fin 100, a (ix2 p k) := by
  unfold rowSumCol
  refine (bid_a_a1_apply _ _ p u).trans ?_
  refine (hostReduceAdd_apply a _ reducesTo_S40000x100_S40000_d1 h_S_ (ix1 p)).trans ?_
  refine (Ideal.hostReduceAdd_single reducesTo_S40000x100_S40000_d1 (by decide : S40000x100.Reduces [1] S40000) a _
    (ix1 p)).trans ?_
  rw [constant_apply, Cert.PFN.ofBits_zero_word, zero_add]
  refine Finset.sum_congr rfl fun k _ => congrArg a (funext fun c => Fin.ext ?_)
  match c with
  | ⟨0, _⟩ => rfl
  | ⟨1, _⟩ => rfl

/-- A centred coordinate plane at (p, j): the coordinate less the row mean of pillar p. -/
theorem centred_apply (a : FVec Ideal S40000x100 .f32) (a4 : IVec S40000 32) (p : Fin 40000) (j : Fin 100) :
    centred (F := Ideal) a (cntCol a4) (ix2 p j)
      = a (ix2 p j) - Cert.PFN.mean (fun j => a (ix2 p j)) (a4 (ix1 p)) := by
  unfold centred
  rw [subf_apply]
  refine congrArg (fun t => a (ix2 p j) - t) ?_
  refine (bid_a1_ab_apply _ _ p j).trans ?_
  rw [hostDivf_apply, rowSumCol_apply, cntCol_apply]
  rfl

/-- A bird's-eye-view centre plane at (p, j): the grid coordinate in column q of pillar p as a float, times the voxel
    size, plus half of it, plus the origin word. -/
theorem bev_apply (o : Nat) (hoff : S40000x4.Slices ![0, o] S40000x1) (w : BitVec 32) (a5 : IVec S40000x4 32)
    (q : Fin 4) (hq : q.val = o) (p : Fin 40000) (j : Fin 100) :
    bev (F := Ideal) ![0, o] hoff w a5 (ix2 p j)
      = ((((a5 (ix2 p q)).toInt : ℝ) : EReal) * Cert.PFN.k16 + Cert.PFN.k08) + Ideal.ofBits .f32 w := by
  unfold bev
  rw [mulf_apply]
  have hone : broadcastInDim S40000x100 ![0, 1] bcast_S1x100_S40000x100_0_1
      (broadcastInDim S1x100 ![] bcast_S_S1x100 (constant (F := Ideal) S_ .f32 0x3F800000#32)) (ix2 p j) = 1 := by
    refine (bid_1b_ab_apply _ _ p j).trans ?_
    rw [broadcastInDim_scalar_apply, constant_apply, Cert.PFN.ofBits_one_word]
  rw [hone, mul_one]
  refine (bid_a1_ab_apply _ _ p j).trans ?_
  refine (bid_a_a1_apply _ _ p 0).trans ?_
  rw [addf_apply, addf_apply, mulf_apply, broadcastInDim_scalar_apply, broadcastInDim_scalar_apply,
    broadcastInDim_scalar_apply, constant_apply, constant_apply, constant_apply]
  have hs : shapeCast S40000 (extractStridedSlice S40000x1 ![0, o] a5 hoff) shapeCasts_S40000x1_S40000 (ix1 p)
      = a5 (ix2 p q) := by
    refine (shapeCast_a1_a_apply _ _ p).trans ?_
    exact slice2_axis1_apply o a5 hoff p 0 q (by rw [hq]; rfl)
  show ((((shapeCast S40000 (extractStridedSlice S40000x1 ![0, o] a5 hoff) shapeCasts_S40000x1_S40000 (ix1 p)).toInt : ℝ)
    : EReal) * _ + _) + _ = _
  rw [hs]
  rfl

/-- The mask plane at (p, j): one where j is below the count of pillar p. -/
theorem maskArr_apply (a4 : IVec S40000 32) (p : Fin 40000) (j : Fin 100) :
    maskArr (F := Ideal) iotaRow a4 (ix2 p j) = Cert.PFN.mask (a4 (ix1 p)) j := by
  unfold maskArr iotaRow
  have h1 : broadcastInDim S40000x100 ![0, 1] bcast_S1x100_S40000x100_0_1
      (broadcastInDim S1x100 ![1] bcast_S100_S1x100_1 (iotaInDim S100 32 0)) (ix2 p j) = BitVec.ofNat 32 j.val := by
    refine (bid_1b_ab_apply _ _ p j).trans ?_
    refine (bid_b_1b_apply _ _ 0 j).trans ?_
    rfl
  have h2 : broadcastInDim S40000x100 ![0, 1] bcast_S40000x1_S40000x100_0_1
      (broadcastInDim S40000x1 ![0] bcast_S40000_S40000x1_0 a4) (ix2 p j) = a4 (ix1 p) := by
    refine (bid_a1_ab_apply _ _ p j).trans ?_
    exact bid_a_a1_apply _ _ p 0
  show (((IntOp.cmpi .slt
      (broadcastInDim S40000x100 ![0, 1] bcast_S1x100_S40000x100_0_1
        (broadcastInDim S1x100 ![1] bcast_S100_S1x100_1 (iotaInDim S100 32 0)) (ix2 p j))
      (broadcastInDim S40000x100 ![0, 1] bcast_S40000x1_S40000x100_0_1
        (broadcastInDim S40000x1 ![0] bcast_S40000_S40000x1_0 a4) (ix2 p j))).toNat : ℝ) : EReal) = _
  rw [h1, h2]
  rfl

/-- The nine feature planes at (p, j) are the nine features of point j of pillar p. -/
theorem feat_apply (a0 a1 a2 a3 : FVec Ideal S40000x100 .f32) (a4 : IVec S40000 32) (a5 : IVec S40000x4 32)
    (p : Fin 40000) (j : Fin 100) (k : Fin 9) :
    ((![a0, a1, a2, a3, centred (F := Ideal) a0 (cntCol a4), centred (F := Ideal) a1 (cntCol a4),
        centred (F := Ideal) a2 (cntCol a4),
        bev (F := Ideal) ![0, 3] slices_S40000x4_S40000x1_0_3 0x00000000#32 a5,
        bev (F := Ideal) ![0, 2] slices_S40000x4_S40000x1_0_2 0xC21EB852#32 a5] : Fin 9 → FVec Ideal S40000x100 .f32) k)
        (ix2 p j)
      = Cert.PFN.feat (fun j => a0 (ix2 p j)) (fun j => a1 (ix2 p j)) (fun j => a2 (ix2 p j)) (fun j => a3 (ix2 p j))
          (a4 (ix1 p)) (fun q => a5 (ix2 p q)) k j := by
  match k with
  | 0 => rfl
  | 1 => rfl
  | 2 => rfl
  | 3 => rfl
  | 4 => exact centred_apply a0 a4 p j
  | 5 => exact centred_apply a1 a4 p j
  | 6 => exact centred_apply a2 a4 p j
  | 7 => exact bev_apply 3 slices_S40000x4_S40000x1_0_3 0x00000000#32 a5 3 rfl p j
  | 8 => exact bev_apply 2 slices_S40000x4_S40000x1_0_2 0xC21EB852#32 a5 2 rfl p j

/-- The linear layer at (p, j, d), given the contraction read at an index: the specification's linear layer. -/
theorem lin_apply_of
    (hlin : ∀ (f0 f1 f2 f3 f4 f5 f6 f7 f8 msk : FVec Ideal S40000x100 .f32) (w : FVec Ideal S9x64 .f32)
      (p : Fin 40000) (j : Fin 100) (d : Fin 64),
      linear (F := Ideal) f0 f1 f2 f3 f4 f5 f6 f7 f8 msk w (ix3 p j d)
        = ∑ k : Fin 9, (((![f0, f1, f2, f3, f4, f5, f6, f7, f8] : Fin 9 → FVec Ideal S40000x100 .f32) k) (ix2 p j)
            * msk (ix2 p j)) * w (ix2 k d))
    (a0 a1 a2 a3 : FVec Ideal S40000x100 .f32) (a4 : IVec S40000 32) (a5 : IVec S40000x4 32)
    (a6 : FVec Ideal S9x64 .f32) (p : Fin 40000) (j : Fin 100) (d : Fin 64) :
    lin (F := Ideal) a0 a1 a2 a3 a4 a5 a6 (ix3 p j d) = Cert.PFN.linArr a0 a1 a2 a3 a4 a5 a6 p j d := by
  unfold lin
  rw [hlin]
  unfold Cert.PFN.linArr Cert.PFN.linRow
  refine Finset.sum_congr rfl fun k _ => ?_
  rw [maskArr_apply, feat_apply]

end Cert.ReferenceIdeal.RefValue

end
-- ==== Proof.RefLinear.lean ====
/-
  The linear layer read at an index. The nine feature arrays are each given a last axis of extent one and stacked
  along it, so the stack at (pillar, point, k) is feature k at (pillar, point); the mask, given the same last axis and
  spread along the nine, reads the mask at (pillar, point); and the host's contraction over the axis of nine with the
  9 x 64 weight is, at (pillar, point, channel), the sum over k of the masked feature times the weight at (k, channel).
-/
import proofs.«123623_j214748364885_2_alg».proof.Proof.RefStages
import Idealize.ShloMosaic.Lib.IdealHost
import Idealize.ShloMosaic.Lib.Pipeline.Value

noncomputable section

namespace Cert.ReferenceIdeal.RefValue

open Cert.ReferenceIdeal Cert.ReferenceIdeal.Gen Idealize.ShloMosaic Idealize.ShloMosaic.ValueIdx

/-- The contraction's dimension numbers: axis 2 of the stacked features against axis 0 of the weight. -/
abbrev linDot : DotDims S40000x100x9 S9x64 S40000x100x64 := dot_S40000x100x9_S9x64_S40000x100x64_2_0_01_1_n_n

/-! ## The operand indices of the contraction, axis by axis -/

theorem linDot_lhs0 (i : S40000x100x64.Idx) (q : linDot.contr.Idx) : (linDot.lhsIdx i q 0).val = (i 0).val := by
  unfold DotDims.lhsIdx
  rw [dif_neg (show ¬(0 : Fin S40000x100x9.rank) ∈ linDot.lhsBatch by decide),
    dif_pos (show (0 : Fin S40000x100x9.rank) ∈ linDot.lhsNonContracting by decide)]
  rfl

theorem linDot_lhs1 (i : S40000x100x64.Idx) (q : linDot.contr.Idx) : (linDot.lhsIdx i q 1).val = (i 1).val := by
  unfold DotDims.lhsIdx
  rw [dif_neg (show ¬(1 : Fin S40000x100x9.rank) ∈ linDot.lhsBatch by decide),
    dif_pos (show (1 : Fin S40000x100x9.rank) ∈ linDot.lhsNonContracting by decide)]
  rfl

theorem linDot_lhs2 (i : S40000x100x64.Idx) (q : linDot.contr.Idx) :
    (linDot.lhsIdx i q 2).val = (q ⟨0, by decide⟩).val :=
  linDot.lhsIdx_val_of_single rfl i q

theorem linDot_rhs0 (i : S40000x100x64.Idx) (q : linDot.contr.Idx) :
    (linDot.rhsIdx i q 0).val = (q ⟨0, by decide⟩).val :=
  linDot.rhsIdx_val_of_single rfl i q

theorem linDot_rhs1 (i : S40000x100x64.Idx) (q : linDot.contr.Idx) : (linDot.rhsIdx i q 1).val = (i 2).val := by
  unfold DotDims.rhsIdx
  rw [dif_neg (show ¬(1 : Fin S9x64.rank) ∈ linDot.rhsBatch by decide),
    dif_pos (show (1 : Fin S9x64.rank) ∈ linDot.rhsNonContracting by decide)]
  rfl

/-! ## The layout steps at an index -/

/-- An array of points given a last axis of extent one reads the array at the point. -/
theorem col_apply (x : FVec Ideal S40000x100 .f32) (p : Fin 40000) (j : Fin 100) (u : Fin 1) :
    col (F := Ideal) x (ix3 p j u) = x (ix2 p j) := by
  unfold col
  exact broadcastInDim_apply _ _ _ (ix3 p j u) (ix2 p j) (fun a => by
    match a with | ⟨0, _⟩ => rfl | ⟨1, _⟩ => rfl)

/-- The mask with its unit last axis, spread along the nine, reads the mask at the point. -/
theorem maskSpread_apply (msk : FVec Ideal S40000x100 .f32) (p : Fin 40000) (j : Fin 100) (k : Fin 9) :
    broadcastInDim S40000x100x9 ![0, 1, 2] bcast_S40000x100x1_S40000x100x9_0_1_2 (col (F := Ideal) msk) (ix3 p j k)
      = msk (ix2 p j) := by
  rw [broadcastInDim_apply _ _ _ (ix3 p j k) (ix3 p j (0 : Fin 1)) (fun a => by
    match a with | ⟨0, _⟩ => rfl | ⟨1, _⟩ => rfl | ⟨2, _⟩ => rfl)]
  exact col_apply msk p j 0

/-- Nine arrays with a unit last axis, stacked along it, read at (pillar, point, k): the k-th array at (pillar, point, 0). -/
theorem stackedCols_apply (c0 c1 c2 c3 c4 c5 c6 c7 c8 : FVec Ideal S40000x100x1 .f32) (p : Fin 40000) (j : Fin 100) (k : Fin 9) :
    stackedCols (F := Ideal) c0 c1 c2 c3 c4 c5 c6 c7 c8 (ix3 p j k) = (![c0, c1, c2, c3, c4, c5, c6, c7, c8] k) (ix3 p j (0 : Fin 1)) := by
  unfold stackedCols
  exact concatenate_ofFn_unit_apply (t := S40000x100x9) (s₁ := S40000x100x1) 2 ![c0, c1, c2, c3, c4, c5, c6, c7, c8] _ rfl rfl
    (ix3 p j k) k rfl (ix3 p j (0 : Fin 1)) (fun b hb => by
      match b, hb with
      | ⟨0, _⟩, _ => rfl
      | ⟨1, _⟩, _ => rfl
      | ⟨2, _⟩, hb => exact absurd rfl hb)

/-- The k-th of the nine features with its unit last axis, at (pillar, point, 0), is the k-th feature at the point. -/
theorem cols_apply (f0 f1 f2 f3 f4 f5 f6 f7 f8 : FVec Ideal S40000x100 .f32) (p : Fin 40000) (j : Fin 100) (k : Fin 9) :
    (![col (F := Ideal) f0, col (F := Ideal) f1, col (F := Ideal) f2, col (F := Ideal) f3, col (F := Ideal) f4, col (F := Ideal) f5, col (F := Ideal) f6, col (F := Ideal) f7, col (F := Ideal) f8] k) (ix3 p j (0 : Fin 1))
      = (![f0, f1, f2, f3, f4, f5, f6, f7, f8] k) (ix2 p j) := by
  fin_cases k <;> exact col_apply _ p j 0

/-- The linear layer at (pillar, point, channel): the sum over the nine features of the feature at the point times the
    mask at the point times the weight at (feature, channel). -/
theorem linear_apply (f0 f1 f2 f3 f4 f5 f6 f7 f8 msk : FVec Ideal S40000x100 .f32) (w : FVec Ideal S9x64 .f32)
    (p : Fin 40000) (j : Fin 100) (d : Fin 64) :
    linear (F := Ideal) f0 f1 f2 f3 f4 f5 f6 f7 f8 msk w (ix3 p j d)
      = ∑ k : Fin 9, ((![f0, f1, f2, f3, f4, f5, f6, f7, f8] k) (ix2 p j) * msk (ix2 p j)) * w (ix2 k d) := by
  unfold linear linearCols
  show FloatOps.dotGeneral linDot none _ _ w (ix3 p j d) = _
  rw [Ideal.dotGeneral_apply, ← Equiv.sum_comp (contrEquiv1 linDot 9 rfl rfl).symm]
  refine Finset.sum_congr rfl fun k _ => ?_
  have hk := contrEquiv1_symm_val linDot 9 rfl rfl k
  have el : linDot.lhsIdx (ix3 p j d) ((contrEquiv1 linDot 9 rfl rfl).symm k) = ix3 p j k :=
    funext fun a => Fin.ext (by
      match a with
      | ⟨0, _⟩ => exact linDot_lhs0 _ _
      | ⟨1, _⟩ => exact linDot_lhs1 _ _
      | ⟨2, _⟩ => exact (linDot_lhs2 _ _).trans hk)
  have er : linDot.rhsIdx (ix3 p j d) ((contrEquiv1 linDot 9 rfl rfl).symm k) = ix2 k d :=
    funext fun a => Fin.ext (by
      match a with
      | ⟨0, _⟩ => exact (linDot_rhs0 _ _).trans hk
      | ⟨1, _⟩ => exact linDot_rhs1 _ _)
  rw [el, er, mulf_apply, stackedCols_apply, maskSpread_apply, cols_apply]

end Cert.ReferenceIdeal.RefValue

end
-- ==== Proof.RefTail.lean ====
/-
  The reference's tail, read at an entry: from a linear layer `l` over all pillars, points and channels to the
  layer's result at pillar `p`, channel `d`.

  The batch mean of a channel is its sum over all 40000 x 100 points over the element count. The variance is the sum
  of the squared deviations from that mean over the element count less zero degrees of freedom, selected because that
  divisor is positive. A point's value is normalised by them, scaled and shifted by the channel's entries of the two
  vectors, clipped at zero, and the result is the maximum over the pillar's points, taken from minus infinity.
-/
import proofs.«123623_j214748364885_2_alg».proof.Proof.RefStages
import proofs.«123623_j214748364885_2_alg».proof.Proof.Spec
import proofs.«123623_j214748364885_2_alg».proof.Proof.Consts
import Idealize.ShloMosaic.Lib.IdealHost
import Idealize.ShloMosaic.Lib.Pipeline.Value
import Idealize.ShloMosaic.PureOps.Ideal.Laws
import Idealize.ShloMosaic.PureOps.Reduce

noncomputable section

namespace Cert.ReferenceIdeal.RefValue

open Cert.ReferenceIdeal Cert.ReferenceIdeal.Gen Idealize.ShloMosaic Idealize.ShloMosaic.ValueIdx Cert.PFN

/-! ## Sums over all points of a channel -/

/-- The indices that reduce to channel `d` are the (p, j, d). -/
def chanEmb (d : Fin 64) : Fin 40000 × Fin 100 ↪ S40000x100x64.Idx :=
  ⟨fun pj => ix3 pj.1 pj.2 d, fun a b h => Prod.ext (by have := congrFun h 0; exact this) (by have := congrFun h 1; exact this)⟩

theorem drop_ix3 (p : Fin 40000) (j : Fin 100) (d : Fin 64) :
    reducesTo_S40000x100x64_S64_d0_1.drop (ix3 p j d) = ix1 d := by
  funext b
  match b with
  | ⟨0, _⟩ => rfl

theorem filter_chan (d : Fin 64) :
    Finset.univ.filter (fun i : S40000x100x64.Idx => reducesTo_S40000x100x64_S64_d0_1.drop i = ix1 d)
      = Finset.univ.map (chanEmb d) := by
  ext i
  simp only [Finset.mem_filter, Finset.mem_univ, true_and, Finset.mem_map, chanEmb, Function.Embedding.coeFn_mk]
  constructor
  · intro h
    refine ⟨(i 0, i 1), ?_⟩
    have h2 : i 2 = d := by have := congrFun h 0; exact this
    show ix3 (i 0) (i 1) d = i
    rw [← h2]
    exact (eq_ix3 i).symm
  · rintro ⟨pj, rfl⟩
    exact drop_ix3 pj.1 pj.2 d

/-- A channel's sum over all points. -/
theorem chanSum_apply (l : FVec Ideal S40000x100x64 .f32) (d : Fin 64) :
    chanSum l (ix1 d) = ∑ p : Fin 40000, ∑ j : Fin 100, l (ix3 p j d) := by
  unfold chanSum
  rw [hostReduceAdd_apply]
  unfold Ideal.hostReduceAdd
  rw [filter_chan, Finset.sum_map, Fintype.sum_prod_type]
  show Ideal.ofBits .f32 0x00000000#32 + _ = _
  rw [ofBits_zero_word, zero_add]
  rfl

/-! ## Broadcasts -/

/-- A scalar word spread over a shape reads the word everywhere. -/
theorem word_row_apply (T : Shape) (h : S_.BroadcastsInDim T ![]) (w : BitVec 32) (i : T.Idx) :
    broadcastInDim T ![] h (constant (F := Ideal) S_ .f32 w) i = Ideal.ofBits .f32 w := by
  rw [broadcastInDim_scalar_apply]; rfl

/-- A per-channel vector spread over every pillar and point reads the channel's entry. -/
theorem spread_apply (v : FVec Ideal S64 .f32) (p : Fin 40000) (j : Fin 100) (d : Fin 64) :
    spread v (ix3 p j d) = v (ix1 d) := by
  unfold spread
  refine (broadcastInDim_apply _ _ _ (ix3 p j d) (ix3 (0 : Fin 1) (0 : Fin 1) d) (fun a => ?_)).trans ?_
  · match a with
    | ⟨0, _⟩ => rfl
    | ⟨1, _⟩ => rfl
    | ⟨2, _⟩ => rfl
  · exact broadcastInDim_apply _ _ _ _ (ix1 d) (fun a => match a with | ⟨0, _⟩ => rfl)

/-! ## The batch moments -/

theorem batchMean_apply (l : FVec Ideal S40000x100x64 .f32) (d : Fin 64) :
    batchMean l (ix1 d) = bmean fun p j => l (ix3 p j d) := by
  unfold batchMean
  rw [hostDivf_apply, chanSum_apply, word_row_apply]
  rfl

theorem devs_apply (l : FVec Ideal S40000x100x64 .f32) (p : Fin 40000) (j : Fin 100) (d : Fin 64) :
    devs l (ix3 p j d) = l (ix3 p j d) - bmean fun p j => l (ix3 p j d) := by
  unfold devs
  rw [subf_apply]
  refine congrArg (l (ix3 p j d) - ·) ?_
  refine (broadcastInDim_apply _ _ _ (ix3 p j d) (ix3 (0 : Fin 1) (0 : Fin 1) d) (fun a => ?_)).trans ?_
  · match a with
    | ⟨0, _⟩ => rfl
    | ⟨1, _⟩ => rfl
    | ⟨2, _⟩ => rfl
  · rw [hostDivf_apply, word_row_apply]
    refine congrArg (Ideal.div · (Ideal.ofBits .f32 0x4A742400#32)) ?_
    exact (broadcastInDim_apply _ _ _ _ (ix1 d) (fun a => match a with | ⟨0, _⟩ => rfl)).trans (chanSum_apply l d)

/-- The variance's divisor is the element count. -/
theorem varDen_apply (i : S_.Idx) : varDen (F := Ideal) i = kN := by
  unfold varDen
  show Ideal.ofBits .f32 0x4A742400#32 - (((0#32 : BitVec 32).toInt : ℝ) : EReal) = kN
  have : (((0#32 : BitVec 32).toInt : ℝ) : EReal) = 0 := by
    rw [show (0#32 : BitVec 32).toInt = 0 from by decide]; simp
  rw [this, sub_zero]
  rfl

theorem batchVar_apply (l : FVec Ideal S40000x100x64 .f32) (d : Fin 64) :
    batchVar l (ix1 d) = varCentred fun p j => l (ix3 p j d) := by
  unfold batchVar
  rw [select_apply]
  have hc : broadcastInDim S64 ![] bcast_S_S64 (cmpf .ogt (varDen (F := Ideal)) (constant S_ .f32 0x00000000#32)) (ix1 d) = 1#1 := by
    rw [broadcastInDim_scalar_apply, cmpf_apply, varDen_apply]
    show Ideal.cmp .ogt kN (Ideal.ofBits .f32 0x00000000#32) = 1#1
    rw [ofBits_zero_word]
    unfold Ideal.cmp
    simp [kN_pos]
  rw [hc, select_one, hostDivf_apply, chanSum_apply, broadcastInDim_scalar_apply, varDen_apply]
  unfold varCentred
  refine congrArg (Ideal.div · kN) ?_
  refine Finset.sum_congr rfl fun p _ => Finset.sum_congr rfl fun j _ => ?_
  rw [mulf_apply, devs_apply]

/-! ## Normalise, clip, pool -/

theorem normed_apply (l : FVec Ideal S40000x100x64 .f32) (mu var g b : FVec Ideal S64 .f32) (p : Fin 40000) (j : Fin 100) (d : Fin 64) :
    normed l mu var g b (ix3 p j d)
      = ((l (ix3 p j d) - mu (ix1 d)) * Ideal.rsqrt (var (ix1 d) + keps)) * g (ix1 d) + b (ix1 d) := by
  unfold normed
  rw [addf_apply, mulf_apply, mulf_apply, subf_apply, spread_apply, spread_apply, spread_apply, spread_apply]
  show ((l (ix3 p j d) - mu (ix1 d)) * Ideal.rsqrt (var (ix1 d) + broadcastInDim S64 ![] bcast_S_S64 (constant (F := Ideal) S_ .f32 0x3727C5AC#32) (ix1 d))) * g (ix1 d) + b (ix1 d) = _
  rw [word_row_apply]
  rfl

/-- The word of minus infinity denotes the bottom of the extended reals. -/
theorem ofBits_neg_inf : Ideal.ofBits .f32 0xFF800000#32 = ⊥ := by
  simp [Ideal.ofBits, Ideal.ieee]

theorem pooled_apply (x : FVec Ideal S40000x100x64 .f32) (p : Fin 40000) (d : Fin 64) :
    pooled x (ix2 p d) = pool fun j => max (x (ix3 p j d)) kz := by
  unfold pooled
  have hR : S40000x100x64.Reduces [1] S40000x64 := by decide
  refine (Host.reduce_eq_fold_single FloatOps.maximumf _ _ reducesTo_S40000x100x64_S40000x64_d1 hR h_S_ (ix2 p d)).trans ?_
  have hf : ((maximumf x (broadcastInDim S40000x100x64 ![] bcast_S_S40000x100x64 (constant (F := Ideal) S_ .f32 0x00000000#32))) ∘ hR.lift (ix2 p d))
      = fun j : Fin 100 => max (x (ix3 p j d)) kz := by
    funext j
    have hi : hR.lift (ix2 p d) j = ix3 p j d := by
      funext a
      apply Fin.ext
      match a with
      | ⟨0, _⟩ => rfl
      | ⟨1, _⟩ => rfl
      | ⟨2, _⟩ => rfl
    show max (x (hR.lift (ix2 p d) j)) (broadcastInDim S40000x100x64 ![] bcast_S_S40000x100x64 (constant (F := Ideal) S_ .f32 0x00000000#32) (hR.lift (ix2 p d) j)) = _
    rw [word_row_apply, hi]
    rfl
  rw [hf]
  show Finset.fold max (Ideal.ofBits .f32 0xFF800000#32) (fun j : Fin 100 => max (x (ix3 p j d)) kz) Finset.univ = _
  rw [ofBits_neg_inf]
  rfl

/-- The layer's result from a linear layer, at pillar `p` and channel `d`. -/
theorem outOf_apply (l : FVec Ideal S40000x100x64 .f32) (a7 a8 : FVec Ideal S64 .f32) (p : Fin 40000) (d : Fin 64) :
    outOf l a7 a8 (ix2 p d)
      = pool fun j => bnRelu (l (ix3 p j d)) (bmean fun p j => l (ix3 p j d)) (varCentred fun p j => l (ix3 p j d))
          (a7 (ix1 d)) (a8 (ix1 d)) := by
  unfold outOf
  rw [pooled_apply]
  refine congrArg pool (funext fun j => ?_)
  rw [normed_apply, batchMean_apply, batchVar_apply]
  rfl

end Cert.ReferenceIdeal.RefValue

end
-- ==== Proof.RefValue.lean ====
/-
  The reference's result read at an index. The result is the tail of the layer (batch moments, normalisation, clip,
  maximum over the points) applied to the linear layer; the tail at (pillar, channel) is the specification's pooled,
  normalised value of whatever linear layer it is given, and the reference's linear layer at (pillar, point, channel)
  is the specification's, the contraction over the nine masked features. So the reference's result is the
  specification's with the variance taken as the mean of squared deviations.
-/
import proofs.«123623_j214748364885_2_alg».proof.Proof.RefLin
import proofs.«123623_j214748364885_2_alg».proof.Proof.RefLinear
import proofs.«123623_j214748364885_2_alg».proof.Proof.RefTail

noncomputable section

namespace Cert.ReferenceIdeal.RefValue

open Cert.ReferenceIdeal Cert.ReferenceIdeal.Gen Idealize.ShloMosaic Idealize.ShloMosaic.ValueIdx

/-- The reference's linear layer at (pillar, point, channel) is the specification's. -/
theorem lin_apply (a0 a1 a2 a3 : FVec Ideal S40000x100 .f32) (a4 : IVec S40000 32) (a5 : IVec S40000x4 32)
    (a6 : FVec Ideal S9x64 .f32) (p : Fin 40000) (j : Fin 100) (d : Fin 64) :
    lin (F := Ideal) a0 a1 a2 a3 a4 a5 a6 (ix3 p j d) = Cert.PFN.linArr a0 a1 a2 a3 a4 a5 a6 p j d :=
  lin_apply_of linear_apply a0 a1 a2 a3 a4 a5 a6 p j d

/-- The reference's result at (pillar, channel) is the specification's layer with the centred variance. -/
theorem refOut_apply (a0 a1 a2 a3 : FVec Ideal S40000x100 .f32) (a4 : IVec S40000 32) (a5 : IVec S40000x4 32)
    (a6 : FVec Ideal S9x64 .f32) (a7 a8 : FVec Ideal S64 .f32) (p : Fin 40000) (d : Fin 64) :
    refOut a0 a1 a2 a3 a4 a5 a6 a7 a8 (ix2 p d) = Cert.PFN.outWith Cert.PFN.varCentred a0 a1 a2 a3 a4 a5 a6 a7 a8 p d := by
  unfold refOut Cert.PFN.outWith
  rw [outOf_apply]
  simp only [lin_apply]

end Cert.ReferenceIdeal.RefValue

end
-- ==== Proof.lean ====
/-
  The certificate of the pillar feature layer: a Pallas kernel in two launches against its jnp reference.

  Both programs compute, for 40000 pillars of 100 points, the nine per-point features (coordinates, intensity, offsets
  from the pillar's mean, the two bird's-eye-view centres), mask them by the pillar's point count, contract them with a
  9 x 64 weight, batch-normalise each of the 64 channels over all 4,000,000 points, scale, shift, clip at zero and
  take the maximum over a pillar's points.

  The kernel's first launch accumulates, over a grid of 100 tiles of 400 pillars, each channel's sum and sum of squares;
  the host divides both by the number of points and forms the variance as mean of squares less squared mean; the second
  launch recomputes the linear layer tile by tile, normalises and pools. The reference forms the same linear layer by
  one contraction and the variance as the mean of squared deviations from the mean. Over the extended reals the two
  linear layers are the same sums, and the two variances are equal because every entry is a real number: the
  precondition makes every float input finite, the point count is clamped to at least one, and products, sums and
  quotients by nonzero reals of reals are reals. Equal variances give equal normalised values, entry by entry.

  The three frames: the two kernel programs' are the generated ones; the reference's is its run with the result
  dropped. The idealization rewrote nothing, so what it must preserve is trivial.
-/
import proofs.«123623_j214748364885_2_alg».proof.Defs
import proofs.«123623_j214748364885_2_alg».proof.Proof.Gen.Kernel
import proofs.«123623_j214748364885_2_alg».proof.Proof.Gen.Kernel.Frame
import proofs.«123623_j214748364885_2_alg».proof.Proof.Gen.KernelIdeal
import proofs.«123623_j214748364885_2_alg».proof.Proof.Gen.KernelIdeal.Frame
import proofs.«123623_j214748364885_2_alg».proof.Proof.Gen.ReferenceIdeal
import proofs.«123623_j214748364885_2_alg».proof.Proof.Gen.Pre_finite_inputs
import proofs.«123623_j214748364885_2_alg».proof.Proof.KRun
import proofs.«123623_j214748364885_2_alg».proof.Proof.KValue
import proofs.«123623_j214748364885_2_alg».proof.Proof.AlgFinite
import proofs.«123623_j214748364885_2_alg».proof.Proof.FinPre
import proofs.«123623_j214748364885_2_alg».proof.Proof.RefRun
import proofs.«123623_j214748364885_2_alg».proof.Proof.RefValue
import Idealize.ShloMosaic.Adequacy
import Idealize.ShloMosaic.Init

noncomputable section

namespace Cert.Proof

open Idealize.ShloMosaic Idealize.ShloMosaic.TcCoe Idealize.SL.Sem Idealize.ShloMosaic.ValueIdx

section Claims

variable [hK : Cert.Kernel.Facts] [hKI : Cert.KernelIdeal.Facts] [hRI : Cert.ReferenceIdeal.Facts] [hP : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

/-- The kernel's result array ends at the pooled normalised layer with the variance in its moments form, the
    reference's with the variance in its centred form, of arrays that agree; the two forms are equal on finite inputs. -/
theorem algebraic : Cert.algebraic_KernelIdeal_ReferenceIdeal := by
  intro m ρ m' ρ' hpre hagree
  refine ⟨fun c => (Cert.KernelIdeal.Gen.dat1 (Cert.KernelIdeal.Gen.V3 m ρ) c).arrAt 11 Cert.KernelIdeal.cfg1.N,
    Cert.KernelIdeal.KRun.run (F := Ideal) m ρ, ?_⟩
  refine (θ_run Cert.ReferenceIdeal.defs _ _).mono (fun _ h c => ⟨(h c).1.trans ?_, (h c).2⟩)
    (Cert.ReferenceIdeal.RefValue.run m' ρ')
  obtain ⟨e0, e1, e2, e3, e4, e5, e6, e7, e8⟩ := hagree c
  rw [e0, e1, e2, e3, e4, e5, e6, e7, e8]
  obtain ⟨h0, h1, h2, h3, h6⟩ := Cert.PFN.Pre.real_of_pre m hpre c
  funext i
  obtain ⟨p, d, rfl⟩ : ∃ (p : Fin 40000) (d : Fin 64), i = ix2 p d := ⟨i 0, i 1, eq_ix2 i⟩
  rw [Cert.ReferenceIdeal.RefValue.refOut_apply]
  refine Eq.trans ?_ (Cert.KernelIdeal.KV.result_apply m ρ c p d).symm
  exact (Cert.PFN.outWith_var_eq _ _ _ _ _ _ _ _ _ h0 h1 h2 h3 h6 p d).symm

end Claims

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
